-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v255)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v255) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x1600000 : Shape := ⟨3, ![3, 2, 1600000]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_v13 : IVec S_ 1) (main_v16 : IVec S3x128x64 1) : IVec S_ 1 :=
  let main_c_5 : IVec S_ 1 := constantI S_ 1 1#1
  let main_v17 : IVec S_ 1 := (fun x v => Host.reduce IntOp.andi x v reducesTo_S3x128x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x128 .f32) (main_arg1 : IVec S3x2x1600000 32) (main_arg2 : FVec F S3x128x128 .f32) (main_arg3 : FVec F S3x128 .f32) (main_arg4 : FVec F S3x128x64 .f32) (main_arg5 : FVec F S3x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x64 .f32 := Host.absf main_arg4
  let main_cst_4 : FVec F S_ .f32 := constant S_ .f32 0x7F800000#32
  let main_v15 : FVec F S3x128x64 .f32 := broadcastInDim S3x128x64 ![] bcast_S_S3x128x64 main_cst_4
  let main_v16 : IVec S3x128x64 1 := cmpf .olt main_v14 main_v15
  fn_part1 (F := F) main_arg5 main_v13 main_v16
-- ==== Kernel.lean ====
abbrev S100000x128 : Shape := ⟨2, ![100000, 128]⟩
abbrev S3x2x1600000 : Shape := ⟨3, ![3, 2, 1600000]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S3x1x1600000 : Shape := ⟨3, ![3, 1, 1600000]⟩
abbrev S3x1600000 : Shape := ⟨2, ![3, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x100000 : Shape := ⟨2, ![1, 100000]⟩
abbrev S3x100000 : Shape := ⟨2, ![3, 100000]⟩
abbrev S3x100000x1 : Shape := ⟨3, ![3, 100000, 1]⟩
abbrev S3x100000x128 : Shape := ⟨3, ![3, 100000, 128]⟩
abbrev S2000x128 : Shape := ⟨2, ![2000, 128]⟩
abbrev S1x2000x1 : Shape := ⟨3, ![1, 2000, 1]⟩
abbrev S1x128x128 : Shape := ⟨3, ![1, 128, 128]⟩
abbrev S1x2000x128 : Shape := ⟨3, ![1, 2000, 128]⟩
abbrev S2000x1 : Shape := ⟨2, ![2000, 1]⟩
abbrev S128x128 : Shape := ⟨2, ![128, 128]⟩
abbrev S1x100000x128 : Shape := ⟨3, ![1, 100000, 128]⟩
abbrev S1600000x128 : Shape := ⟨2, ![1600000, 128]⟩
abbrev S3x2000x128 : Shape := ⟨3, ![3, 2000, 128]⟩
abbrev S3x2000x1 : Shape := ⟨3, ![3, 2000, 1]⟩
abbrev S1x128 : Shape := ⟨2, ![1, 128]⟩
abbrev S128 : Shape := ⟨1, ![128]⟩
abbrev S3x100000x64 : Shape := ⟨3, ![3, 100000, 64]⟩
abbrev S1x128x64 : Shape := ⟨3, ![1, 128, 64]⟩
abbrev S1x2000x64 : Shape := ⟨3, ![1, 2000, 64]⟩
abbrev S128x64 : Shape := ⟨2, ![128, 64]⟩
abbrev S2000x64 : Shape := ⟨2, ![2000, 64]⟩
abbrev S1x100000x64 : Shape := ⟨3, ![1, 100000, 64]⟩
abbrev S100000x64 : Shape := ⟨2, ![100000, 64]⟩
abbrev S1600000x64 : Shape := ⟨2, ![1600000, 64]⟩
abbrev S3x2000x64 : Shape := ⟨3, ![3, 2000, 64]⟩
abbrev S1x64 : Shape := ⟨2, ![1, 64]⟩
abbrev S64 : Shape := ⟨1, ![64]⟩

abbrev nBuf : Space → Nat
  | .hbm => 328
  | .vmem => 30
  | .smem => 0
  | _ => 0

abbrev hbmTy0_0 (i : Nat) : BufTy := match i % 128 with
  | 0 => ⟨S100000x128, .f32⟩
  | 1 => ⟨S3x2x1600000, .i32⟩
  | 2 => ⟨S3x128x128, .f32⟩
  | 3 => ⟨S3x128, .f32⟩
  | 4 => ⟨S3x128x64, .f32⟩
  | 5 => ⟨S3x64, .f32⟩
  | 6 => ⟨S3x1x1600000, .i32⟩
  | 7 => ⟨S3x1600000, .i32⟩
  | 8 => ⟨S3x1x1600000, .i32⟩
  | 9 => ⟨S3x1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .f32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S1x1600000, .i32⟩
  | 39 => ⟨S1600000, .i32⟩
  | 40 => ⟨S_, .f32⟩
  | 41 => ⟨S1600000, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S1x100000, .f32⟩
  | 53 => ⟨S1x100000, .f32⟩
  | 54 => ⟨S1x100000, .f32⟩
  | 55 => ⟨S3x100000, .f32⟩
  | 56 => ⟨S3x100000x1, .f32⟩
  | 57 => ⟨S1x1600000, .i32⟩
  | 58 => ⟨S1600000, .i32⟩
  | 59 => ⟨S_, .f32⟩
  | 60 => ⟨S1600000, .f32⟩
  | 61 => ⟨S_, .f32⟩
  | 62 => ⟨S100000, .f32⟩
  | 63 => ⟨S1600000x1, .i32⟩
  | 64 => ⟨S100000, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .f32⟩
  | 71 => ⟨S1x1600000, .i32⟩
  | 72 => ⟨S1600000, .i32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .f32⟩
  | 85 => ⟨S1x1600000, .i32⟩
  | 86 => ⟨S1600000, .i32⟩
  | 87 => ⟨S_, .f32⟩
  | 88 => ⟨S1600000, .f32⟩
  | 89 => ⟨S_, .f32⟩
  | 90 => ⟨S100000, .f32⟩
  | 91 => ⟨S1600000x1, .i32⟩
  | 92 => ⟨S100000, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .f32⟩
  | 99 => ⟨S1x100000, .f32⟩
  | 100 => ⟨S1x100000, .f32⟩
  | 101 => ⟨S1x100000, .f32⟩
  | 102 => ⟨S3x100000, .f32⟩
  | 103 => ⟨S3x100000x1, .f32⟩
  | 104 => ⟨S3x100000x128, .f32⟩
  | 105 => ⟨S1x100000x128, .f32⟩
  | 106 => ⟨S100000x128, .f32⟩
  | 107 => ⟨S1x1600000, .i32⟩
  | 108 => ⟨S1600000, .i32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S1x1600000, .i32⟩
  | 119 => ⟨S1600000, .i32⟩
  | 120 => ⟨S_, .f32⟩
  | 121 => ⟨S100000x128, .f32⟩
  | 122 => ⟨S1600000x1, .i32⟩
  | 123 => ⟨S100000x128, .f32⟩
  | 124 => ⟨S1x100000x128, .f32⟩
  | 125 => ⟨S100000x128, .f32⟩
  | 126 => ⟨S1x1600000, .i32⟩
  | 127 => ⟨S1600000, .i32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S1x1600000, .i32⟩
  | 10 => ⟨S1600000, .i32⟩
  | 11 => ⟨S_, .f32⟩
  | 12 => ⟨S100000x128, .f32⟩
  | 13 => ⟨S1600000x1, .i32⟩
  | 14 => ⟨S100000x128, .f32⟩
  | 15 => ⟨S1x100000x128, .f32⟩
  | 16 => ⟨S100000x128, .f32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S1x1600000, .i32⟩
  | 29 => ⟨S1600000, .i32⟩
  | 30 => ⟨S_, .f32⟩
  | 31 => ⟨S100000x128, .f32⟩
  | 32 => ⟨S1600000x1, .i32⟩
  | 33 => ⟨S100000x128, .f32⟩
  | 34 => ⟨S1x100000x128, .f32⟩
  | 35 => ⟨S1x100000x128, .f32⟩
  | 36 => ⟨S1x100000x128, .f32⟩
  | 37 => ⟨S3x100000x128, .f32⟩
  | 38 => ⟨S100000x128, .f32⟩
  | 39 => ⟨S3x1x1600000, .i32⟩
  | 40 => ⟨S3x1600000, .i32⟩
  | 41 => ⟨S3x1x1600000, .i32⟩
  | 42 => ⟨S3x1600000, .i32⟩
  | 43 => ⟨S1x1600000, .i32⟩
  | 44 => ⟨S1600000, .i32⟩
  | 45 => ⟨S_, .f32⟩
  | 46 => ⟨S1600000, .f32⟩
  | 47 => ⟨S_, .f32⟩
  | 48 => ⟨S100000, .f32⟩
  | 49 => ⟨S1600000x1, .i32⟩
  | 50 => ⟨S100000, .f32⟩
  | 51 => ⟨S_, .f32⟩
  | 52 => ⟨S100000, .f32⟩
  | 53 => ⟨S100000, .f32⟩
  | 54 => ⟨S_, .f32⟩
  | 55 => ⟨S100000, .f32⟩
  | 56 => ⟨S100000, .f32⟩
  | 57 => ⟨S1x1600000, .i32⟩
  | 58 => ⟨S1600000, .i32⟩
  | 59 => ⟨S_, .f32⟩
  | 60 => ⟨S1600000, .f32⟩
  | 61 => ⟨S_, .f32⟩
  | 62 => ⟨S100000, .f32⟩
  | 63 => ⟨S1600000x1, .i32⟩
  | 64 => ⟨S100000, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .f32⟩
  | 71 => ⟨S1x1600000, .i32⟩
  | 72 => ⟨S1600000, .i32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .f32⟩
  | 85 => ⟨S1x100000, .f32⟩
  | 86 => ⟨S1x100000, .f32⟩
  | 87 => ⟨S1x100000, .f32⟩
  | 88 => ⟨S3x100000, .f32⟩
  | 89 => ⟨S3x100000x1, .f32⟩
  | 90 => ⟨S1x1600000, .i32⟩
  | 91 => ⟨S1600000, .i32⟩
  | 92 => ⟨S_, .f32⟩
  | 93 => ⟨S1600000, .f32⟩
  | 94 => ⟨S_, .f32⟩
  | 95 => ⟨S100000, .f32⟩
  | 96 => ⟨S1600000x1, .i32⟩
  | 97 => ⟨S100000, .f32⟩
  | 98 => ⟨S_, .f32⟩
  | 99 => ⟨S100000, .f32⟩
  | 100 => ⟨S100000, .f32⟩
  | 101 => ⟨S_, .f32⟩
  | 102 => ⟨S100000, .f32⟩
  | 103 => ⟨S100000, .f32⟩
  | 104 => ⟨S1x1600000, .i32⟩
  | 105 => ⟨S1600000, .i32⟩
  | 106 => ⟨S_, .f32⟩
  | 107 => ⟨S1600000, .f32⟩
  | 108 => ⟨S_, .f32⟩
  | 109 => ⟨S100000, .f32⟩
  | 110 => ⟨S1600000x1, .i32⟩
  | 111 => ⟨S100000, .f32⟩
  | 112 => ⟨S_, .f32⟩
  | 113 => ⟨S100000, .f32⟩
  | 114 => ⟨S100000, .f32⟩
  | 115 => ⟨S_, .f32⟩
  | 116 => ⟨S100000, .f32⟩
  | 117 => ⟨S100000, .f32⟩
  | 118 => ⟨S1x1600000, .i32⟩
  | 119 => ⟨S1600000, .i32⟩
  | 120 => ⟨S_, .f32⟩
  | 121 => ⟨S1600000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S100000, .f32⟩
  | _ => ⟨S100000x128, .f32⟩

abbrev hbmTy0_2 (i : Nat) : BufTy := match i % 128 with
  | 0 => ⟨S100000, .f32⟩
  | 1 => ⟨S_, .f32⟩
  | 2 => ⟨S100000, .f32⟩
  | 3 => ⟨S100000, .f32⟩
  | 4 => ⟨S1x100000, .f32⟩
  | 5 => ⟨S1x100000, .f32⟩
  | 6 => ⟨S1x100000, .f32⟩
  | 7 => ⟨S3x100000, .f32⟩
  | 8 => ⟨S3x100000x1, .f32⟩
  | 9 => ⟨S3x100000x64, .f32⟩
  | 10 => ⟨S1x100000x64, .f32⟩
  | 11 => ⟨S100000x64, .f32⟩
  | 12 => ⟨S1x1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1x1600000, .i32⟩
  | 24 => ⟨S1600000, .i32⟩
  | 25 => ⟨S_, .f32⟩
  | 26 => ⟨S100000x64, .f32⟩
  | 27 => ⟨S1600000x1, .i32⟩
  | 28 => ⟨S100000x64, .f32⟩
  | 29 => ⟨S1x100000x64, .f32⟩
  | 30 => ⟨S100000x64, .f32⟩
  | 31 => ⟨S1x1600000, .i32⟩
  | 32 => ⟨S1600000, .i32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S1x1600000, .i32⟩
  | 43 => ⟨S1600000, .i32⟩
  | 44 => ⟨S_, .f32⟩
  | 45 => ⟨S100000x64, .f32⟩
  | 46 => ⟨S1600000x1, .i32⟩
  | 47 => ⟨S100000x64, .f32⟩
  | 48 => ⟨S1x100000x64, .f32⟩
  | 49 => ⟨S100000x64, .f32⟩
  | 50 => ⟨S1x1600000, .i32⟩
  | 51 => ⟨S1600000, .i32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1x1600000, .i32⟩
  | 62 => ⟨S1600000, .i32⟩
  | 63 => ⟨S_, .f32⟩
  | 64 => ⟨S100000x64, .f32⟩
  | 65 => ⟨S1600000x1, .i32⟩
  | 66 => ⟨S100000x64, .f32⟩
  | 67 => ⟨S1x100000x64, .f32⟩
  | 68 => ⟨S1x100000x64, .f32⟩
  | 69 => ⟨S1x100000x64, .f32⟩
  | 70 => ⟨S3x100000x64, .f32⟩
  | 71 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S1x2000x1, .f32⟩
  | .local _ .vmem, ⟨3, _⟩ => ⟨S1x2000x1, .f32⟩
  | .local _ .vmem, ⟨4, _⟩ => ⟨S1x128x128, .f32⟩
  | .local _ .vmem, ⟨5, _⟩ => ⟨S1x128x128, .f32⟩
  | .local _ .vmem, ⟨6, _⟩ => ⟨S1x2000x128, .f32⟩
  | .local _ .vmem, ⟨7, _⟩ => ⟨S1x2000x128, .f32⟩
  | .local _ .vmem, ⟨8, _⟩ => ⟨S3x2000x128, .f32⟩
  | .local _ .vmem, ⟨9, _⟩ => ⟨S3x2000x128, .f32⟩
  | .local _ .vmem, ⟨10, _⟩ => ⟨S3x2000x1, .f32⟩
  | .local _ .vmem, ⟨11, _⟩ => ⟨S3x2000x1, .f32⟩
  | .local _ .vmem, ⟨12, _⟩ => ⟨S3x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x2000x1, .f32⟩
  | .local _ .vmem, ⟨18, _⟩ => ⟨S1x2000x1, .f32⟩
  | .local _ .vmem, ⟨19, _⟩ => ⟨S1x128x64, .f32⟩
  | .local _ .vmem, ⟨20, _⟩ => ⟨S1x128x64, .f32⟩
  | .local _ .vmem, ⟨21, _⟩ => ⟨S1x2000x64, .f32⟩
  | .local _ .vmem, ⟨22, _⟩ => ⟨S1x2000x64, .f32⟩
  | .local _ .vmem, ⟨23, _⟩ => ⟨S3x2000x64, .f32⟩
  | .local _ .vmem, ⟨24, _⟩ => ⟨S3x2000x64, .f32⟩
  | .local _ .vmem, ⟨25, _⟩ => ⟨S3x2000x1, .f32⟩
  | .local _ .vmem, ⟨26, _⟩ => ⟨S3x2000x1, .f32⟩
  | .local _ .vmem, ⟨27, _⟩ => ⟨S3x64, .f32⟩
  | .local _ .vmem, ⟨28, _⟩ => ⟨S2000x64, .f32⟩
  | .local _ .vmem, ⟨29, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_19 : Ref sig .tc := ⟨.hbm, 87, rfl⟩
abbrev main_v61 : Ref sig .tc := ⟨.hbm, 88, rfl⟩
abbrev main_cst_20 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_21 : Ref sig .tc := ⟨.hbm, 93, rfl⟩
abbrev main_v65 : Ref sig .tc := ⟨.hbm, 94, rfl⟩
abbrev main_v66 : Ref sig .tc := ⟨.hbm, 95, rfl⟩
abbrev main_cst_22 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c : Ref sig .tc := ⟨.hbm, 109, rfl⟩
abbrev main_v79 : Ref sig .tc := ⟨.hbm, 110, rfl⟩
abbrev main_v80 : Ref sig .tc := ⟨.hbm, 111, rfl⟩
abbrev main_c_23 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_24 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_25 : Ref sig .tc := ⟨.hbm, 128, rfl⟩
abbrev main_v95 : Ref sig .tc := ⟨.hbm, 129, rfl⟩
abbrev main_v96 : Ref sig .tc := ⟨.hbm, 130, rfl⟩
abbrev main_c_26 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_27 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_28 : Ref sig .tc := ⟨.hbm, 147, rfl⟩
abbrev main_v111 : Ref sig .tc := ⟨.hbm, 148, rfl⟩
abbrev main_v112 : Ref sig .tc := ⟨.hbm, 149, rfl⟩
abbrev main_c_29 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_30 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_31 : Ref sig .tc := ⟨.hbm, 173, rfl⟩
abbrev main_v134 : Ref sig .tc := ⟨.hbm, 174, rfl⟩
abbrev main_cst_32 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_33 : Ref sig .tc := ⟨.hbm, 179, rfl⟩
abbrev main_v138 : Ref sig .tc := ⟨.hbm, 180, rfl⟩
abbrev main_v139 : Ref sig .tc := ⟨.hbm, 181, rfl⟩
abbrev main_cst_34 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_35 : Ref sig .tc := ⟨.hbm, 187, rfl⟩
abbrev main_v144 : Ref sig .tc := ⟨.hbm, 188, rfl⟩
abbrev main_cst_36 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_37 : Ref sig .tc := ⟨.hbm, 193, rfl⟩
abbrev main_v148 : Ref sig .tc := ⟨.hbm, 194, rfl⟩
abbrev main_v149 : Ref sig .tc := ⟨.hbm, 195, rfl⟩
abbrev main_cst_38 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_39 : Ref sig .tc := ⟨.hbm, 201, rfl⟩
abbrev main_v154 : Ref sig .tc := ⟨.hbm, 202, rfl⟩
abbrev main_cst_40 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_41 : Ref sig .tc := ⟨.hbm, 207, rfl⟩
abbrev main_v158 : Ref sig .tc := ⟨.hbm, 208, rfl⟩
abbrev main_v159 : Ref sig .tc := ⟨.hbm, 209, rfl⟩
abbrev main_cst_42 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_43 : Ref sig .tc := ⟨.hbm, 220, rfl⟩
abbrev main_v169 : Ref sig .tc := ⟨.hbm, 221, rfl⟩
abbrev main_cst_44 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_45 : Ref sig .tc := ⟨.hbm, 226, rfl⟩
abbrev main_v173 : Ref sig .tc := ⟨.hbm, 227, rfl⟩
abbrev main_v174 : Ref sig .tc := ⟨.hbm, 228, rfl⟩
abbrev main_cst_46 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_47 : Ref sig .tc := ⟨.hbm, 234, rfl⟩
abbrev main_v179 : Ref sig .tc := ⟨.hbm, 235, rfl⟩
abbrev main_cst_48 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_cst_49 : Ref sig .tc := ⟨.hbm, 240, rfl⟩
abbrev main_v183 : Ref sig .tc := ⟨.hbm, 241, rfl⟩
abbrev main_v184 : Ref sig .tc := ⟨.hbm, 242, rfl⟩
abbrev main_cst_50 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_cst_51 : Ref sig .tc := ⟨.hbm, 248, rfl⟩
abbrev main_v189 : Ref sig .tc := ⟨.hbm, 249, rfl⟩
abbrev main_cst_52 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_cst_53 : Ref sig .tc := ⟨.hbm, 254, rfl⟩
abbrev main_v193 : Ref sig .tc := ⟨.hbm, 255, rfl⟩
abbrev main_v194 : Ref sig .tc := ⟨.hbm, 256, rfl⟩
abbrev main_cst_54 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_c_55 : Ref sig .tc := ⟨.hbm, 270, rfl⟩
abbrev main_v207 : Ref sig .tc := ⟨.hbm, 271, rfl⟩
abbrev main_v208 : Ref sig .tc := ⟨.hbm, 272, rfl⟩
abbrev main_c_56 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_cst_57 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_c_58 : Ref sig .tc := ⟨.hbm, 289, rfl⟩
abbrev main_v223 : Ref sig .tc := ⟨.hbm, 290, rfl⟩
abbrev main_v224 : Ref sig .tc := ⟨.hbm, 291, rfl⟩
abbrev main_c_59 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_cst_60 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_c_61 : Ref sig .tc := ⟨.hbm, 308, rfl⟩
abbrev main_v239 : Ref sig .tc := ⟨.hbm, 309, rfl⟩
abbrev main_v240 : Ref sig .tc := ⟨.hbm, 310, rfl⟩
abbrev main_c_62 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_cst_63 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![50, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![50, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![50], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3x2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3x2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S3x2x1600000_S3x1x1600000_0_0_0 : S3x2x1600000.Slices ![0, 0, 0] S3x1x1600000
  shapeCasts_S3x1x1600000_S3x1600000 : S3x1x1600000.ShapeCasts S3x1600000
  slices_S3x2x1600000_S3x1x1600000_0_1_0 : S3x2x1600000.Slices ![0, 1, 0] S3x1x1600000
  slices_S3x1600000_S1x1600000_0_0 : S3x1600000.Slices ![0, 0] S1x1600000
  shapeCasts_S1x1600000_S1600000 : S1x1600000.ShapeCasts S1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x1600000_S1x1600000_1_0 : S3x1600000.Slices ![1, 0] S1x1600000
  slices_S3x1600000_S1x1600000_2_0 : S3x1600000.Slices ![2, 0] S1x1600000
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  bcast_S3x100000_S3x100000x1_0_1 : S3x100000.BroadcastsInDim S3x100000x1 (![0, 1] : Fin 2 → Fin S3x100000x1.rank)
  inb_S2000x128_S2000x128_0_0 : ∀ a, (![0, 0] : Fin 2 → Nat) a + S2000x128.size a ≤ S2000x128.size a
  h_S2000x128 : 0 < S2000x128.numel
  inb_S1x2000x1_S1x2000x1_0_0_0 : ∀ a, (![0, 0, 0] : Fin 3 → Nat) a + S1x2000x1.size a ≤ S1x2000x1.size a
  h_S1x2000x1 : 0 < S1x2000x1.numel
  shapeCasts_S1x2000x1_S2000x1 : S1x2000x1.ShapeCasts S2000x1
  broadcasts_S2000x1_S2000x128 : S2000x1.Broadcasts S2000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  slices_S3x100000x128_S1x100000x128_0_0_0 : S3x100000x128.Slices ![0, 0, 0] S1x100000x128
  shapeCasts_S1x100000x128_S100000x128 : S1x100000x128.ShapeCasts S100000x128
  bcast_S_S100000x128 : S_.BroadcastsInDim S100000x128 (![] : Fin 0 → Fin S100000x128.rank)
  slices_S3x100000x128_S1x100000x128_1_0_0 : S3x100000x128.Slices ![1, 0, 0] S1x100000x128
  slices_S3x100000x128_S1x100000x128_2_0_0 : S3x100000x128.Slices ![2, 0, 0] S1x100000x128
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  inb_S3x2000x128_S1x2000x128_0_0_0 : ∀ a, (![0, 0, 0] : Fin 3 → Nat) a + S1x2000x128.size a ≤ S3x2000x128.size a
  inb_S3x2000x1_S1x2000x1_0_0_0 : ∀ a, (![0, 0, 0] : Fin 3 → Nat) a + S1x2000x1.size a ≤ S3x2000x1.size a
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  inb_S3x2000x128_S1x2000x128_1_0_0 : ∀ a, (![1, 0, 0] : Fin 3 → Nat) a + S1x2000x128.size a ≤ S3x2000x128.size a
  inb_S3x2000x1_S1x2000x1_1_0_0 : ∀ a, (![1, 0, 0] : Fin 3 → Nat) a + S1x2000x1.size a ≤ S3x2000x1.size a
  inb_S3x128_S1x128_1_0 : ∀ a, (![1, 0] : Fin 2 → Nat) a + S1x128.size a ≤ S3x128.size a
  inb_S3x2000x128_S1x2000x128_2_0_0 : ∀ a, (![2, 0, 0] : Fin 3 → Nat) a + S1x2000x128.size a ≤ S3x2000x128.size a
  inb_S3x2000x1_S1x2000x1_2_0_0 : ∀ a, (![2, 0, 0] : Fin 3 → Nat) a + S1x2000x1.size a ≤ S3x2000x1.size a
  inb_S3x128_S1x128_2_0 : ∀ a, (![2, 0] : Fin 2 → Nat) a + S1x128.size a ≤ S3x128.size a
  shapeCasts_S2000x128_S2000x128 : S2000x128.ShapeCasts S2000x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x2000x64_S1x2000x64_0_0_0 : ∀ a, (![0, 0, 0] : Fin 3 → Nat) a + S1x2000x64.size a ≤ S1x2000x64.size a
  h_S1x2000x64 : 0 < S1x2000x64.numel
  shapeCasts_S1x2000x64_S2000x64 : S1x2000x64.ShapeCasts S2000x64
  shapeCasts_S2000x64_S1x2000x64 : S2000x64.ShapeCasts S1x2000x64
  slices_S3x100000x64_S1x100000x64_0_0_0 : S3x100000x64.Slices ![0, 0, 0] S1x100000x64
  shapeCasts_S1x100000x64_S100000x64 : S1x100000x64.ShapeCasts S100000x64
  bcast_S_S100000x64 : S_.BroadcastsInDim S100000x64 (![] : Fin 0 → Fin S100000x64.rank)
  slices_S3x100000x64_S1x100000x64_1_0_0 : S3x100000x64.Slices ![1, 0, 0] S1x100000x64
  slices_S3x100000x64_S1x100000x64_2_0_0 : S3x100000x64.Slices ![2, 0, 0] S1x100000x64
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  inb_S3x2000x64_S1x2000x64_0_0_0 : ∀ a, (![0, 0, 0] : Fin 3 → Nat) a + S1x2000x64.size a ≤ S3x2000x64.size a
  broadcasts_S2000x1_S2000x64 : S2000x1.Broadcasts S2000x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S2000x64 : S1x64.Broadcasts S2000x64
  inb_S3x2000x64_S1x2000x64_1_0_0 : ∀ a, (![1, 0, 0] : Fin 3 → Nat) a + S1x2000x64.size a ≤ S3x2000x64.size a
  inb_S3x64_S1x64_1_0 : ∀ a, (![1, 0] : Fin 2 → Nat) a + S1x64.size a ≤ S3x64.size a
  inb_S3x2000x64_S1x2000x64_2_0_0 : ∀ a, (![2, 0, 0] : Fin 3 → Nat) a + S1x2000x64.size a ≤ S3x2000x64.size a
  inb_S3x64_S1x64_2_0 : ∀ a, (![2, 0] : Fin 2 → Nat) a + S1x64.size a ≤ S3x64.size a
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x1.size a ≤ S3x100000x1.size a
  hwx0_1 : ∀ i : grid0.Coords, EltTy.bits .f32 = 32 ∨ (Rect.block (s := S3x100000x1) S1x2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S3x128x128.size a
  hwx0_2 : ∀ i : grid0.Coords, EltTy.bits .f32 = 32 ∨ (Rect.block (s := S3x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x128.size a ≤ S3x100000x128.size a
  hwx0_3 : ∀ i : grid0.Coords, EltTy.bits .f32 = 32 ∨ (Rect.block (s := S3x100000x128) S1x2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x128.size a ≤ S3x100000x128.size a
  hwx1_0 : ∀ i : grid1.Coords, EltTy.bits .f32 = 32 ∨ (Rect.block (s := S3x100000x128) S3x2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x2000x1.size a ≤ S3x100000x1.size a
  hwx1_1 : ∀ i : grid1.Coords, EltTy.bits .f32 = 32 ∨ (Rect.block (s := S3x100000x1) S3x2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2000x1.size a ≤ S3x100000x1.size a
  hwx2_1 : ∀ i : grid2.Coords, EltTy.bits .f32 = 32 ∨ (Rect.block (s := S3x100000x1) S1x2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128x64.size a ≤ S3x128x64.size a
  hwx2_2 : ∀ i : grid2.Coords, EltTy.bits .f32 = 32 ∨ (Rect.block (s := S3x128x64) S1x128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2000x64.size a ≤ S3x100000x64.size a
  hwx2_3 : ∀ i : grid2.Coords, EltTy.bits .f32 = 32 ∨ (Rect.block (s := S3x100000x64) S1x2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3x2000x64.size a ≤ S3x100000x64.size a
  hwx3_0 : ∀ i : grid3.Coords, EltTy.bits .f32 = 32 ∨ (Rect.block (s := S3x100000x64) S3x2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3x2000x1.size a ≤ S3x100000x1.size a
  hwx3_1 : ∀ i : grid3.Coords, EltTy.bits .f32 = 32 ∨ (Rect.block (s := S3x100000x1) S3x2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x64.size a ≤ S3x64.size a
  hwx3_2 : ∀ i : grid3.Coords, EltTy.bits .f32 = 32 ∨ (Rect.block (s := S3x64) S3x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S1x2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v126) S3x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S3x2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v127) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v127) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v166) S1x2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1x128x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v202) S1x2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v254) S3x2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v201) S3x2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S3x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v255) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S3x2x1600000 : Shape := ⟨3, ![3, 2, 1600000]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S_ : Shape := ⟨0, ![]⟩
abbrev S1600000 : Shape := ⟨1, ![1600000]⟩
abbrev S1x1x1600000 : Shape := ⟨3, ![1, 1, 1600000]⟩
abbrev S100000 : Shape := ⟨1, ![100000]⟩
abbrev S1600000x1 : Shape := ⟨2, ![1600000, 1]⟩
abbrev S100000x1 : Shape := ⟨2, ![100000, 1]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩
abbrev S128 : Shape := ⟨1, ![128]⟩
abbrev S100000x64 : Shape := ⟨2, ![100000, 64]⟩
abbrev S1x128x64 : Shape := ⟨3, ![1, 128, 64]⟩
abbrev S128x64 : Shape := ⟨2, ![128, 64]⟩
abbrev S1600000x64 : Shape := ⟨2, ![1600000, 64]⟩
abbrev S1x64 : Shape := ⟨2, ![1, 64]⟩
abbrev S64 : Shape := ⟨1, ![64]⟩

abbrev nBuf : Space → Nat
  | .hbm => 329
  | .vmem => 0
  | .smem => 0
  | _ => 0

abbrev hbmTy0_0 (i : Nat) : BufTy := match i % 128 with
  | 0 => ⟨S100000x128, .f32⟩
  | 1 => ⟨S3x2x1600000, .i32⟩
  | 2 => ⟨S3x128x128, .f32⟩
  | 3 => ⟨S3x128, .f32⟩
  | 4 => ⟨S3x128x64, .f32⟩
  | 5 => ⟨S3x64, .f32⟩
  | 6 => ⟨S_, .f32⟩
  | 7 => ⟨S1600000, .f32⟩
  | 8 => ⟨S_, .f32⟩
  | 9 => ⟨S100000x128, .f32⟩
  | 10 => ⟨S1x1x1600000, .i32⟩
  | 11 => ⟨S1600000, .i32⟩
  | 12 => ⟨S1x1x1600000, .i32⟩
  | 13 => ⟨S1600000, .i32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S1x128x128, .f32⟩
  | 35 => ⟨S128x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S1x1x1600000, .i32⟩
  | 63 => ⟨S1600000, .i32⟩
  | 64 => ⟨S1x1x1600000, .i32⟩
  | 65 => ⟨S1600000, .i32⟩
  | 66 => ⟨S_, .f32⟩
  | 67 => ⟨S100000, .f32⟩
  | 68 => ⟨S1600000x1, .i32⟩
  | 69 => ⟨S100000, .f32⟩
  | 70 => ⟨S_, .f32⟩
  | 71 => ⟨S100000, .f32⟩
  | 72 => ⟨S100000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S_, .f32⟩
  | 103 => ⟨S100000, .f32⟩
  | 104 => ⟨S100000, .f32⟩
  | 105 => ⟨S100000x1, .f32⟩
  | 106 => ⟨S100000x128, .f32⟩
  | 107 => ⟨S100000x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S1x1x1600000, .i32⟩
  | 115 => ⟨S1600000, .i32⟩
  | 116 => ⟨S1x1x1600000, .i32⟩
  | 117 => ⟨S1600000, .i32⟩
  | 118 => ⟨S_, .f32⟩
  | 119 => ⟨S100000, .f32⟩
  | 120 => ⟨S1600000x1, .i32⟩
  | 121 => ⟨S100000, .f32⟩
  | 122 => ⟨S_, .f32⟩
  | 123 => ⟨S100000, .f32⟩
  | 124 => ⟨S100000, .f32⟩
  | 125 => ⟨S_, .f32⟩
  | 126 => ⟨S100000, .f32⟩
  | 127 => ⟨S1600000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x128, .f32⟩
  | 9 => ⟨S100000x128, .f32⟩
  | 10 => ⟨S1x128x128, .f32⟩
  | 11 => ⟨S128x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S_, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S_, .f32⟩
  | 42 => ⟨S1600000, .f32⟩
  | 43 => ⟨S_, .f32⟩
  | 44 => ⟨S100000x64, .f32⟩
  | 45 => ⟨S1x1x1600000, .i32⟩
  | 46 => ⟨S1600000, .i32⟩
  | 47 => ⟨S1x1x1600000, .i32⟩
  | 48 => ⟨S1600000, .i32⟩
  | 49 => ⟨S_, .f32⟩
  | 50 => ⟨S100000, .f32⟩
  | 51 => ⟨S1600000x1, .i32⟩
  | 52 => ⟨S100000, .f32⟩
  | 53 => ⟨S_, .f32⟩
  | 54 => ⟨S100000, .f32⟩
  | 55 => ⟨S100000, .f32⟩
  | 56 => ⟨S_, .f32⟩
  | 57 => ⟨S100000, .f32⟩
  | 58 => ⟨S1600000x1, .i32⟩
  | 59 => ⟨S100000, .f32⟩
  | 60 => ⟨S_, .f32⟩
  | 61 => ⟨S100000, .f32⟩
  | 62 => ⟨S100000, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S1x128x64, .f32⟩
  | 70 => ⟨S128x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S_, .f32⟩
  | 86 => ⟨S100000, .f32⟩
  | 87 => ⟨S100000, .f32⟩
  | 88 => ⟨S100000x1, .f32⟩
  | 89 => ⟨S100000x64, .f32⟩
  | 90 => ⟨S100000x64, .f32⟩
  | 91 => ⟨S100000x64, .f32⟩
  | 92 => ⟨S1x64, .f32⟩
  | 93 => ⟨S64, .f32⟩
  | 94 => ⟨S1x64, .f32⟩
  | 95 => ⟨S100000x64, .f32⟩
  | 96 => ⟨S100000x64, .f32⟩
  | 97 => ⟨S1x1x1600000, .i32⟩
  | 98 => ⟨S1600000, .i32⟩
  | 99 => ⟨S1x1x1600000, .i32⟩
  | 100 => ⟨S1600000, .i32⟩
  | 101 => ⟨S_, .f32⟩
  | 102 => ⟨S100000, .f32⟩
  | 103 => ⟨S1600000x1, .i32⟩
  | 104 => ⟨S100000, .f32⟩
  | 105 => ⟨S_, .f32⟩
  | 106 => ⟨S100000, .f32⟩
  | 107 => ⟨S100000, .f32⟩
  | 108 => ⟨S_, .f32⟩
  | 109 => ⟨S100000, .f32⟩
  | 110 => ⟨S1600000x1, .i32⟩
  | 111 => ⟨S100000, .f32⟩
  | 112 => ⟨S_, .f32⟩
  | 113 => ⟨S100000, .f32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S1x128x64, .f32⟩
  | 122 => ⟨S128x64, .f32⟩
  | 123 => ⟨S100000x64, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_2 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S_, .f32⟩
  | 10 => ⟨S100000, .f32⟩
  | 11 => ⟨S100000, .f32⟩
  | 12 => ⟨S100000x1, .f32⟩
  | 13 => ⟨S100000x64, .f32⟩
  | 14 => ⟨S100000x64, .f32⟩
  | 15 => ⟨S100000x64, .f32⟩
  | 16 => ⟨S1x64, .f32⟩
  | 17 => ⟨S64, .f32⟩
  | 18 => ⟨S1x64, .f32⟩
  | 19 => ⟨S100000x64, .f32⟩
  | 20 => ⟨S100000x64, .f32⟩
  | 21 => ⟨S1x1x1600000, .i32⟩
  | 22 => ⟨S1600000, .i32⟩
  | 23 => ⟨S1x1x1600000, .i32⟩
  | 24 => ⟨S1600000, .i32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S1x128x64, .f32⟩
  | 46 => ⟨S128x64, .f32⟩
  | 47 => ⟨S100000x64, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S_, .f32⟩
  | 62 => ⟨S100000, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_14 : Ref sig .tc := ⟨.hbm, 89, rfl⟩
abbrev main_v67 : Ref sig .tc := ⟨.hbm, 90, rfl⟩
abbrev main_v68 : Ref sig .tc := ⟨.hbm, 91, rfl⟩
abbrev main_c_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_18 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_19 : Ref sig .tc := ⟨.hbm, 122, rfl⟩
abbrev main_v95 : Ref sig .tc := ⟨.hbm, 123, rfl⟩
abbrev main_v96 : Ref sig .tc := ⟨.hbm, 124, rfl⟩
abbrev main_cst_20 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_21 : Ref sig .tc := ⟨.hbm, 129, rfl⟩
abbrev main_v100 : Ref sig .tc := ⟨.hbm, 130, rfl⟩
abbrev main_v101 : Ref sig .tc := ⟨.hbm, 131, rfl⟩
abbrev main_cst_22 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_23 : Ref sig .tc := ⟨.hbm, 141, rfl⟩
abbrev main_v110 : Ref sig .tc := ⟨.hbm, 142, rfl⟩
abbrev main_v111 : Ref sig .tc := ⟨.hbm, 143, rfl⟩
abbrev main_c_24 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_25 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_26 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_call0_cst : Ref sig .tc := ⟨.hbm, 166, rfl⟩
abbrev main_call0_v0 : Ref sig .tc := ⟨.hbm, 167, rfl⟩
abbrev main_v131 : Ref sig .tc := ⟨.hbm, 168, rfl⟩
abbrev main_cst_27 : Ref sig .tc := ⟨.hbm, 169, rfl⟩
abbrev main_v132 : Ref sig .tc := ⟨.hbm, 170, rfl⟩
abbrev main_cst_28 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_29 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_30 : Ref sig .tc := ⟨.hbm, 181, rfl⟩
abbrev main_v141 : Ref sig .tc := ⟨.hbm, 182, rfl⟩
abbrev main_v142 : Ref sig .tc := ⟨.hbm, 183, rfl⟩
abbrev main_cst_31 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_32 : Ref sig .tc := ⟨.hbm, 188, rfl⟩
abbrev main_v146 : Ref sig .tc := ⟨.hbm, 189, rfl⟩
abbrev main_v147 : Ref sig .tc := ⟨.hbm, 190, rfl⟩
abbrev main_cst_33 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_c_34 : Ref sig .tc := ⟨.hbm, 200, rfl⟩
abbrev main_v156 : Ref sig .tc := ⟨.hbm, 201, rfl⟩
abbrev main_v157 : Ref sig .tc := ⟨.hbm, 202, rfl⟩
abbrev main_c_35 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_36 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_37 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_38 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_39 : Ref sig .tc := ⟨.hbm, 233, rfl⟩
abbrev main_v184 : Ref sig .tc := ⟨.hbm, 234, rfl⟩
abbrev main_v185 : Ref sig .tc := ⟨.hbm, 235, rfl⟩
abbrev main_cst_40 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_41 : Ref sig .tc := ⟨.hbm, 240, rfl⟩
abbrev main_v189 : Ref sig .tc := ⟨.hbm, 241, rfl⟩
abbrev main_v190 : Ref sig .tc := ⟨.hbm, 242, rfl⟩
abbrev main_cst_42 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_c_43 : Ref sig .tc := ⟨.hbm, 252, rfl⟩
abbrev main_v199 : Ref sig .tc := ⟨.hbm, 253, rfl⟩
abbrev main_v200 : Ref sig .tc := ⟨.hbm, 254, rfl⟩
abbrev main_c_44 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_cst_45 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_46 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_cst_47 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_cst_48 : Ref sig .tc := ⟨.hbm, 285, rfl⟩
abbrev main_v227 : Ref sig .tc := ⟨.hbm, 286, rfl⟩
abbrev main_v228 : Ref sig .tc := ⟨.hbm, 287, rfl⟩
abbrev main_cst_49 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_50 : Ref sig .tc := ⟨.hbm, 292, rfl⟩
abbrev main_v232 : Ref sig .tc := ⟨.hbm, 293, rfl⟩
abbrev main_v233 : Ref sig .tc := ⟨.hbm, 294, rfl⟩
abbrev main_cst_51 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_c_52 : Ref sig .tc := ⟨.hbm, 304, rfl⟩
abbrev main_v242 : Ref sig .tc := ⟨.hbm, 305, rfl⟩
abbrev main_v243 : Ref sig .tc := ⟨.hbm, 306, rfl⟩
abbrev main_c_53 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_cst_54 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_cst_55 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000x128 : S_.BroadcastsInDim S100000x128 (![] : Fin 0 → Fin S100000x128.rank)
  slices_S3x2x1600000_S1x1x1600000_0_0_0 : S3x2x1600000.Slices ![0, 0, 0] S1x1x1600000
  shapeCasts_S1x1x1600000_S1600000 : S1x1x1600000.ShapeCasts S1600000
  slices_S3x2x1600000_S1x1x1600000_0_1_0 : S3x2x1600000.Slices ![0, 1, 0] S1x1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x1600000_S1x1x1600000_1_0_0 : S3x2x1600000.Slices ![1, 0, 0] S1x1x1600000
  slices_S3x2x1600000_S1x1x1600000_1_1_0 : S3x2x1600000.Slices ![1, 1, 0] S1x1x1600000
  slices_S3x128x128_S1x128x128_1_0_0 : S3x128x128.Slices ![1, 0, 0] S1x128x128
  slices_S3x128_S1x128_1_0 : S3x128.Slices ![1, 0] S1x128
  slices_S3x2x1600000_S1x1x1600000_2_0_0 : S3x2x1600000.Slices ![2, 0, 0] S1x1x1600000
  slices_S3x2x1600000_S1x1x1600000_2_1_0 : S3x2x1600000.Slices ![2, 1, 0] S1x1x1600000
  slices_S3x128x128_S1x128x128_2_0_0 : S3x128x128.Slices ![2, 0, 0] S1x128x128
  slices_S3x128_S1x128_2_0 : S3x128.Slices ![2, 0] S1x128
  bcast_S_S100000x64 : S_.BroadcastsInDim S100000x64 (![] : Fin 0 → Fin S100000x64.rank)
  slices_S3x128x64_S1x128x64_0_0_0 : S3x128x64.Slices ![0, 0, 0] S1x128x64
  shapeCasts_S1x128x64_S128x64 : S1x128x64.ShapeCasts S128x64
  bcast_S100000x1_S100000x64_0_1 : S100000x1.BroadcastsInDim S100000x64 (![0, 1] : Fin 2 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KbFrDefs.lean ====
/-
  The frame of the program's four pallas_call regions, first part: definitions. Per region, at the buffer contents the region
  is entered with: each window's block at a grid point, what the body leaves in the output window's staging buffer (its one
  store of the skeleton's payload of the loaded blocks), and the pipeline's proof data. Then the contents of every buffer at
  each boundary of @main, folded from the launch memory through the host stretches and the regions' write-backs. The
  value side of the certificate reads the result array off this fold; the frame side runs @main over it.
-/
import proofs.«116805_j7318624272994_1_alg».proof.Proof.Gen.Kernel.Launch
import proofs.«116805_j7318624272994_1_alg».proof.Proof.Gen.Kernel.Skeleton
import proofs.«116805_j7318624272994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # Region 0: `cc0__scale_matmul_kernel`, at the buffer contents `V` the region is entered with -/

/-- Window `w`'s block at grid point `t`: the rectangle of the window's array (as `V` has it) that the point's index names. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the point's block whether or not the point fetched it: a point that does not fetch
    has the block index of the point before, and the body leaves an input's buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds the point's block whether or not the point fetched it: a point that does not fetch
    has the block index of the point before, and the body leaves an input's buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds the point's block whether or not the point fetched it: a point that does not fetch
    has the block index of the point before, and the body leaves an input's buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The rectangles the body reads and writes through. -/
abbrev r0_a : Rect S2000x128 := Rect.unit (s := S2000x128) ![0, 0] S2000x128.size inb_S2000x128_S2000x128_0_0
abbrev r0_b : Rect S1x2000x1 := Rect.unit (s := S1x2000x1) ![0, 0, 0] S1x2000x1.size inb_S1x2000x1_S1x2000x1_0_0_0
abbrev r0_c : Rect S1x128x128 := Rect.unit (s := S1x128x128) ![0, 0, 0] S1x128x128.size inb_S1x128x128_S1x128x128_0_0_0
abbrev r0_d : Rect S1x2000x128 := Rect.unit (s := S1x2000x128) ![0, 0, 0] S1x2000x128.size inb_S1x2000x128_S1x2000x128_0_0_0

/-- What the body leaves in the output window's staging buffer, as a function of the three input blocks: its one store, of
    the skeleton's payload of the loads, over the whole buffer. -/
def out0_3 (x0 : Vec F S2000x128 .f32) (x1 : Vec F S1x2000x1 .f32) (x2 : Vec F S1x128x128 .f32) : Vec F S1x2000x128 .f32 :=
  View.canon [⟨r0_d, k0_pay1 (View.ld x0 r0_a) (View.ld x1 r0_b) (View.ld x2 r0_c)⟩]

/-- The one store covers the buffer. -/
theorem cover0_3 (p0 : Vec F S1x2000x128 .f32) (y : S1x2000x128.Idx) :
    ∃ pc ∈ ([⟨r0_d, p0⟩] : List (View.Piece (Elt F) S1x2000x128 .f32)), y ∈ pc.1.set :=
  View.cover_of_tiled [⟨r0_d, p0⟩] S1x2000x128.size (by rfl) y

/-- The region's proof data on core `c`: the windows' arrays as `V` has them; after the body at point `t` each input's buffer
    at its block and the output's at `out0_3` of the input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! # Region 1: `cc1__combine_kernel`, at the buffer contents `V` the region is entered with -/

/-- Window `w`'s block at grid point `t`: the rectangle of the window's array (as `V` has it) that the point's index names. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the point's block whether or not the point fetched it: a point that does not fetch
    has the block index of the point before, and the body leaves an input's buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the point's block whether or not the point fetched it: a point that does not fetch
    has the block index of the point before, and the body leaves an input's buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds the point's block whether or not the point fetched it: a point that does not fetch
    has the block index of the point before, and the body leaves an input's buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes through. -/
abbrev r1_a0 : Rect S3x2000x128 := Rect.unit (s := S3x2000x128) ![0, 0, 0] S1x2000x128.size inb_S3x2000x128_S1x2000x128_0_0_0
abbrev r1_b0 : Rect S3x2000x1 := Rect.unit (s := S3x2000x1) ![0, 0, 0] S1x2000x1.size inb_S3x2000x1_S1x2000x1_0_0_0
abbrev r1_c0 : Rect S3x128 := Rect.unit (s := S3x128) ![0, 0] S1x128.size inb_S3x128_S1x128_0_0
abbrev r1_a1 : Rect S3x2000x128 := Rect.unit (s := S3x2000x128) ![1, 0, 0] S1x2000x128.size inb_S3x2000x128_S1x2000x128_1_0_0
abbrev r1_b1 : Rect S3x2000x1 := Rect.unit (s := S3x2000x1) ![1, 0, 0] S1x2000x1.size inb_S3x2000x1_S1x2000x1_1_0_0
abbrev r1_c1 : Rect S3x128 := Rect.unit (s := S3x128) ![1, 0] S1x128.size inb_S3x128_S1x128_1_0
abbrev r1_a2 : Rect S3x2000x128 := Rect.unit (s := S3x2000x128) ![2, 0, 0] S1x2000x128.size inb_S3x2000x128_S1x2000x128_2_0_0
abbrev r1_b2 : Rect S3x2000x1 := Rect.unit (s := S3x2000x1) ![2, 0, 0] S1x2000x1.size inb_S3x2000x1_S1x2000x1_2_0_0
abbrev r1_c2 : Rect S3x128 := Rect.unit (s := S3x128) ![2, 0] S1x128.size inb_S3x128_S1x128_2_0
abbrev r1_d : Rect S2000x128 := Rect.unit (s := S2000x128) ![0, 0] S2000x128.size inb_S2000x128_S2000x128_0_0

/-- What the body leaves in the output window's staging buffer, as a function of the three input blocks: its one store, of
    the skeleton's payload of the loads, over the whole buffer. -/
def out1_3 (x0 : Vec F S3x2000x128 .f32) (x1 : Vec F S3x2000x1 .f32) (x2 : Vec F S3x128 .f32) : Vec F S2000x128 .f32 :=
  View.canon [⟨r1_d, k1_pay1 (k1_pay2 (View.ld x0 r1_a0) (View.ld x1 r1_b0) (View.ld x2 r1_c0) (View.ld x0 r1_a1) (View.ld x1 r1_b1) (View.ld x2 r1_c1) (View.ld x0 r1_a2) (View.ld x1 r1_b2)) (k1_pay3 (View.ld x2 r1_c2))⟩]

/-- The one store covers the buffer. -/
theorem cover1_3 (p0 : Vec F S2000x128 .f32) (y : S2000x128.Idx) :
    ∃ pc ∈ ([⟨r1_d, p0⟩] : List (View.Piece (Elt F) S2000x128 .f32)), y ∈ pc.1.set :=
  View.cover_of_tiled [⟨r1_d, p0⟩] S2000x128.size (by rfl) y

/-- The region's proof data on core `c`: the windows' arrays as `V` has them; after the body at point `t` each input's buffer
    at its block and the output's at `out1_3` of the input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! # Region 2: `cc2__scale_matmul_kernel`, at the buffer contents `V` the region is entered with -/

/-- Window `w`'s block at grid point `t`: the rectangle of the window's array (as `V` has it) that the point's index names. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the point's block whether or not the point fetched it: a point that does not fetch
    has the block index of the point before, and the body leaves an input's buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds the point's block whether or not the point fetched it: a point that does not fetch
    has the block index of the point before, and the body leaves an input's buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds the point's block whether or not the point fetched it: a point that does not fetch
    has the block index of the point before, and the body leaves an input's buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The rectangles the body reads and writes through. -/
abbrev r2_a : Rect S2000x128 := Rect.unit (s := S2000x128) ![0, 0] S2000x128.size inb_S2000x128_S2000x128_0_0
abbrev r2_b : Rect S1x2000x1 := Rect.unit (s := S1x2000x1) ![0, 0, 0] S1x2000x1.size inb_S1x2000x1_S1x2000x1_0_0_0
abbrev r2_c : Rect S1x128x64 := Rect.unit (s := S1x128x64) ![0, 0, 0] S1x128x64.size inb_S1x128x64_S1x128x64_0_0_0
abbrev r2_d : Rect S1x2000x64 := Rect.unit (s := S1x2000x64) ![0, 0, 0] S1x2000x64.size inb_S1x2000x64_S1x2000x64_0_0_0

/-- What the body leaves in the output window's staging buffer, as a function of the three input blocks: its one store, of
    the skeleton's payload of the loads, over the whole buffer. -/
def out2_3 (x0 : Vec F S2000x128 .f32) (x1 : Vec F S1x2000x1 .f32) (x2 : Vec F S1x128x64 .f32) : Vec F S1x2000x64 .f32 :=
  View.canon [⟨r2_d, k2_pay1 (View.ld x0 r2_a) (View.ld x1 r2_b) (View.ld x2 r2_c)⟩]

/-- The one store covers the buffer. -/
theorem cover2_3 (p0 : Vec F S1x2000x64 .f32) (y : S1x2000x64.Idx) :
    ∃ pc ∈ ([⟨r2_d, p0⟩] : List (View.Piece (Elt F) S1x2000x64 .f32)), y ∈ pc.1.set :=
  View.cover_of_tiled [⟨r2_d, p0⟩] S1x2000x64.size (by rfl) y

/-- The region's proof data on core `c`: the windows' arrays as `V` has them; after the body at point `t` each input's buffer
    at its block and the output's at `out2_3` of the input blocks; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! # Region 3: `cc3__combine_kernel`, at the buffer contents `V` the region is entered with -/

/-- Window `w`'s block at grid point `t`: the rectangle of the window's array (as `V` has it) that the point's index names. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the point's block whether or not the point fetched it: a point that does not fetch
    has the block index of the point before, and the body leaves an input's buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the point's block whether or not the point fetched it: a point that does not fetch
    has the block index of the point before, and the body leaves an input's buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds the point's block whether or not the point fetched it: a point that does not fetch
    has the block index of the point before, and the body leaves an input's buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! The rectangles the body reads and writes through. -/
abbrev r3_a0 : Rect S3x2000x64 := Rect.unit (s := S3x2000x64) ![0, 0, 0] S1x2000x64.size inb_S3x2000x64_S1x2000x64_0_0_0
abbrev r3_b0 : Rect S3x2000x1 := Rect.unit (s := S3x2000x1) ![0, 0, 0] S1x2000x1.size inb_S3x2000x1_S1x2000x1_0_0_0
abbrev r3_c0 : Rect S3x64 := Rect.unit (s := S3x64) ![0, 0] S1x64.size inb_S3x64_S1x64_0_0
abbrev r3_a1 : Rect S3x2000x64 := Rect.unit (s := S3x2000x64) ![1, 0, 0] S1x2000x64.size inb_S3x2000x64_S1x2000x64_1_0_0
abbrev r3_b1 : Rect S3x2000x1 := Rect.unit (s := S3x2000x1) ![1, 0, 0] S1x2000x1.size inb_S3x2000x1_S1x2000x1_1_0_0
abbrev r3_c1 : Rect S3x64 := Rect.unit (s := S3x64) ![1, 0] S1x64.size inb_S3x64_S1x64_1_0
abbrev r3_a2 : Rect S3x2000x64 := Rect.unit (s := S3x2000x64) ![2, 0, 0] S1x2000x64.size inb_S3x2000x64_S1x2000x64_2_0_0
abbrev r3_b2 : Rect S3x2000x1 := Rect.unit (s := S3x2000x1) ![2, 0, 0] S1x2000x1.size inb_S3x2000x1_S1x2000x1_2_0_0
abbrev r3_c2 : Rect S3x64 := Rect.unit (s := S3x64) ![2, 0] S1x64.size inb_S3x64_S1x64_2_0
abbrev r3_d : Rect S2000x64 := Rect.unit (s := S2000x64) ![0, 0] S2000x64.size inb_S2000x64_S2000x64_0_0

/-- What the body leaves in the output window's staging buffer, as a function of the three input blocks: its one store, of
    the skeleton's payload of the loads, over the whole buffer. -/
def out3_3 (x0 : Vec F S3x2000x64 .f32) (x1 : Vec F S3x2000x1 .f32) (x2 : Vec F S3x64 .f32) : Vec F S2000x64 .f32 :=
  View.canon [⟨r3_d, k3_pay1 (k3_pay2 (View.ld x0 r3_a0) (View.ld x1 r3_b0) (View.ld x2 r3_c0) (View.ld x0 r3_a1) (View.ld x1 r3_b1) (View.ld x2 r3_c1) (View.ld x0 r3_a2) (View.ld x1 r3_b2)) (k3_pay3 (View.ld x2 r3_c2))⟩]

/-- The one store covers the buffer. -/
theorem cover3_3 (p0 : Vec F S2000x64 .f32) (y : S2000x64.Idx) :
    ∃ pc ∈ ([⟨r3_d, p0⟩] : List (View.Piece (Elt F) S2000x64 .f32)), y ∈ pc.1.set :=
  View.cover_of_tiled [⟨r3_d, p0⟩] S2000x64.size (by rfl) y

/-- The region's proof data on core `c`: the windows' arrays as `V` has them; after the body at point `t` each input's buffer
    at its block and the output's at `out3_3` of the input blocks; the invariant is the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Regions

/-! # The buffer contents at each boundary of @main: a fold from the launch memory

    @main is four stretches of host operations, each followed by a region. A stretch changes the contents by the fold of
    its operations; a region leaves its windows' arrays at what the pipeline's write-backs make of them (the inputs as
    entered, the output's blocks folded in) and every other buffer as entered. -/

/-- Core `c`'s buffers at launch. -/
abbrev W0 : Dev nD → Valuation τ sig (Elt F) := fun c b => (s₀ m ρ).mem ((c : Dev nD), b)
/-- After the host stretch `hostOps0`: what region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`: what region 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`: what region 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`: what region 3 is entered with. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

end Cert.Kernel.Fr

end
-- ==== Proof.KbFrFold.lean ====
/-
  The fold of buffer contents through @main, second part: what each step leaves unchanged. A host stretch changes only the
  buffers its operations write (listed here, in order); a region changes only its windows' arrays, and an input window's
  array not at all. Hence every argument array, which no stretch writes and which a region reads at most through an input
  window, holds its launch contents at every boundary.
-/
import proofs.«116805_j7318624272994_1_alg».proof.Proof.KbFrDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references the operations of `hostOps0` write. -/
abbrev hostOps0_W : List (Ref sig .tc) := [main_v0, main_v1, main_v2, main_v3, main_v4, main_v5, main_cst, main_v6, main_cst_0, main_v7, main_v8, main_v9, main_cst_1, main_v10, main_v11, main_cst_2, main_v12, main_v13, main_v14, main_v15, main_cst_3, main_v16, main_cst_4, main_v17, main_v18, main_v19, main_cst_5, main_v20, main_v21, main_cst_6, main_v22, main_v23, main_v24, main_v25, main_cst_7, main_v26, main_cst_8, main_v27, main_v28, main_v29, main_cst_9, main_v30, main_v31, main_cst_10, main_v32, main_v33, main_v34, main_v35, main_v36, main_v37, main_v38, main_v39, main_v40, main_cst_11, main_v41, main_cst_12, main_v42, main_v43, main_v44, main_cst_13, main_v45, main_v46, main_cst_14, main_v47, main_v48, main_v49, main_v50, main_cst_15, main_v51, main_cst_16, main_v52, main_v53, main_v54, main_cst_17, main_v55, main_v56, main_cst_18, main_v57, main_v58, main_v59, main_v60, main_cst_19, main_v61, main_cst_20, main_v62, main_v63, main_v64, main_cst_21, main_v65, main_v66, main_cst_22, main_v67, main_v68, main_v69, main_v70, main_v71, main_v72, main_v73]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- `hostOps0` leaves a buffer it does not write as it was. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Region 0 leaves an input window's array as entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- The references the operations of `hostOps1` write. -/
abbrev hostOps1_W : List (Ref sig .tc) := [main_v75, main_v76, main_v77, main_v78, main_c, main_v79, main_v80, main_c_23, main_v81, main_v82, main_v83, main_v84, main_v85, main_v86, main_v87, main_cst_24, main_v88, main_v89, main_v90, main_v91, main_v92, main_v93, main_v94, main_c_25, main_v95, main_v96, main_c_26, main_v97, main_v98, main_v99, main_v100, main_v101, main_v102, main_v103, main_cst_27, main_v104, main_v105, main_v106, main_v107, main_v108, main_v109, main_v110, main_c_28, main_v111, main_v112, main_c_29, main_v113, main_v114, main_v115, main_v116, main_v117, main_v118, main_v119, main_cst_30, main_v120, main_v121, main_v122, main_v123, main_v124, main_v125, main_v126]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- `hostOps1` leaves a buffer it does not write as it was. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Region 1 leaves an input window's array as entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- The references the operations of `hostOps2` write. -/
abbrev hostOps2_W : List (Ref sig .tc) := [main_v128, main_v129, main_v130, main_v131, main_v132, main_v133, main_cst_31, main_v134, main_cst_32, main_v135, main_v136, main_v137, main_cst_33, main_v138, main_v139, main_cst_34, main_v140, main_v141, main_v142, main_v143, main_cst_35, main_v144, main_cst_36, main_v145, main_v146, main_v147, main_cst_37, main_v148, main_v149, main_cst_38, main_v150, main_v151, main_v152, main_v153, main_cst_39, main_v154, main_cst_40, main_v155, main_v156, main_v157, main_cst_41, main_v158, main_v159, main_cst_42, main_v160, main_v161, main_v162, main_v163, main_v164, main_v165, main_v166, main_v167, main_v168, main_cst_43, main_v169, main_cst_44, main_v170, main_v171, main_v172, main_cst_45, main_v173, main_v174, main_cst_46, main_v175, main_v176, main_v177, main_v178, main_cst_47, main_v179, main_cst_48, main_v180, main_v181, main_v182, main_cst_49, main_v183, main_v184, main_cst_50, main_v185, main_v186, main_v187, main_v188, main_cst_51, main_v189, main_cst_52, main_v190, main_v191, main_v192, main_cst_53, main_v193, main_v194, main_cst_54, main_v195, main_v196, main_v197, main_v198, main_v199, main_v200, main_v201]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- `hostOps2` leaves a buffer it does not write as it was. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- Region 2 leaves an input window's array as entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- The references the operations of `hostOps3` write. -/
abbrev hostOps3_W : List (Ref sig .tc) := [main_v203, main_v204, main_v205, main_v206, main_c_55, main_v207, main_v208, main_c_56, main_v209, main_v210, main_v211, main_v212, main_v213, main_v214, main_v215, main_cst_57, main_v216, main_v217, main_v218, main_v219, main_v220, main_v221, main_v222, main_c_58, main_v223, main_v224, main_c_59, main_v225, main_v226, main_v227, main_v228, main_v229, main_v230, main_v231, main_cst_60, main_v232, main_v233, main_v234, main_v235, main_v236, main_v237, main_v238, main_c_61, main_v239, main_v240, main_c_62, main_v241, main_v242, main_v243, main_v244, main_v245, main_v246, main_v247, main_cst_63, main_v248, main_v249, main_v250, main_v251, main_v252, main_v253, main_v254]
set_option maxHeartbeats 4000000 in
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- `hostOps3` leaves a buffer it does not write as it was. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- Region 3 leaves an input window's array as entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ## The arguments at every boundary -/

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (W1_of m ρ c main_arg0 (by decide)).trans (W0_arg0 m ρ c)
theorem W2_arg0 (c : Dev nD) : W2 m ρ c (Proc.devRef .tc main_arg0) = m ((c : Thread nD τ).loc main_arg0) :=
  (W2_in m ρ c 0 rfl).trans (W1_arg0 m ρ c)
theorem W3_arg0 (c : Dev nD) : W3 m ρ c (Proc.devRef .tc main_arg0) = m ((c : Thread nD τ).loc main_arg0) :=
  (W3_of m ρ c main_arg0 (by decide)).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) :=
  (W5_of m ρ c main_arg0 (by decide)).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W7_arg0 (c : Dev nD) : W7 m ρ c (Proc.devRef .tc main_arg0) = m ((c : Thread nD τ).loc main_arg0) :=
  (W7_of m ρ c main_arg0 (by decide)).trans (W6_arg0 m ρ c)
theorem W8_arg0 (c : Dev nD) : W8 m ρ c (Proc.devRef .tc main_arg0) = m ((c : Thread nD τ).loc main_arg0) :=
  (W8_of_ne m ρ c main_arg0 (by decide)).trans (W7_arg0 m ρ c)

theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  (W1_of m ρ c main_arg1 (by decide)).trans (W0_arg1 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_of m ρ c main_arg1 (by decide)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (W5_of m ρ c main_arg1 (by decide)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (W7_of m ρ c main_arg1 (by decide)).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)

theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (W1_of m ρ c main_arg2 (by decide)).trans (W0_arg2 m ρ c)
theorem W2_arg2 (c : Dev nD) : W2 m ρ c (Proc.devRef .tc main_arg2) = m ((c : Thread nD τ).loc main_arg2) :=
  (W2_in m ρ c 2 rfl).trans (W1_arg2 m ρ c)
theorem W3_arg2 (c : Dev nD) : W3 m ρ c (Proc.devRef .tc main_arg2) = m ((c : Thread nD τ).loc main_arg2) :=
  (W3_of m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (W5_of m ρ c main_arg2 (by decide)).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (W7_of m ρ c main_arg2 (by decide)).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (W1_of m ρ c main_arg3 (by decide)).trans (W0_arg3 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (W3_of m ρ c main_arg3 (by decide)).trans (W2_arg3 m ρ c)
theorem W4_arg3 (c : Dev nD) : W4 m ρ c (Proc.devRef .tc main_arg3) = m ((c : Thread nD τ).loc main_arg3) :=
  (W4_in m ρ c 2 rfl).trans (W3_arg3 m ρ c)
theorem W5_arg3 (c : Dev nD) : W5 m ρ c (Proc.devRef .tc main_arg3) = m ((c : Thread nD τ).loc main_arg3) :=
  (W5_of m ρ c main_arg3 (by decide)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (W7_of m ρ c main_arg3 (by decide)).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (W1_of m ρ c main_arg4 (by decide)).trans (W0_arg4 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (W3_of m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (W5_of m ρ c main_arg4 (by decide)).trans (W4_arg4 m ρ c)
theorem W6_arg4 (c : Dev nD) : W6 m ρ c (Proc.devRef .tc main_arg4) = m ((c : Thread nD τ).loc main_arg4) :=
  (W6_in m ρ c 2 rfl).trans (W5_arg4 m ρ c)
theorem W7_arg4 (c : Dev nD) : W7 m ρ c (Proc.devRef .tc main_arg4) = m ((c : Thread nD τ).loc main_arg4) :=
  (W7_of m ρ c main_arg4 (by decide)).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)

theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (W1_of m ρ c main_arg5 (by decide)).trans (W0_arg5 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (W3_of m ρ c main_arg5 (by decide)).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (W5_of m ρ c main_arg5 (by decide)).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) :=
  (W7_of m ρ c main_arg5 (by decide)).trans (W6_arg5 m ρ c)
theorem W8_arg5 (c : Dev nD) : W8 m ρ c (Proc.devRef .tc main_arg5) = m ((c : Thread nD τ).loc main_arg5) :=
  (W8_in m ρ c 2 rfl).trans (W7_arg5 m ρ c)

end Cert.Kernel.Fr

end
-- ==== Proof.KbFrBody0.lean ====
/-
  Region 0's body obligation. The kernel body, called on whole staging buffers with the three inputs' at read contents and the
  output's at anything, runs to the end leaving the inputs' as they were and the output's at the canon of its one store
  (`out0_3` of the inputs): its loads are whole rectangles of the inputs (and one of the output buffer, whose value is not
  used), its store covers the output buffer. At every grid point the pipeline hands the body the inputs' buffers at their
  blocks (fetched there or not), so the obligation the launch theorem asks is this triple at the point's blocks.
-/
import proofs.«116805_j7318624272994_1_alg».proof.Proof.KbFrDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple on whole staging buffers. -/
theorem sound_kernel0 (c : Dev nD) (E : Set ℕ) (i : grid0.Coords)
    (a0 : Memref sig .tc .vmem S2000x128 .f32) (ha0 : a0.IsWhole) (a1 : Memref sig .tc .vmem S1x2000x1 .f32) (ha1 : a1.IsWhole)
    (a2 : Memref sig .tc .vmem S1x128x128 .f32) (ha2 : a2.IsWhole) (a3 : Memref sig .tc .vmem S1x2000x128 .f32) (ha3 : a3.IsWhole)
    (x0 : Vec F S2000x128 .f32) (x1 : Vec F S1x2000x1 .f32) (x2 : Vec F S1x128x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__scale_matmul_kernel i a0 ha0 a1 ha1 a2 ha2 a3 ha3) K := by
  simp only [cc0__scale_matmul_kernel_eq_skeleton]; unfold cc0__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KbFrBody1.lean ====
/-
  Region 1's body obligation. The kernel body, called on whole staging buffers with the three inputs' at read contents and the
  output's at anything, runs to the end leaving the inputs' as they were and the output's at the canon of its one store
  (`out1_3` of the inputs): its loads are whole rectangles of the inputs (and one of the output buffer, whose value is not
  used), its store covers the output buffer. At every grid point the pipeline hands the body the inputs' buffers at their
  blocks (fetched there or not), so the obligation the launch theorem asks is this triple at the point's blocks.
-/
import proofs.«116805_j7318624272994_1_alg».proof.Proof.KbFrDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple on whole staging buffers. -/
theorem sound_kernel1 (c : Dev nD) (E : Set ℕ) (i : grid1.Coords)
    (a0 : Memref sig .tc .vmem S3x2000x128 .f32) (ha0 : a0.IsWhole) (a1 : Memref sig .tc .vmem S3x2000x1 .f32) (ha1 : a1.IsWhole)
    (a2 : Memref sig .tc .vmem S3x128 .f32) (ha2 : a2.IsWhole) (a3 : Memref sig .tc .vmem S2000x128 .f32) (ha3 : a3.IsWhole)
    (x0 : Vec F S3x2000x128 .f32) (x1 : Vec F S3x2000x1 .f32) (x2 : Vec F S3x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out1_3 x0 x1 x2)) -∗ K ⟨⟩))
      ⊢ wp frame (wpE (defs₀ (F := F)) Variants.none c none) E (cc1__combine_kernel i a0 ha0 a1 ha1 a2 ha2 a3 ha3) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KbFrBody2.lean ====
/-
  Region 2's body obligation. The kernel body, called on whole staging buffers with the three inputs' at read contents and the
  output's at anything, runs to the end leaving the inputs' as they were and the output's at the canon of its one store
  (`out2_3` of the inputs): its loads are whole rectangles of the inputs (and one of the output buffer, whose value is not
  used), its store covers the output buffer. At every grid point the pipeline hands the body the inputs' buffers at their
  blocks (fetched there or not), so the obligation the launch theorem asks is this triple at the point's blocks.
-/
import proofs.«116805_j7318624272994_1_alg».proof.Proof.KbFrDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple on whole staging buffers. -/
theorem sound_kernel2 (c : Dev nD) (E : Set ℕ) (i : grid2.Coords)
    (a0 : Memref sig .tc .vmem S2000x128 .f32) (ha0 : a0.IsWhole) (a1 : Memref sig .tc .vmem S1x2000x1 .f32) (ha1 : a1.IsWhole)
    (a2 : Memref sig .tc .vmem S1x128x64 .f32) (ha2 : a2.IsWhole) (a3 : Memref sig .tc .vmem S1x2000x64 .f32) (ha3 : a3.IsWhole)
    (x0 : Vec F S2000x128 .f32) (x1 : Vec F S1x2000x1 .f32) (x2 : Vec F S1x128x64 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out2_3 x0 x1 x2)) -∗ K ⟨⟩))
      ⊢ wp frame (wpE (defs₀ (F := F)) Variants.none c none) E (cc2__scale_matmul_kernel i a0 ha0 a1 ha1 a2 ha2 a3 ha3) K := by
  simp only [cc2__scale_matmul_kernel_eq_skeleton]; unfold cc2__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KbFrBody3.lean ====
/-
  Region 3's body obligation. The kernel body, called on whole staging buffers with the three inputs' at read contents and the
  output's at anything, runs to the end leaving the inputs' as they were and the output's at the canon of its one store
  (`out3_3` of the inputs): its loads are whole rectangles of the inputs (and one of the output buffer, whose value is not
  used), its store covers the output buffer. At every grid point the pipeline hands the body the inputs' buffers at their
  blocks (fetched there or not), so the obligation the launch theorem asks is this triple at the point's blocks.
-/
import proofs.«116805_j7318624272994_1_alg».proof.Proof.KbFrDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple on whole staging buffers. -/
theorem sound_kernel3 (c : Dev nD) (E : Set ℕ) (i : grid3.Coords)
    (a0 : Memref sig .tc .vmem S3x2000x64 .f32) (ha0 : a0.IsWhole) (a1 : Memref sig .tc .vmem S3x2000x1 .f32) (ha1 : a1.IsWhole)
    (a2 : Memref sig .tc .vmem S3x64 .f32) (ha2 : a2.IsWhole) (a3 : Memref sig .tc .vmem S2000x64 .f32) (ha3 : a3.IsWhole)
    (x0 : Vec F S3x2000x64 .f32) (x1 : Vec F S3x2000x1 .f32) (x2 : Vec F S3x64 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out3_3 x0 x1 x2)) -∗ K ⟨⟩))
      ⊢ wp frame (wpE (defs₀ (F := F)) Variants.none c none) E (cc3__combine_kernel i a0 ha0 a1 ha1 a2 ha2 a3 ha3) K := by
  simp only [cc3__combine_kernel_eq_skeleton]; unfold cc3__combine_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the triple applies; the invariant and what the core owes
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KbFrRun.lean ====
/-
  The frame of the program's four pallas_call regions, last part: the run. @main is four stretches of host operations, each
  followed by a region. A stretch runs over the unscoped buffers from the contents at its boundary to their fold; a region is
  entered from the fold before it and left at the fold after it, its body obligation the one proved for its kernel. The launch
  theorem for a list of such segments then gives: every weakly fair execution of @main terminates, nothing faults, and every
  unscoped buffer ends at the last fold. The argument arrays are read back through the fold to their launch contents.
-/
import proofs.«116805_j7318624272994_1_alg».proof.Proof.KbFrFold
import proofs.«116805_j7318624272994_1_alg».proof.Proof.KbFrBody0
import proofs.«116805_j7318624272994_1_alg».proof.Proof.KbFrBody1
import proofs.«116805_j7318624272994_1_alg».proof.Proof.KbFrBody2
import proofs.«116805_j7318624272994_1_alg».proof.Proof.KbFrBody3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev vars0 : Variants := Variants.none
/-- No core owes another anything: no level is assigned. -/
abbrev Lev : GSem nD τ sig → Finset Unit := fun _ => ∅
abbrev lev : GSem nD τ sig → Unit → ℕ := fun _ _ => 0
/-- What rides beside the buffers through every segment: the core's generator register at some state and its dues, none. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues: every unscoped buffer at the last fold, the generator register at some state. -/
abbrev Tₙ (c : Dev nD) : sProp 𝕄 := iprop(StableHlo.held (c : Thread nD τ) (Pipeline.ucRefs τ sig) (W8 m ρ c) ∗ ∃ r, prngReg c r)

-- the library's entry and exit lemmas are stated over the pinned configuration of a pipeline index; matching them against
-- the printed configuration unfolds plain definitions inside a metavariable's type
set_option backward.isDefEq.respectTransparency.types false in
/-- Region 0 as a segment: entered with every unscoped buffer at `W1`, left with them at `W2`. Its windows' arrays are
    split out of the unscoped buffers at entry and put back, at what the write-backs made of them, at exit; the generator
    register goes into the body's invariant and comes back; nothing is owed; the kernel has no semaphore of its own. -/
def reg0 : Pipeline.RegionSeg (pcfgs (F := F)) adm (pdats m ρ) () defs₀ vars0 Lev lev 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lev lev 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline index; matching them against
-- the printed configuration unfolds plain definitions inside a metavariable's type
set_option backward.isDefEq.respectTransparency.types false in
/-- Region 1 as a segment: entered with every unscoped buffer at `W3`, left with them at `W4`. Its windows' arrays are
    split out of the unscoped buffers at entry and put back, at what the write-backs made of them, at exit; the generator
    register goes into the body's invariant and comes back; nothing is owed; the kernel has no semaphore of its own. -/
def reg1 : Pipeline.RegionSeg (pcfgs (F := F)) adm (pdats m ρ) () defs₀ vars0 Lev lev 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ Lev lev 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline index; matching them against
-- the printed configuration unfolds plain definitions inside a metavariable's type
set_option backward.isDefEq.respectTransparency.types false in
/-- Region 2 as a segment: entered with every unscoped buffer at `W5`, left with them at `W6`. Its windows' arrays are
    split out of the unscoped buffers at entry and put back, at what the write-backs made of them, at exit; the generator
    register goes into the body's invariant and comes back; nothing is owed; the kernel has no semaphore of its own. -/
def reg2 : Pipeline.RegionSeg (pcfgs (F := F)) adm (pdats m ρ) () defs₀ vars0 Lev lev 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ Lev lev 2 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline index; matching them against
-- the printed configuration unfolds plain definitions inside a metavariable's type
set_option backward.isDefEq.respectTransparency.types false in
/-- Region 3 as a segment: entered with every unscoped buffer at `W7`, left with them at `W8`. Its windows' arrays are
    split out of the unscoped buffers at entry and put back, at what the write-backs made of them, at exit; the generator
    register goes into the body's invariant and comes back; nothing is owed; the kernel has no semaphore of its own. -/
def reg3 : Pipeline.RegionSeg (pcfgs (F := F)) adm (pdats m ρ) () defs₀ vars0 Lev lev 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ Lev lev 3 fun _ _ => rfl
  pre c := iprop(StableHlo.held (c : Thread nD τ) (Pipeline.ucRefs τ sig) (W7 m ρ c) ∗ Rest c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segs : List (Pipeline.Seg (pcfgs (F := F)) adm (pdats m ρ) () defs₀ vars0 Lev lev) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every final
    state has every unscoped buffer of every core at the last fold `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ vars0 Lev lev m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lev lev fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W8_arg0 m ρ c), (h c _ (mem_uc main_arg1 (by decide))).trans (W8_arg1 m ρ c),
     (h c _ (mem_uc main_arg2 (by decide))).trans (W8_arg2 m ρ c), (h c _ (mem_uc main_arg3 (by decide))).trans (W8_arg3 m ρ c),
     (h c _ (mem_uc main_arg4 (by decide))).trans (W8_arg4 m ρ c), (h c _ (mem_uc main_arg5 (by decide))).trans (W8_arg5 m ρ c)⟩)
    (run_all m ρ)

end Cert.Kernel.Fr

end
-- ==== Proof.KiFrDefs.lean ====
/-
  The frame of the program's four pallas_call regions, first part: definitions. Per region, at the buffer contents the region
  is entered with: each window's block at a grid point, what the body leaves in the output window's staging buffer (its one
  store of the skeleton's payload of the loaded blocks), and the pipeline's proof data. Then the contents of every buffer at
  each boundary of @main, folded from the launch memory through the host stretches and the regions' write-backs. The
  value side of the certificate reads the result array off this fold; the frame side runs @main over it.
-/
import proofs.«116805_j7318624272994_1_alg».proof.Proof.Gen.KernelIdeal.Launch
import proofs.«116805_j7318624272994_1_alg».proof.Proof.Gen.KernelIdeal.Skeleton
import proofs.«116805_j7318624272994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # Region 0: `cc0__scale_matmul_kernel`, at the buffer contents `V` the region is entered with -/

/-- Window `w`'s block at grid point `t`: the rectangle of the window's array (as `V` has it) that the point's index names. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the point's block whether or not the point fetched it: a point that does not fetch
    has the block index of the point before, and the body leaves an input's buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds the point's block whether or not the point fetched it: a point that does not fetch
    has the block index of the point before, and the body leaves an input's buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds the point's block whether or not the point fetched it: a point that does not fetch
    has the block index of the point before, and the body leaves an input's buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The rectangles the body reads and writes through. -/
abbrev r0_a : Rect S2000x128 := Rect.unit (s := S2000x128) ![0, 0] S2000x128.size inb_S2000x128_S2000x128_0_0
abbrev r0_b : Rect S1x2000x1 := Rect.unit (s := S1x2000x1) ![0, 0, 0] S1x2000x1.size inb_S1x2000x1_S1x2000x1_0_0_0
abbrev r0_c : Rect S1x128x128 := Rect.unit (s := S1x128x128) ![0, 0, 0] S1x128x128.size inb_S1x128x128_S1x128x128_0_0_0
abbrev r0_d : Rect S1x2000x128 := Rect.unit (s := S1x2000x128) ![0, 0, 0] S1x2000x128.size inb_S1x2000x128_S1x2000x128_0_0_0

/-- What the body leaves in the output window's staging buffer, as a function of the three input blocks: its one store, of
    the skeleton's payload of the loads, over the whole buffer. -/
def out0_3 (x0 : Vec F S2000x128 .f32) (x1 : Vec F S1x2000x1 .f32) (x2 : Vec F S1x128x128 .f32) : Vec F S1x2000x128 .f32 :=
  View.canon [⟨r0_d, k0_pay1 (View.ld x0 r0_a) (View.ld x1 r0_b) (View.ld x2 r0_c)⟩]

/-- The one store covers the buffer. -/
theorem cover0_3 (p0 : Vec F S1x2000x128 .f32) (y : S1x2000x128.Idx) :
    ∃ pc ∈ ([⟨r0_d, p0⟩] : List (View.Piece (Elt F) S1x2000x128 .f32)), y ∈ pc.1.set :=
  View.cover_of_tiled [⟨r0_d, p0⟩] S1x2000x128.size (by rfl) y

/-- The region's proof data on core `c`: the windows' arrays as `V` has them; after the body at point `t` each input's buffer
    at its block and the output's at `out0_3` of the input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! # Region 1: `cc1__combine_kernel`, at the buffer contents `V` the region is entered with -/

/-- Window `w`'s block at grid point `t`: the rectangle of the window's array (as `V` has it) that the point's index names. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the point's block whether or not the point fetched it: a point that does not fetch
    has the block index of the point before, and the body leaves an input's buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the point's block whether or not the point fetched it: a point that does not fetch
    has the block index of the point before, and the body leaves an input's buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds the point's block whether or not the point fetched it: a point that does not fetch
    has the block index of the point before, and the body leaves an input's buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes through. -/
abbrev r1_a0 : Rect S3x2000x128 := Rect.unit (s := S3x2000x128) ![0, 0, 0] S1x2000x128.size inb_S3x2000x128_S1x2000x128_0_0_0
abbrev r1_b0 : Rect S3x2000x1 := Rect.unit (s := S3x2000x1) ![0, 0, 0] S1x2000x1.size inb_S3x2000x1_S1x2000x1_0_0_0
abbrev r1_c0 : Rect S3x128 := Rect.unit (s := S3x128) ![0, 0] S1x128.size inb_S3x128_S1x128_0_0
abbrev r1_a1 : Rect S3x2000x128 := Rect.unit (s := S3x2000x128) ![1, 0, 0] S1x2000x128.size inb_S3x2000x128_S1x2000x128_1_0_0
abbrev r1_b1 : Rect S3x2000x1 := Rect.unit (s := S3x2000x1) ![1, 0, 0] S1x2000x1.size inb_S3x2000x1_S1x2000x1_1_0_0
abbrev r1_c1 : Rect S3x128 := Rect.unit (s := S3x128) ![1, 0] S1x128.size inb_S3x128_S1x128_1_0
abbrev r1_a2 : Rect S3x2000x128 := Rect.unit (s := S3x2000x128) ![2, 0, 0] S1x2000x128.size inb_S3x2000x128_S1x2000x128_2_0_0
abbrev r1_b2 : Rect S3x2000x1 := Rect.unit (s := S3x2000x1) ![2, 0, 0] S1x2000x1.size inb_S3x2000x1_S1x2000x1_2_0_0
abbrev r1_c2 : Rect S3x128 := Rect.unit (s := S3x128) ![2, 0] S1x128.size inb_S3x128_S1x128_2_0
abbrev r1_d : Rect S2000x128 := Rect.unit (s := S2000x128) ![0, 0] S2000x128.size inb_S2000x128_S2000x128_0_0

/-- What the body leaves in the output window's staging buffer, as a function of the three input blocks: its one store, of
    the skeleton's payload of the loads, over the whole buffer. -/
def out1_3 (x0 : Vec F S3x2000x128 .f32) (x1 : Vec F S3x2000x1 .f32) (x2 : Vec F S3x128 .f32) : Vec F S2000x128 .f32 :=
  View.canon [⟨r1_d, k1_pay1 (k1_pay2 (View.ld x0 r1_a0) (View.ld x1 r1_b0) (View.ld x2 r1_c0) (View.ld x0 r1_a1) (View.ld x1 r1_b1) (View.ld x2 r1_c1) (View.ld x0 r1_a2) (View.ld x1 r1_b2)) (k1_pay3 (View.ld x2 r1_c2))⟩]

/-- The one store covers the buffer. -/
theorem cover1_3 (p0 : Vec F S2000x128 .f32) (y : S2000x128.Idx) :
    ∃ pc ∈ ([⟨r1_d, p0⟩] : List (View.Piece (Elt F) S2000x128 .f32)), y ∈ pc.1.set :=
  View.cover_of_tiled [⟨r1_d, p0⟩] S2000x128.size (by rfl) y

/-- The region's proof data on core `c`: the windows' arrays as `V` has them; after the body at point `t` each input's buffer
    at its block and the output's at `out1_3` of the input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! # Region 2: `cc2__scale_matmul_kernel`, at the buffer contents `V` the region is entered with -/

/-- Window `w`'s block at grid point `t`: the rectangle of the window's array (as `V` has it) that the point's index names. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the point's block whether or not the point fetched it: a point that does not fetch
    has the block index of the point before, and the body leaves an input's buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds the point's block whether or not the point fetched it: a point that does not fetch
    has the block index of the point before, and the body leaves an input's buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds the point's block whether or not the point fetched it: a point that does not fetch
    has the block index of the point before, and the body leaves an input's buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The rectangles the body reads and writes through. -/
abbrev r2_a : Rect S2000x128 := Rect.unit (s := S2000x128) ![0, 0] S2000x128.size inb_S2000x128_S2000x128_0_0
abbrev r2_b : Rect S1x2000x1 := Rect.unit (s := S1x2000x1) ![0, 0, 0] S1x2000x1.size inb_S1x2000x1_S1x2000x1_0_0_0
abbrev r2_c : Rect S1x128x64 := Rect.unit (s := S1x128x64) ![0, 0, 0] S1x128x64.size inb_S1x128x64_S1x128x64_0_0_0
abbrev r2_d : Rect S1x2000x64 := Rect.unit (s := S1x2000x64) ![0, 0, 0] S1x2000x64.size inb_S1x2000x64_S1x2000x64_0_0_0

/-- What the body leaves in the output window's staging buffer, as a function of the three input blocks: its one store, of
    the skeleton's payload of the loads, over the whole buffer. -/
def out2_3 (x0 : Vec F S2000x128 .f32) (x1 : Vec F S1x2000x1 .f32) (x2 : Vec F S1x128x64 .f32) : Vec F S1x2000x64 .f32 :=
  View.canon [⟨r2_d, k2_pay1 (View.ld x0 r2_a) (View.ld x1 r2_b) (View.ld x2 r2_c)⟩]

/-- The one store covers the buffer. -/
theorem cover2_3 (p0 : Vec F S1x2000x64 .f32) (y : S1x2000x64.Idx) :
    ∃ pc ∈ ([⟨r2_d, p0⟩] : List (View.Piece (Elt F) S1x2000x64 .f32)), y ∈ pc.1.set :=
  View.cover_of_tiled [⟨r2_d, p0⟩] S1x2000x64.size (by rfl) y

/-- The region's proof data on core `c`: the windows' arrays as `V` has them; after the body at point `t` each input's buffer
    at its block and the output's at `out2_3` of the input blocks; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! # Region 3: `cc3__combine_kernel`, at the buffer contents `V` the region is entered with -/

/-- Window `w`'s block at grid point `t`: the rectangle of the window's array (as `V` has it) that the point's index names. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the point's block whether or not the point fetched it: a point that does not fetch
    has the block index of the point before, and the body leaves an input's buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the point's block whether or not the point fetched it: a point that does not fetch
    has the block index of the point before, and the body leaves an input's buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds the point's block whether or not the point fetched it: a point that does not fetch
    has the block index of the point before, and the body leaves an input's buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! The rectangles the body reads and writes through. -/
abbrev r3_a0 : Rect S3x2000x64 := Rect.unit (s := S3x2000x64) ![0, 0, 0] S1x2000x64.size inb_S3x2000x64_S1x2000x64_0_0_0
abbrev r3_b0 : Rect S3x2000x1 := Rect.unit (s := S3x2000x1) ![0, 0, 0] S1x2000x1.size inb_S3x2000x1_S1x2000x1_0_0_0
abbrev r3_c0 : Rect S3x64 := Rect.unit (s := S3x64) ![0, 0] S1x64.size inb_S3x64_S1x64_0_0
abbrev r3_a1 : Rect S3x2000x64 := Rect.unit (s := S3x2000x64) ![1, 0, 0] S1x2000x64.size inb_S3x2000x64_S1x2000x64_1_0_0
abbrev r3_b1 : Rect S3x2000x1 := Rect.unit (s := S3x2000x1) ![1, 0, 0] S1x2000x1.size inb_S3x2000x1_S1x2000x1_1_0_0
abbrev r3_c1 : Rect S3x64 := Rect.unit (s := S3x64) ![1, 0] S1x64.size inb_S3x64_S1x64_1_0
abbrev r3_a2 : Rect S3x2000x64 := Rect.unit (s := S3x2000x64) ![2, 0, 0] S1x2000x64.size inb_S3x2000x64_S1x2000x64_2_0_0
abbrev r3_b2 : Rect S3x2000x1 := Rect.unit (s := S3x2000x1) ![2, 0, 0] S1x2000x1.size inb_S3x2000x1_S1x2000x1_2_0_0
abbrev r3_c2 : Rect S3x64 := Rect.unit (s := S3x64) ![2, 0] S1x64.size inb_S3x64_S1x64_2_0
abbrev r3_d : Rect S2000x64 := Rect.unit (s := S2000x64) ![0, 0] S2000x64.size inb_S2000x64_S2000x64_0_0

/-- What the body leaves in the output window's staging buffer, as a function of the three input blocks: its one store, of
    the skeleton's payload of the loads, over the whole buffer. -/
def out3_3 (x0 : Vec F S3x2000x64 .f32) (x1 : Vec F S3x2000x1 .f32) (x2 : Vec F S3x64 .f32) : Vec F S2000x64 .f32 :=
  View.canon [⟨r3_d, k3_pay1 (k3_pay2 (View.ld x0 r3_a0) (View.ld x1 r3_b0) (View.ld x2 r3_c0) (View.ld x0 r3_a1) (View.ld x1 r3_b1) (View.ld x2 r3_c1) (View.ld x0 r3_a2) (View.ld x1 r3_b2)) (k3_pay3 (View.ld x2 r3_c2))⟩]

/-- The one store covers the buffer. -/
theorem cover3_3 (p0 : Vec F S2000x64 .f32) (y : S2000x64.Idx) :
    ∃ pc ∈ ([⟨r3_d, p0⟩] : List (View.Piece (Elt F) S2000x64 .f32)), y ∈ pc.1.set :=
  View.cover_of_tiled [⟨r3_d, p0⟩] S2000x64.size (by rfl) y

/-- The region's proof data on core `c`: the windows' arrays as `V` has them; after the body at point `t` each input's buffer
    at its block and the output's at `out3_3` of the input blocks; the invariant is the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Regions

/-! # The buffer contents at each boundary of @main: a fold from the launch memory

    @main is four stretches of host operations, each followed by a region. A stretch changes the contents by the fold of
    its operations; a region leaves its windows' arrays at what the pipeline's write-backs make of them (the inputs as
    entered, the output's blocks folded in) and every other buffer as entered. -/

/-- Core `c`'s buffers at launch. -/
abbrev W0 : Dev nD → Valuation τ sig (Elt F) := fun c b => (s₀ m ρ).mem ((c : Dev nD), b)
/-- After the host stretch `hostOps0`: what region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`: what region 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`: what region 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`: what region 3 is entered with. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

end Cert.KernelIdeal.Fr

end
-- ==== Proof.KiFrFold.lean ====
/-
  The fold of buffer contents through @main, second part: what each step leaves unchanged. A host stretch changes only the
  buffers its operations write (listed here, in order); a region changes only its windows' arrays, and an input window's
  array not at all. Hence every argument array, which no stretch writes and which a region reads at most through an input
  window, holds its launch contents at every boundary.
-/
import proofs.«116805_j7318624272994_1_alg».proof.Proof.KiFrDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references the operations of `hostOps0` write. -/
abbrev hostOps0_W : List (Ref sig .tc) := [main_v0, main_v1, main_v2, main_v3, main_v4, main_v5, main_cst, main_v6, main_cst_0, main_v7, main_v8, main_v9, main_cst_1, main_v10, main_v11, main_cst_2, main_v12, main_v13, main_v14, main_v15, main_cst_3, main_v16, main_cst_4, main_v17, main_v18, main_v19, main_cst_5, main_v20, main_v21, main_cst_6, main_v22, main_v23, main_v24, main_v25, main_cst_7, main_v26, main_cst_8, main_v27, main_v28, main_v29, main_cst_9, main_v30, main_v31, main_cst_10, main_v32, main_v33, main_v34, main_v35, main_v36, main_v37, main_v38, main_v39, main_v40, main_cst_11, main_v41, main_cst_12, main_v42, main_v43, main_v44, main_cst_13, main_v45, main_v46, main_cst_14, main_v47, main_v48, main_v49, main_v50, main_cst_15, main_v51, main_cst_16, main_v52, main_v53, main_v54, main_cst_17, main_v55, main_v56, main_cst_18, main_v57, main_v58, main_v59, main_v60, main_cst_19, main_v61, main_cst_20, main_v62, main_v63, main_v64, main_cst_21, main_v65, main_v66, main_cst_22, main_v67, main_v68, main_v69, main_v70, main_v71, main_v72, main_v73]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- `hostOps0` leaves a buffer it does not write as it was. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Region 0 leaves an input window's array as entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- The references the operations of `hostOps1` write. -/
abbrev hostOps1_W : List (Ref sig .tc) := [main_v75, main_v76, main_v77, main_v78, main_c, main_v79, main_v80, main_c_23, main_v81, main_v82, main_v83, main_v84, main_v85, main_v86, main_v87, main_cst_24, main_v88, main_v89, main_v90, main_v91, main_v92, main_v93, main_v94, main_c_25, main_v95, main_v96, main_c_26, main_v97, main_v98, main_v99, main_v100, main_v101, main_v102, main_v103, main_cst_27, main_v104, main_v105, main_v106, main_v107, main_v108, main_v109, main_v110, main_c_28, main_v111, main_v112, main_c_29, main_v113, main_v114, main_v115, main_v116, main_v117, main_v118, main_v119, main_cst_30, main_v120, main_v121, main_v122, main_v123, main_v124, main_v125, main_v126]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- `hostOps1` leaves a buffer it does not write as it was. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Region 1 leaves an input window's array as entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- The references the operations of `hostOps2` write. -/
abbrev hostOps2_W : List (Ref sig .tc) := [main_v128, main_v129, main_v130, main_v131, main_v132, main_v133, main_cst_31, main_v134, main_cst_32, main_v135, main_v136, main_v137, main_cst_33, main_v138, main_v139, main_cst_34, main_v140, main_v141, main_v142, main_v143, main_cst_35, main_v144, main_cst_36, main_v145, main_v146, main_v147, main_cst_37, main_v148, main_v149, main_cst_38, main_v150, main_v151, main_v152, main_v153, main_cst_39, main_v154, main_cst_40, main_v155, main_v156, main_v157, main_cst_41, main_v158, main_v159, main_cst_42, main_v160, main_v161, main_v162, main_v163, main_v164, main_v165, main_v166, main_v167, main_v168, main_cst_43, main_v169, main_cst_44, main_v170, main_v171, main_v172, main_cst_45, main_v173, main_v174, main_cst_46, main_v175, main_v176, main_v177, main_v178, main_cst_47, main_v179, main_cst_48, main_v180, main_v181, main_v182, main_cst_49, main_v183, main_v184, main_cst_50, main_v185, main_v186, main_v187, main_v188, main_cst_51, main_v189, main_cst_52, main_v190, main_v191, main_v192, main_cst_53, main_v193, main_v194, main_cst_54, main_v195, main_v196, main_v197, main_v198, main_v199, main_v200, main_v201]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- `hostOps2` leaves a buffer it does not write as it was. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- Region 2 leaves an input window's array as entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- The references the operations of `hostOps3` write. -/
abbrev hostOps3_W : List (Ref sig .tc) := [main_v203, main_v204, main_v205, main_v206, main_c_55, main_v207, main_v208, main_c_56, main_v209, main_v210, main_v211, main_v212, main_v213, main_v214, main_v215, main_cst_57, main_v216, main_v217, main_v218, main_v219, main_v220, main_v221, main_v222, main_c_58, main_v223, main_v224, main_c_59, main_v225, main_v226, main_v227, main_v228, main_v229, main_v230, main_v231, main_cst_60, main_v232, main_v233, main_v234, main_v235, main_v236, main_v237, main_v238, main_c_61, main_v239, main_v240, main_c_62, main_v241, main_v242, main_v243, main_v244, main_v245, main_v246, main_v247, main_cst_63, main_v248, main_v249, main_v250, main_v251, main_v252, main_v253, main_v254]
set_option maxHeartbeats 4000000 in
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- `hostOps3` leaves a buffer it does not write as it was. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- Region 3 leaves an input window's array as entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ## The arguments at every boundary -/

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (W1_of m ρ c main_arg0 (by decide)).trans (W0_arg0 m ρ c)
theorem W2_arg0 (c : Dev nD) : W2 m ρ c (Proc.devRef .tc main_arg0) = m ((c : Thread nD τ).loc main_arg0) :=
  (W2_in m ρ c 0 rfl).trans (W1_arg0 m ρ c)
theorem W3_arg0 (c : Dev nD) : W3 m ρ c (Proc.devRef .tc main_arg0) = m ((c : Thread nD τ).loc main_arg0) :=
  (W3_of m ρ c main_arg0 (by decide)).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) :=
  (W5_of m ρ c main_arg0 (by decide)).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W7_arg0 (c : Dev nD) : W7 m ρ c (Proc.devRef .tc main_arg0) = m ((c : Thread nD τ).loc main_arg0) :=
  (W7_of m ρ c main_arg0 (by decide)).trans (W6_arg0 m ρ c)
theorem W8_arg0 (c : Dev nD) : W8 m ρ c (Proc.devRef .tc main_arg0) = m ((c : Thread nD τ).loc main_arg0) :=
  (W8_of_ne m ρ c main_arg0 (by decide)).trans (W7_arg0 m ρ c)

theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  (W1_of m ρ c main_arg1 (by decide)).trans (W0_arg1 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_of m ρ c main_arg1 (by decide)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (W5_of m ρ c main_arg1 (by decide)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (W7_of m ρ c main_arg1 (by decide)).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)

theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (W1_of m ρ c main_arg2 (by decide)).trans (W0_arg2 m ρ c)
theorem W2_arg2 (c : Dev nD) : W2 m ρ c (Proc.devRef .tc main_arg2) = m ((c : Thread nD τ).loc main_arg2) :=
  (W2_in m ρ c 2 rfl).trans (W1_arg2 m ρ c)
theorem W3_arg2 (c : Dev nD) : W3 m ρ c (Proc.devRef .tc main_arg2) = m ((c : Thread nD τ).loc main_arg2) :=
  (W3_of m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (W5_of m ρ c main_arg2 (by decide)).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (W7_of m ρ c main_arg2 (by decide)).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (W1_of m ρ c main_arg3 (by decide)).trans (W0_arg3 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (W3_of m ρ c main_arg3 (by decide)).trans (W2_arg3 m ρ c)
theorem W4_arg3 (c : Dev nD) : W4 m ρ c (Proc.devRef .tc main_arg3) = m ((c : Thread nD τ).loc main_arg3) :=
  (W4_in m ρ c 2 rfl).trans (W3_arg3 m ρ c)
theorem W5_arg3 (c : Dev nD) : W5 m ρ c (Proc.devRef .tc main_arg3) = m ((c : Thread nD τ).loc main_arg3) :=
  (W5_of m ρ c main_arg3 (by decide)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (W7_of m ρ c main_arg3 (by decide)).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (W1_of m ρ c main_arg4 (by decide)).trans (W0_arg4 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (W3_of m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (W5_of m ρ c main_arg4 (by decide)).trans (W4_arg4 m ρ c)
theorem W6_arg4 (c : Dev nD) : W6 m ρ c (Proc.devRef .tc main_arg4) = m ((c : Thread nD τ).loc main_arg4) :=
  (W6_in m ρ c 2 rfl).trans (W5_arg4 m ρ c)
theorem W7_arg4 (c : Dev nD) : W7 m ρ c (Proc.devRef .tc main_arg4) = m ((c : Thread nD τ).loc main_arg4) :=
  (W7_of m ρ c main_arg4 (by decide)).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)

theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (W1_of m ρ c main_arg5 (by decide)).trans (W0_arg5 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (W3_of m ρ c main_arg5 (by decide)).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (W5_of m ρ c main_arg5 (by decide)).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) :=
  (W7_of m ρ c main_arg5 (by decide)).trans (W6_arg5 m ρ c)
theorem W8_arg5 (c : Dev nD) : W8 m ρ c (Proc.devRef .tc main_arg5) = m ((c : Thread nD τ).loc main_arg5) :=
  (W8_in m ρ c 2 rfl).trans (W7_arg5 m ρ c)

end Cert.KernelIdeal.Fr

end
-- ==== Proof.KiFrBody0.lean ====
/-
  Region 0's body obligation. The kernel body, called on whole staging buffers with the three inputs' at read contents and the
  output's at anything, runs to the end leaving the inputs' as they were and the output's at the canon of its one store
  (`out0_3` of the inputs): its loads are whole rectangles of the inputs (and one of the output buffer, whose value is not
  used), its store covers the output buffer. At every grid point the pipeline hands the body the inputs' buffers at their
  blocks (fetched there or not), so the obligation the launch theorem asks is this triple at the point's blocks.
-/
import proofs.«116805_j7318624272994_1_alg».proof.Proof.KiFrDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple on whole staging buffers. -/
theorem sound_kernel0 (c : Dev nD) (E : Set ℕ) (i : grid0.Coords)
    (a0 : Memref sig .tc .vmem S2000x128 .f32) (ha0 : a0.IsWhole) (a1 : Memref sig .tc .vmem S1x2000x1 .f32) (ha1 : a1.IsWhole)
    (a2 : Memref sig .tc .vmem S1x128x128 .f32) (ha2 : a2.IsWhole) (a3 : Memref sig .tc .vmem S1x2000x128 .f32) (ha3 : a3.IsWhole)
    (x0 : Vec F S2000x128 .f32) (x1 : Vec F S1x2000x1 .f32) (x2 : Vec F S1x128x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__scale_matmul_kernel i a0 ha0 a1 ha1 a2 ha2 a3 ha3) K := by
  simp only [cc0__scale_matmul_kernel_eq_skeleton]; unfold cc0__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiFrBody1.lean ====
/-
  Region 1's body obligation. The kernel body, called on whole staging buffers with the three inputs' at read contents and the
  output's at anything, runs to the end leaving the inputs' as they were and the output's at the canon of its one store
  (`out1_3` of the inputs): its loads are whole rectangles of the inputs (and one of the output buffer, whose value is not
  used), its store covers the output buffer. At every grid point the pipeline hands the body the inputs' buffers at their
  blocks (fetched there or not), so the obligation the launch theorem asks is this triple at the point's blocks.
-/
import proofs.«116805_j7318624272994_1_alg».proof.Proof.KiFrDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple on whole staging buffers. -/
theorem sound_kernel1 (c : Dev nD) (E : Set ℕ) (i : grid1.Coords)
    (a0 : Memref sig .tc .vmem S3x2000x128 .f32) (ha0 : a0.IsWhole) (a1 : Memref sig .tc .vmem S3x2000x1 .f32) (ha1 : a1.IsWhole)
    (a2 : Memref sig .tc .vmem S3x128 .f32) (ha2 : a2.IsWhole) (a3 : Memref sig .tc .vmem S2000x128 .f32) (ha3 : a3.IsWhole)
    (x0 : Vec F S3x2000x128 .f32) (x1 : Vec F S3x2000x1 .f32) (x2 : Vec F S3x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out1_3 x0 x1 x2)) -∗ K ⟨⟩))
      ⊢ wp frame (wpE (defs₀ (F := F)) Variants.none c none) E (cc1__combine_kernel i a0 ha0 a1 ha1 a2 ha2 a3 ha3) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KiFrBody2.lean ====
/-
  Region 2's body obligation. The kernel body, called on whole staging buffers with the three inputs' at read contents and the
  output's at anything, runs to the end leaving the inputs' as they were and the output's at the canon of its one store
  (`out2_3` of the inputs): its loads are whole rectangles of the inputs (and one of the output buffer, whose value is not
  used), its store covers the output buffer. At every grid point the pipeline hands the body the inputs' buffers at their
  blocks (fetched there or not), so the obligation the launch theorem asks is this triple at the point's blocks.
-/
import proofs.«116805_j7318624272994_1_alg».proof.Proof.KiFrDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple on whole staging buffers. -/
theorem sound_kernel2 (c : Dev nD) (E : Set ℕ) (i : grid2.Coords)
    (a0 : Memref sig .tc .vmem S2000x128 .f32) (ha0 : a0.IsWhole) (a1 : Memref sig .tc .vmem S1x2000x1 .f32) (ha1 : a1.IsWhole)
    (a2 : Memref sig .tc .vmem S1x128x64 .f32) (ha2 : a2.IsWhole) (a3 : Memref sig .tc .vmem S1x2000x64 .f32) (ha3 : a3.IsWhole)
    (x0 : Vec F S2000x128 .f32) (x1 : Vec F S1x2000x1 .f32) (x2 : Vec F S1x128x64 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out2_3 x0 x1 x2)) -∗ K ⟨⟩))
      ⊢ wp frame (wpE (defs₀ (F := F)) Variants.none c none) E (cc2__scale_matmul_kernel i a0 ha0 a1 ha1 a2 ha2 a3 ha3) K := by
  simp only [cc2__scale_matmul_kernel_eq_skeleton]; unfold cc2__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the core owes
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KiFrBody3.lean ====
/-
  Region 3's body obligation. The kernel body, called on whole staging buffers with the three inputs' at read contents and the
  output's at anything, runs to the end leaving the inputs' as they were and the output's at the canon of its one store
  (`out3_3` of the inputs): its loads are whole rectangles of the inputs (and one of the output buffer, whose value is not
  used), its store covers the output buffer. At every grid point the pipeline hands the body the inputs' buffers at their
  blocks (fetched there or not), so the obligation the launch theorem asks is this triple at the point's blocks.
-/
import proofs.«116805_j7318624272994_1_alg».proof.Proof.KiFrDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple on whole staging buffers. -/
theorem sound_kernel3 (c : Dev nD) (E : Set ℕ) (i : grid3.Coords)
    (a0 : Memref sig .tc .vmem S3x2000x64 .f32) (ha0 : a0.IsWhole) (a1 : Memref sig .tc .vmem S3x2000x1 .f32) (ha1 : a1.IsWhole)
    (a2 : Memref sig .tc .vmem S3x64 .f32) (ha2 : a2.IsWhole) (a3 : Memref sig .tc .vmem S2000x64 .f32) (ha3 : a3.IsWhole)
    (x0 : Vec F S3x2000x64 .f32) (x1 : Vec F S3x2000x1 .f32) (x2 : Vec F S3x64 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out3_3 x0 x1 x2)) -∗ K ⟨⟩))
      ⊢ wp frame (wpE (defs₀ (F := F)) Variants.none c none) E (cc3__combine_kernel i a0 ha0 a1 ha1 a2 ha2 a3 ha3) K := by
  simp only [cc3__combine_kernel_eq_skeleton]; unfold cc3__combine_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the triple applies; the invariant and what the core owes
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KiFrRun.lean ====
/-
  The frame of the program's four pallas_call regions, last part: the run. @main is four stretches of host operations, each
  followed by a region. A stretch runs over the unscoped buffers from the contents at its boundary to their fold; a region is
  entered from the fold before it and left at the fold after it, its body obligation the one proved for its kernel. The launch
  theorem for a list of such segments then gives: every weakly fair execution of @main terminates, nothing faults, and every
  unscoped buffer ends at the last fold. The argument arrays are read back through the fold to their launch contents.
-/
import proofs.«116805_j7318624272994_1_alg».proof.Proof.KiFrFold
import proofs.«116805_j7318624272994_1_alg».proof.Proof.KiFrBody0
import proofs.«116805_j7318624272994_1_alg».proof.Proof.KiFrBody1
import proofs.«116805_j7318624272994_1_alg».proof.Proof.KiFrBody2
import proofs.«116805_j7318624272994_1_alg».proof.Proof.KiFrBody3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev vars0 : Variants := Variants.none
/-- No core owes another anything: no level is assigned. -/
abbrev Lev : GSem nD τ sig → Finset Unit := fun _ => ∅
abbrev lev : GSem nD τ sig → Unit → ℕ := fun _ _ => 0
/-- What rides beside the buffers through every segment: the core's generator register at some state and its dues, none. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues: every unscoped buffer at the last fold, the generator register at some state. -/
abbrev Tₙ (c : Dev nD) : sProp 𝕄 := iprop(StableHlo.held (c : Thread nD τ) (Pipeline.ucRefs τ sig) (W8 m ρ c) ∗ ∃ r, prngReg c r)

-- the library's entry and exit lemmas are stated over the pinned configuration of a pipeline index; matching them against
-- the printed configuration unfolds plain definitions inside a metavariable's type
set_option backward.isDefEq.respectTransparency.types false in
/-- Region 0 as a segment: entered with every unscoped buffer at `W1`, left with them at `W2`. Its windows' arrays are
    split out of the unscoped buffers at entry and put back, at what the write-backs made of them, at exit; the generator
    register goes into the body's invariant and comes back; nothing is owed; the kernel has no semaphore of its own. -/
def reg0 : Pipeline.RegionSeg (pcfgs (F := F)) adm (pdats m ρ) () defs₀ vars0 Lev lev 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lev lev 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline index; matching them against
-- the printed configuration unfolds plain definitions inside a metavariable's type
set_option backward.isDefEq.respectTransparency.types false in
/-- Region 1 as a segment: entered with every unscoped buffer at `W3`, left with them at `W4`. Its windows' arrays are
    split out of the unscoped buffers at entry and put back, at what the write-backs made of them, at exit; the generator
    register goes into the body's invariant and comes back; nothing is owed; the kernel has no semaphore of its own. -/
def reg1 : Pipeline.RegionSeg (pcfgs (F := F)) adm (pdats m ρ) () defs₀ vars0 Lev lev 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ Lev lev 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline index; matching them against
-- the printed configuration unfolds plain definitions inside a metavariable's type
set_option backward.isDefEq.respectTransparency.types false in
/-- Region 2 as a segment: entered with every unscoped buffer at `W5`, left with them at `W6`. Its windows' arrays are
    split out of the unscoped buffers at entry and put back, at what the write-backs made of them, at exit; the generator
    register goes into the body's invariant and comes back; nothing is owed; the kernel has no semaphore of its own. -/
def reg2 : Pipeline.RegionSeg (pcfgs (F := F)) adm (pdats m ρ) () defs₀ vars0 Lev lev 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ Lev lev 2 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration of a pipeline index; matching them against
-- the printed configuration unfolds plain definitions inside a metavariable's type
set_option backward.isDefEq.respectTransparency.types false in
/-- Region 3 as a segment: entered with every unscoped buffer at `W7`, left with them at `W8`. Its windows' arrays are
    split out of the unscoped buffers at entry and put back, at what the write-backs made of them, at exit; the generator
    register goes into the body's invariant and comes back; nothing is owed; the kernel has no semaphore of its own. -/
def reg3 : Pipeline.RegionSeg (pcfgs (F := F)) adm (pdats m ρ) () defs₀ vars0 Lev lev 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ Lev lev 3 fun _ _ => rfl
  pre c := iprop(StableHlo.held (c : Thread nD τ) (Pipeline.ucRefs τ sig) (W7 m ρ c) ∗ Rest c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segs : List (Pipeline.Seg (pcfgs (F := F)) adm (pdats m ρ) () defs₀ vars0 Lev lev) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every final
    state has every unscoped buffer of every core at the last fold `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ vars0 Lev lev m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lev lev fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W8_arg0 m ρ c), (h c _ (mem_uc main_arg1 (by decide))).trans (W8_arg1 m ρ c),
     (h c _ (mem_uc main_arg2 (by decide))).trans (W8_arg2 m ρ c), (h c _ (mem_uc main_arg3 (by decide))).trans (W8_arg3 m ρ c),
     (h c _ (mem_uc main_arg4 (by decide))).trans (W8_arg4 m ρ c), (h c _ (mem_uc main_arg5 (by decide))).trans (W8_arg5 m ρ c)⟩)
    (run_all m ρ)

end Cert.KernelIdeal.Fr

end
-- ==== Proof.KValLay.lean ====
/-
  Layout facts the four regions' bodies share, each read at an index given by coordinates: a column laid along every
  column position of a matrix, and a load through a unit-stride rectangle that picks one leading coordinate of a
  rank-3 or rank-2 buffer.
-/
import proofs.«116805_j7318624272994_1_alg».proof.Proof.Gen.KernelIdeal.Skeleton
import Idealize.ShloMosaic.Lib.ValueLayout
import Idealize.ShloMosaic.Lib.Pipeline.FrameBody
import Idealize.ShloMosaic.PureOps.Ideal.Laws

noncomputable section

namespace Cert.KernelIdeal.KVal

open Idealize.ShloMosaic Idealize.ShloMosaic.ValueIdx

variable {α : Type}

/-- The zero offsets of a rank-2 buffer, however spelt. -/
theorem hz2 : (![0, 0] : Fin 2 → Nat) = fun _ => 0 := funext fun a => by fin_cases a <;> rfl
/-- The zero offsets of a rank-3 buffer, however spelt. -/
theorem hz3 : (![0, 0, 0] : Fin 3 → Nat) = fun _ => 0 := funext fun a => by fin_cases a <;> rfl

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A load from a `[m, a, b]` buffer through the unit-stride rectangle of sizes `[1, a, b]` at offsets `(o, 0, 0)`
    reads, at `(u, p, q)`, the buffer at `(o, p, q)`. -/
theorem ld_lead3 {Val : EltTy → Type} {e : EltTy} {m a b : ℕ} (X : (⟨3, ![m, a, b]⟩ : Shape).Idx → Val e) (o : ℕ) (ho : o < m)
    (inb : ∀ ax, (![o, 0, 0] : Fin 3 → ℕ) ax + (![1, a, b] : Fin 3 → ℕ) ax ≤ (⟨3, ![m, a, b]⟩ : Shape).size ax)
    (u : Fin 1) (p : Fin a) (q : Fin b) :
    View.ld (Val := Val) X (Rect.unit (s := ⟨3, ![m, a, b]⟩) ![o, 0, 0] ![1, a, b] inb) (ix3 u p q) = X (ix3 (⟨o, ho⟩ : Fin m) p q) := by
  show X _ = X _
  refine congrArg X (funext fun ax => Fin.ext ?_)
  match ax with
  | ⟨0, _⟩ => show o + 1 * u.val = o; have := u.isLt; omega
  | ⟨1, _⟩ => show 0 + 1 * p.val = p.val; omega
  | ⟨2, _⟩ => show 0 + 1 * q.val = q.val; omega

/-- A load from a `[m, b]` buffer through the unit-stride rectangle of sizes `[1, b]` at offsets `(o, 0)` reads, at
    `(u, q)`, the buffer at `(o, q)`. -/
theorem ld_lead2 {Val : EltTy → Type} {e : EltTy} {m b : ℕ} (X : (⟨2, ![m, b]⟩ : Shape).Idx → Val e) (o : ℕ) (ho : o < m)
    (inb : ∀ ax, (![o, 0] : Fin 2 → ℕ) ax + (![1, b] : Fin 2 → ℕ) ax ≤ (⟨2, ![m, b]⟩ : Shape).size ax)
    (u : Fin 1) (q : Fin b) :
    View.ld (Val := Val) X (Rect.unit (s := ⟨2, ![m, b]⟩) ![o, 0] ![1, b] inb) (ix2 u q) = X (ix2 (⟨o, ho⟩ : Fin m) q) := by
  show X _ = X _
  refine congrArg X (funext fun ax => Fin.ext ?_)
  match ax with
  | ⟨0, _⟩ => show o + 1 * u.val = o; have := u.isLt; omega
  | ⟨1, _⟩ => show 0 + 1 * q.val = q.val; omega

end Cert.KernelIdeal.KVal

end
-- ==== Proof.KValPayM.lean ====
/-
  The two matmul bodies' arithmetic read at one entry `(0, p, q)` of the block, at the extended reals, where a change of
  float format is the identity and a product into the zero splat is the plain sum over the contracted axis: row `p` of
  the node block, scaled by the row's outgoing-degree factor, against column `q` of the relation's weight matrix.
-/
import proofs.«116805_j7318624272994_1_alg».proof.Proof.KValLay
import Idealize.ShloMosaic.Lib.KernelVsHost

noncomputable section

namespace Cert.KernelIdeal.KVal

open Idealize.ShloMosaic Idealize.ShloMosaic.ValueIdx Cert.KernelIdeal
open scoped BigOperators

theorem lhs_k0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The first layer's matmul block at `(0, p, q)`: the scaled row `p` of the node block against column `q` of the weight. -/
theorem k0_pay1_apply (v0 : Vec Ideal S2000x128 .f32) (v1 : Vec Ideal S1x2000x1 .f32) (v6 : Vec Ideal S1x128x128 .f32)
    (u : Fin 1) (p : Fin 2000) (q : Fin 128) :
    Gen.k0_pay1 (F := Ideal) v0 v1 v6 (ix3 u p q)
      = ∑ k : Fin 128, (v0 (ix2 p k) * v1 (ix3 (0 : Fin 1) p (0 : Fin 1))) * v6 (ix3 (0 : Fin 1) k q) := by
  unfold Gen.k0_pay1
  refine (shapeCast_ab_1ab_apply _ _ u p q).trans ?_
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_k0_0 _ _
      | ⟨1, _⟩ => exact (lhs_k0_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_k0_0 _ _).trans hk
      | ⟨1, _⟩ => exact rhs_k0_1 _ _)
  rw [el, er, truncf_apply, truncf_apply, mulf_apply, broadcastTo_a1_ab_apply, shapeCast_1ab_ab_apply, shapeCast_1ab_ab_apply]

theorem lhs_k2_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_k2_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_k2_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_k2_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The second layer's matmul block at `(0, p, q)`: the scaled row `p` of the hidden block against column `q` of the weight. -/
theorem k2_pay1_apply (v0 : Vec Ideal S2000x128 .f32) (v2 : Vec Ideal S1x2000x1 .f32) (v7 : Vec Ideal S1x128x64 .f32)
    (u : Fin 1) (p : Fin 2000) (q : Fin 64) :
    Gen.k2_pay1 (F := Ideal) v0 v2 v7 (ix3 u p q)
      = ∑ k : Fin 128, (v0 (ix2 p k) * v2 (ix3 (0 : Fin 1) p (0 : Fin 1))) * v7 (ix3 (0 : Fin 1) k q) := by
  unfold Gen.k2_pay1
  refine (shapeCast_ab_1ab_apply _ _ u p q).trans ?_
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    funext fun a => Fin.ext (by
      match a with
      | ⟨0, _⟩ => exact lhs_k2_0 _ _
      | ⟨1, _⟩ => exact (lhs_k2_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    funext fun a => Fin.ext (by
      match a with
      | ⟨0, _⟩ => exact (rhs_k2_0 _ _).trans hk
      | ⟨1, _⟩ => exact rhs_k2_1 _ _)
  rw [el, er, truncf_apply, truncf_apply, mulf_apply, broadcastTo_a1_ab_apply, shapeCast_1ab_ab_apply, shapeCast_1ab_ab_apply,
    shapeCast_self]

end Cert.KernelIdeal.KVal

end
-- ==== Proof.Spec.lean ====
/-
  The function both programs compute, over the extended reals, entry by entry.

  A layer of the relational graph convolution takes node features `x` (100000 rows), and per relation `r < 3` a weight
  matrix `w r`, a bias row `b r`, the two degree scalings `so r`, `si r` (one number per node) and the neighbourhood sum
  `agg r` (messages gathered along the relation's edges and added into their target rows). Per relation the messages are
  the rows of `x` scaled by `so r` and multiplied by `w r` (`msg`); the layer's value adds, relation after relation and
  starting from the zero word, the summed messages scaled by `si r` and then the bias row (`comb`: the association is the
  one both programs use, so no law of the extended reals is needed to join them). The hidden layer clamps at zero.

  Everything that is computed from the edge array alone — the four families `so`, `si`, `agg1`, `agg2` — is a parameter
  (`Env`): both programs obtain it by the same host operations applied to equal operands, and nothing here opens it.
-/
import Idealize.ShloMosaic.PureOps.Ideal
import Idealize.ShloMosaic.Lib.ValueIdx

noncomputable section

open scoped BigOperators

namespace Cert.GraphConv

open Idealize.ShloMosaic

/-- The value of the zero word of the 32-bit float format (both programs start their sums from this word). -/
abbrev z : EReal := Ideal.ofBits .f32 0x00000000#32

/-- One relation's messages: row `n` of `x` scaled by `s n`, times the matrix `w`. -/
def msg {din dout : Nat} (s : Fin 100000 → EReal) (x : Fin 100000 → Fin din → EReal) (w : Fin din → Fin dout → EReal) :
    Fin 100000 → Fin dout → EReal :=
  fun n j => ∑ k : Fin din, (x n k * s n) * w k j

/-- The three relations combined: from the zero word, add relation `r`'s rows `a r` scaled by `s r`, then its bias row
    `b r`, for `r = 0, 1, 2` in this order and with this association. -/
def comb {d : Nat} (a : Fin 3 → Fin 100000 → Fin d → EReal) (s : Fin 3 → Fin 100000 → EReal) (b : Fin 3 → Fin d → EReal) :
    Fin 100000 → Fin d → EReal :=
  fun n j => (((((z + a 0 n j * s 0 n) + b 0 j) + a 1 n j * s 1 n) + b 1 j) + a 2 n j * s 2 n) + b 2 j

/-- What is computed from the edge array alone, per relation: the outgoing- and incoming-degree scalings of the nodes and
    the neighbourhood sum of a feature array, at the hidden width and at the output width. -/
structure Env where
  so : Fin 3 → Fin 100000 → EReal
  si : Fin 3 → Fin 100000 → EReal
  agg1 : Fin 3 → (Fin 100000 → Fin 128 → EReal) → Fin 100000 → Fin 128 → EReal
  agg2 : Fin 3 → (Fin 100000 → Fin 64 → EReal) → Fin 100000 → Fin 64 → EReal

/-- The hidden layer: the combined relations, clamped at the zero word. -/
def hidden (E : Env) (x : Fin 100000 → Fin 128 → EReal) (w1 : Fin 3 → Fin 128 → Fin 128 → EReal) (b1 : Fin 3 → Fin 128 → EReal) :
    Fin 100000 → Fin 128 → EReal :=
  fun n j => max (comb (fun r => E.agg1 r (msg (E.so r) x (w1 r))) E.si b1 n j) z

/-- The network's output: the second layer (no clamp) of the hidden layer. -/
def out (E : Env) (x : Fin 100000 → Fin 128 → EReal) (w1 : Fin 3 → Fin 128 → Fin 128 → EReal) (b1 : Fin 3 → Fin 128 → EReal)
    (w2 : Fin 3 → Fin 128 → Fin 64 → EReal) (b2 : Fin 3 → Fin 64 → EReal) : Fin 100000 → Fin 64 → EReal :=
  comb (fun r => E.agg2 r (msg (E.so r) (hidden E x w1 b1) (w2 r))) E.si b2

end Cert.GraphConv

end
-- ==== Proof.KValReg0.lean ====
/-
  The first matmul region's output array in closed form. The grid's point `t` is row tile `t / 3` and relation `t % 3`
  (the relation innermost). At it the body's one store leaves, at entry `(0, p, q)` of the block, row `p` of the node
  tile scaled by the relation's outgoing-degree factor of that row, times column `q` of the relation's weight matrix;
  the three input blocks are that tile of the node array, of the relation's factors, and the relation's whole matrix,
  so the block is the restriction of one whole-array function; the 150 blocks tile the three relations' 100000 rows.
-/
import proofs.«116805_j7318624272994_1_alg».proof.Proof.KiFrDefs
import proofs.«116805_j7318624272994_1_alg».proof.Proof.KValPayM
import proofs.«116805_j7318624272994_1_alg».proof.Proof.Spec
import Idealize.ShloMosaic.Lib.Pipeline.Value

noncomputable section

namespace Cert.KernelIdeal.KVal

open Idealize.ShloMosaic Idealize.ShloMosaic.TcCoe Idealize.ShloMosaic.ValueIdx Cert.KernelIdeal Cert.KernelIdeal.Fr
open scoped BigOperators

/-- What the body leaves at entry `(u, p, q)` of its output block, from the three input blocks. -/
theorem out0_3_apply (x0 : Vec Ideal S2000x128 .f32) (x1 : Vec Ideal S1x2000x1 .f32) (x2 : Vec Ideal S1x128x128 .f32)
    (u : Fin 1) (p : Fin 2000) (q : Fin 128) :
    out0_3 (F := Ideal) x0 x1 x2 (ix3 u p q)
      = ∑ k : Fin 128, (x0 (ix2 p k) * x1 (ix3 (0 : Fin 1) p (0 : Fin 1))) * x2 (ix3 (0 : Fin 1) k q) := by
  unfold out0_3
  rw [View.canon_unit_zero hz3, View.ld_unit_zero (S := S2000x128) hz2, View.ld_unit_zero (S := S1x2000x1) hz3,
    View.ld_unit_zero (S := S1x128x128) hz3]
  exact k0_pay1_apply x0 x1 x2 u p q

/-- The printed index maps over the grid: point `t` names row tile `t / 3` and relation `t % 3`. -/
theorem idx0 : ∀ t : Fin cfg0.N,
    win0_0.index t (0 : Fin 2) = t.val / 3 ∧ win0_0.index t (1 : Fin 2) = 0
    ∧ win0_1.index t (0 : Fin 3) = t.val % 3 ∧ win0_1.index t (1 : Fin 3) = t.val / 3 ∧ win0_1.index t (2 : Fin 3) = 0
    ∧ win0_2.index t (0 : Fin 3) = t.val % 3 ∧ win0_2.index t (1 : Fin 3) = 0 ∧ win0_2.index t (2 : Fin 3) = 0
    ∧ win0_3.index t (0 : Fin 3) = t.val % 3 ∧ win0_3.index t (1 : Fin 3) = t.val / 3 ∧ win0_3.index t (2 : Fin 3) = 0 :=
  (by decide +kernel : ∀ t : Fin grid0.N, _)

/-- A grid point is below 150. -/
theorem lt0 (t : Fin cfg0.N) : t.val < 150 := lt_of_lt_of_eq t.isLt Gen.N_0

/-- Row `p` of point `t`'s tile, as a row of the array. -/
def row0 (t : Fin cfg0.N) (p : Fin 2000) : Fin 100000 :=
  ⟨t.val / 3 * 2000 + p.val, by have := lt0 t; have := p.isLt; omega⟩
/-- Point `t`'s relation. -/
def rel0 (t : Fin cfg0.N) : Fin 3 := ⟨t.val % 3, Nat.mod_lt _ (by decide)⟩

variable (V : (c : Dev nD) → (b : Ref sig .tc) → Buf (Elt Ideal) ((c : Thread nD τ).loc b))

/-- The node block at point `t`: rows `2000 (t / 3) …` of the node array. -/
theorem iblk0_0_apply (c : Dev nD) (t : Fin cfg0.N) (p : Fin 2000) (k : Fin 128) :
    iblk0 (F := Ideal) V c 0 t (ix2 p k) = V c main_arg0 (ix2 (row0 t p) k) := by
  show V c main_arg0 (((cfg0.win 0).blk t).view.emb (ix2 p k)) = _
  refine congrArg (V c main_arg0) (funext fun a => Fin.ext ?_)
  obtain ⟨e0, e1, -⟩ := idx0 t
  match a with
  | ⟨0, _⟩ => show win0_0.index t (0 : Fin 2) * 2000 + 1 * p.val = t.val / 3 * 2000 + p.val; omega
  | ⟨1, _⟩ => show win0_0.index t (1 : Fin 2) * 128 + 1 * k.val = k.val; omega

/-- The outgoing-degree factors' block at point `t`: the point's relation, the tile's rows. -/
theorem iblk0_1_apply (c : Dev nD) (t : Fin cfg0.N) (u : Fin 1) (p : Fin 2000) (u' : Fin 1) :
    iblk0 (F := Ideal) V c 1 t (ix3 u p u') = V c main_v38 (ix3 (rel0 t) (row0 t p) (0 : Fin 1)) := by
  show V c main_v38 (((cfg0.win 1).blk t).view.emb (ix3 u p u')) = _
  refine congrArg (V c main_v38) (funext fun a => Fin.ext ?_)
  obtain ⟨-, -, e0, e1, e2, -⟩ := idx0 t
  match a with
  | ⟨0, _⟩ => show win0_1.index t (0 : Fin 3) * 1 + 1 * u.val = t.val % 3; have := u.isLt; omega
  | ⟨1, _⟩ => show win0_1.index t (1 : Fin 3) * 2000 + 1 * p.val = t.val / 3 * 2000 + p.val; omega
  | ⟨2, _⟩ => show win0_1.index t (2 : Fin 3) * 1 + 1 * u'.val = 0; have := u'.isLt; omega

/-- The weight block at point `t`: the point's relation's whole matrix. -/
theorem iblk0_2_apply (c : Dev nD) (t : Fin cfg0.N) (u : Fin 1) (k : Fin 128) (q : Fin 128) :
    iblk0 (F := Ideal) V c 2 t (ix3 u k q) = V c main_arg2 (ix3 (rel0 t) k q) := by
  show V c main_arg2 (((cfg0.win 2).blk t).view.emb (ix3 u k q)) = _
  refine congrArg (V c main_arg2) (funext fun a => Fin.ext ?_)
  obtain ⟨-, -, -, -, -, e0, e1, e2, -⟩ := idx0 t
  match a with
  | ⟨0, _⟩ => show win0_2.index t (0 : Fin 3) * 1 + 1 * u.val = t.val % 3; have := u.isLt; omega
  | ⟨1, _⟩ => show win0_2.index t (1 : Fin 3) * 128 + 1 * k.val = k.val; omega
  | ⟨2, _⟩ => show win0_2.index t (2 : Fin 3) * 128 + 1 * q.val = q.val; omega

/-- The array the region leaves: each relation's messages, entry by entry. -/
def G0 (c : Dev nD) : S3x100000x128.Idx → EReal := fun i =>
  Cert.GraphConv.msg (fun n => V c main_v38 (ix3 (i 0) n (0 : Fin 1))) (fun n k => V c main_arg0 (ix2 n k))
    (fun k j => V c main_arg2 (ix3 (i 0) k j)) (i 1) (i 2)

/-- What point `t` writes back is its block of `G0`. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  funext y
  obtain ⟨u, p, q, rfl⟩ : ∃ (u : Fin 1) (p : Fin 2000) (q : Fin 128), y = ix3 u p q := ⟨y 0, y 1, y 2, eq_ix3 y⟩
  show out0_3 (F := Ideal) (iblk0 V c 0 t) (iblk0 V c 1 t) (iblk0 V c 2 t) (ix3 u p q)
    = G0 V c (((cfg0.win 3).blk t).view.emb (ix3 u p q))
  have hemb : ((cfg0.win 3).blk t).view.emb (ix3 u p q) = ix3 (rel0 t) (row0 t p) q := by
    obtain ⟨-, -, -, -, -, -, -, -, e0, e1, e2⟩ := idx0 t
    refine funext fun a => Fin.ext ?_
    match a with
    | ⟨0, _⟩ => show win0_3.index t (0 : Fin 3) * 1 + 1 * u.val = t.val % 3; have := u.isLt; omega
    | ⟨1, _⟩ => show win0_3.index t (1 : Fin 3) * 2000 + 1 * p.val = t.val / 3 * 2000 + p.val; omega
    | ⟨2, _⟩ => show win0_3.index t (2 : Fin 3) * 128 + 1 * q.val = q.val; omega
  rw [hemb]
  refine (out0_3_apply (iblk0 V c 0 t) (iblk0 V c 1 t) (iblk0 V c 2 t) u p q).trans ?_
  unfold G0 Cert.GraphConv.msg
  refine Finset.sum_congr rfl fun k _ => ?_
  rw [iblk0_0_apply, iblk0_1_apply, iblk0_2_apply]

/-- An index of the array is in point `t`'s block iff each coordinate is in the block's range on its axis. -/
theorem mem_blk0 (t : Fin cfg0.N) (i : S3x100000x128.Idx) :
    i ∈ ((cfg0.win 3).blk t).view.set ↔ ∀ a : Fin 3, win0_3.index t a * S1x2000x128.size a ≤ (i a).val
      ∧ (i a).val < win0_3.index t a * S1x2000x128.size a + S1x2000x128.size a := by
  show i ∈ ((View.whole main_v74).slice (win0_3.rect t)).set ↔ _
  rw [View.set_slice_whole, Rect.mem_set_unit]
  exact Iff.rfl

/-- Every entry of the array is in the block of its relation and its row's tile. -/
theorem cover0 (i : S3x100000x128.Idx) :
    ∃ t : Fin cfg0.N, (cfg0.win 3).flush t = true ∧ i ∈ ((cfg0.win 3).blk t).view.set := by
  have hi0 : (i 0).val < 3 := (i 0).isLt
  have hi1 : (i 1).val < 100000 := (i 1).isLt
  have hi2 : (i 2).val < 128 := (i 2).isLt
  have hN : cfg0.N = 150 := Gen.N_0
  let t : Fin cfg0.N := ⟨(i 1).val / 2000 * 3 + (i 0).val, by rw [hN]; omega⟩
  have htv : t.val = (i 1).val / 2000 * 3 + (i 0).val := rfl
  obtain ⟨-, -, -, -, -, -, -, -, e0, e1, e2⟩ := idx0 t
  refine ⟨t, Gen.flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 128 ≤ (i 2).val ∧ (i 2).val < win0_3.index t (2 : Fin 3) * 128 + 128; omega

/-- The array after the region's run. -/
theorem final0 (c : Dev nD) : (dat0 (F := Ideal) V c).arrAt 3 cfg0.N = G0 V c :=
  (dat0 (F := Ideal) V c).arrAt_eq_of_cover 3 (G0 V c) (fun t _ => flushed0_eq V c t) cover0

/-- The first matmul region's output, entry by entry: relation `r`'s messages at node `n`, column `j`. -/
theorem region0_value (c : Dev nD) (r : Fin 3) (n : Fin 100000) (j : Fin 128) :
    (dat0 (F := Ideal) V c).arrAt 3 cfg0.N (ix3 r n j)
      = Cert.GraphConv.msg (fun n => V c main_v38 (ix3 r n 0)) (fun n k => V c main_arg0 (ix2 n k))
          (fun k j => V c main_arg2 (ix3 r k j)) n j := by
  rw [final0]
  rfl

end Cert.KernelIdeal.KVal

end
-- ==== Proof.KValPayC.lean ====
/-
  The two combine bodies' arithmetic read at one entry `(p, q)` of the 2000-row block, at the extended reals: the running
  sum of the three relations' aggregates, each scaled by its row's incoming-degree factor and followed by its bias entry,
  accumulated from the zero word in the order and association the body uses; the first layer's block is then clamped
  below at the zero word.
-/
import proofs.«116805_j7318624272994_1_alg».proof.Proof.KValLay
import Idealize.ShloMosaic.Lib.KernelVsHost

noncomputable section

namespace Cert.KernelIdeal.KVal

open Idealize.ShloMosaic Idealize.ShloMosaic.ValueIdx Cert.KernelIdeal
open scoped BigOperators

/-- The running sum of the three relations' scaled aggregates and biases at `(p, q)`, before the last bias is added. -/
theorem k1_pay2_apply (v1 : Vec Ideal S1x2000x128 .f32) (v3 : Vec Ideal S1x2000x1 .f32) (v8 : Vec Ideal S1x128 .f32)
    (v13 : Vec Ideal S1x2000x128 .f32) (v15 : Vec Ideal S1x2000x1 .f32) (v20 : Vec Ideal S1x128 .f32)
    (v25 : Vec Ideal S1x2000x128 .f32) (v27 : Vec Ideal S1x2000x1 .f32) (p : Fin 2000) (q : Fin 128) :
    Gen.k1_pay2 (F := Ideal) v1 v3 v8 v13 v15 v20 v25 v27 (ix2 p q)
      = (((((Ideal.ofBits .f32 0x00000000#32 + v1 (ix3 (0 : Fin 1) p q) * v3 (ix3 (0 : Fin 1) p (0 : Fin 1))) + v8 (ix2 (0 : Fin 1) q))
            + v13 (ix3 (0 : Fin 1) p q) * v15 (ix3 (0 : Fin 1) p (0 : Fin 1))) + v20 (ix2 (0 : Fin 1) q))
            + v25 (ix3 (0 : Fin 1) p q) * v27 (ix3 (0 : Fin 1) p (0 : Fin 1))) := by
  unfold Gen.k1_pay2
  simp only [addf_apply, mulf_apply, broadcast_apply, broadcastTo_a1_ab_apply, broadcastTo_1b_ab_apply,
    shapeCast_1ab_ab_apply, shapeCast_a_1a_apply, shapeCast_1a_a_apply]
  rfl

/-- The last relation's bias row, as a vector, at `q`. -/
theorem k1_pay3_apply (v32 : Vec Ideal S1x128 .f32) (q : Fin 128) :
    Gen.k1_pay3 (F := Ideal) v32 (ix1 q) = v32 (ix2 (0 : Fin 1) q) := by
  unfold Gen.k1_pay3
  exact shapeCast_1a_a_apply _ _ q

/-- The stored block at `(p, q)`: the running sum plus the last bias, clamped below at zero. -/
theorem k1_pay1_apply (v31 : FVec Ideal S2000x128 .f32) (v33 : FVec Ideal S128 .f32) (p : Fin 2000) (q : Fin 128) :
    Gen.k1_pay1 (F := Ideal) v31 v33 (ix2 p q)
      = max (v31 (ix2 p q) + v33 (ix1 q)) (Ideal.ofBits .f32 0x00000000#32) := by
  unfold Gen.k1_pay1
  simp only [addf_apply, maximumf_apply, broadcast_apply, broadcastTo_1b_ab_apply, shapeCast_a_1a_apply]
  rfl

/-- The running sum of the three relations' scaled aggregates and biases at `(p, q)`, before the last bias is added. -/
theorem k3_pay2_apply (v1 : Vec Ideal S1x2000x64 .f32) (v3 : Vec Ideal S1x2000x1 .f32) (v8 : Vec Ideal S1x64 .f32)
    (v13 : Vec Ideal S1x2000x64 .f32) (v15 : Vec Ideal S1x2000x1 .f32) (v20 : Vec Ideal S1x64 .f32)
    (v25 : Vec Ideal S1x2000x64 .f32) (v27 : Vec Ideal S1x2000x1 .f32) (p : Fin 2000) (q : Fin 64) :
    Gen.k3_pay2 (F := Ideal) v1 v3 v8 v13 v15 v20 v25 v27 (ix2 p q)
      = (((((Ideal.ofBits .f32 0x00000000#32 + v1 (ix3 (0 : Fin 1) p q) * v3 (ix3 (0 : Fin 1) p (0 : Fin 1))) + v8 (ix2 (0 : Fin 1) q))
            + v13 (ix3 (0 : Fin 1) p q) * v15 (ix3 (0 : Fin 1) p (0 : Fin 1))) + v20 (ix2 (0 : Fin 1) q))
            + v25 (ix3 (0 : Fin 1) p q) * v27 (ix3 (0 : Fin 1) p (0 : Fin 1))) := by
  unfold Gen.k3_pay2
  simp only [addf_apply, mulf_apply, broadcast_apply, broadcastTo_a1_ab_apply, broadcastTo_1b_ab_apply,
    shapeCast_1ab_ab_apply, shapeCast_a_1a_apply, shapeCast_1a_a_apply]
  rfl

/-- The last relation's bias row, as a vector, at `q`. -/
theorem k3_pay3_apply (v32 : Vec Ideal S1x64 .f32) (q : Fin 64) :
    Gen.k3_pay3 (F := Ideal) v32 (ix1 q) = v32 (ix2 (0 : Fin 1) q) := by
  unfold Gen.k3_pay3
  exact shapeCast_1a_a_apply _ _ q

/-- The stored block at `(p, q)`: the running sum plus the last bias. -/
theorem k3_pay1_apply (v31 : FVec Ideal S2000x64 .f32) (v33 : FVec Ideal S64 .f32) (p : Fin 2000) (q : Fin 64) :
    Gen.k3_pay1 (F := Ideal) v31 v33 (ix2 p q)
      = v31 (ix2 p q) + v33 (ix1 q) := by
  unfold Gen.k3_pay1
  simp only [addf_apply, broadcastTo_1b_ab_apply, shapeCast_a_1a_apply]

end Cert.KernelIdeal.KVal

end
-- ==== Proof.KValReg1.lean ====
/-
  The first combine region's output array in closed form. At every grid point the body's one store leaves, at entry
  `(p, q)` of the 2000-row block, the three relations' aggregates scaled and biased, summed from the zero word and
  clamped below at it; each input block is the rows `2000 t … 2000 t + 1999` of its array, so the block is the rows'
  restriction of one whole-array function; the 50 blocks tile the 100000 rows, and the array ends holding that function.
-/
import proofs.«116805_j7318624272994_1_alg».proof.Proof.KiFrDefs
import proofs.«116805_j7318624272994_1_alg».proof.Proof.KValPayC
import proofs.«116805_j7318624272994_1_alg».proof.Proof.Spec
import Idealize.ShloMosaic.Lib.Pipeline.Value

noncomputable section

namespace Cert.KernelIdeal.KVal

open Idealize.ShloMosaic Idealize.ShloMosaic.TcCoe Idealize.ShloMosaic.ValueIdx Cert.KernelIdeal Cert.KernelIdeal.Fr

/-- What the body leaves at entry `(p, q)` of its output block, from the three input blocks. -/
theorem out1_3_apply (x0 : Vec Ideal S3x2000x128 .f32) (x1 : Vec Ideal S3x2000x1 .f32) (x2 : Vec Ideal S3x128 .f32)
    (p : Fin 2000) (q : Fin 128) :
    out1_3 (F := Ideal) x0 x1 x2 (ix2 p q)
      = max ((((((Cert.GraphConv.z + x0 (ix3 (0 : Fin 3) p q) * x1 (ix3 (0 : Fin 3) p (0 : Fin 1))) + x2 (ix2 (0 : Fin 3) q))
          + x0 (ix3 (1 : Fin 3) p q) * x1 (ix3 (1 : Fin 3) p (0 : Fin 1))) + x2 (ix2 (1 : Fin 3) q))
          + x0 (ix3 (2 : Fin 3) p q) * x1 (ix3 (2 : Fin 3) p (0 : Fin 1))) + x2 (ix2 (2 : Fin 3) q)) Cert.GraphConv.z := by
  unfold out1_3
  rw [View.canon_unit_zero hz2, k1_pay1_apply, k1_pay2_apply, k1_pay3_apply]
  have a0 : View.ld x0 r1_a0 (ix3 (0 : Fin 1) p q) = x0 (ix3 (0 : Fin 3) p q) := ld_lead3 (Val := Elt Ideal) x0 0 (by omega) _ 0 p q
  have a1 : View.ld x0 r1_a1 (ix3 (0 : Fin 1) p q) = x0 (ix3 (1 : Fin 3) p q) := ld_lead3 (Val := Elt Ideal) x0 1 (by omega) _ 0 p q
  have a2 : View.ld x0 r1_a2 (ix3 (0 : Fin 1) p q) = x0 (ix3 (2 : Fin 3) p q) := ld_lead3 (Val := Elt Ideal) x0 2 (by omega) _ 0 p q
  have b0 : View.ld x1 r1_b0 (ix3 (0 : Fin 1) p (0 : Fin 1)) = x1 (ix3 (0 : Fin 3) p (0 : Fin 1)) := ld_lead3 (Val := Elt Ideal) x1 0 (by omega) _ 0 p 0
  have b1 : View.ld x1 r1_b1 (ix3 (0 : Fin 1) p (0 : Fin 1)) = x1 (ix3 (1 : Fin 3) p (0 : Fin 1)) := ld_lead3 (Val := Elt Ideal) x1 1 (by omega) _ 0 p 0
  have b2 : View.ld x1 r1_b2 (ix3 (0 : Fin 1) p (0 : Fin 1)) = x1 (ix3 (2 : Fin 3) p (0 : Fin 1)) := ld_lead3 (Val := Elt Ideal) x1 2 (by omega) _ 0 p 0
  have c0 : View.ld x2 r1_c0 (ix2 (0 : Fin 1) q) = x2 (ix2 (0 : Fin 3) q) := ld_lead2 (Val := Elt Ideal) x2 0 (by omega) _ 0 q
  have c1 : View.ld x2 r1_c1 (ix2 (0 : Fin 1) q) = x2 (ix2 (1 : Fin 3) q) := ld_lead2 (Val := Elt Ideal) x2 1 (by omega) _ 0 q
  have c2 : View.ld x2 r1_c2 (ix2 (0 : Fin 1) q) = x2 (ix2 (2 : Fin 3) q) := ld_lead2 (Val := Elt Ideal) x2 2 (by omega) _ 0 q
  rw [a0, a1, a2, b0, b1, b2, c0, c1, c2]

/-- The printed index maps over the grid: point `t` names row tile `t` of every tiled array and block `0` elsewhere. -/
theorem idx1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A grid point is below 50. -/
theorem lt1 (t : Fin cfg1.N) : t.val < 50 := lt_of_lt_of_eq t.isLt Gen.N_1

/-- Row `p` of point `t`'s tile, as a row of the array. -/
def row1 (t : Fin cfg1.N) (p : Fin 2000) : Fin 100000 := ⟨t.val * 2000 + p.val, by have := lt1 t; have := p.isLt; omega⟩

variable (V : (c : Dev nD) → (b : Ref sig .tc) → Buf (Elt Ideal) ((c : Thread nD τ).loc b))

/-- The aggregates' block at point `t`: rows `2000 t …` of the three relations' aggregates. -/
theorem iblk1_0_apply (c : Dev nD) (t : Fin cfg1.N) (r : Fin 3) (p : Fin 2000) (q : Fin 128) :
    iblk1 (F := Ideal) V c 0 t (ix3 r p q) = V c main_v126 (ix3 r (row1 t p) q) := by
  show V c main_v126 (((cfg1.win 0).blk t).view.emb (ix3 r p q)) = _
  refine congrArg (V c main_v126) (funext fun a => Fin.ext ?_)
  obtain ⟨e0, e1, e2, -⟩ := idx1 t
  match a with
  | ⟨0, _⟩ => show win1_0.index t (0 : Fin 3) * 3 + 1 * r.val = r.val; omega
  | ⟨1, _⟩ => show win1_0.index t (1 : Fin 3) * 2000 + 1 * p.val = t.val * 2000 + p.val; omega
  | ⟨2, _⟩ => show win1_0.index t (2 : Fin 3) * 128 + 1 * q.val = q.val; omega

/-- The incoming-degree factors' block at point `t`. -/
theorem iblk1_1_apply (c : Dev nD) (t : Fin cfg1.N) (r : Fin 3) (p : Fin 2000) (u : Fin 1) :
    iblk1 (F := Ideal) V c 1 t (ix3 r p u) = V c main_v73 (ix3 r (row1 t p) (0 : Fin 1)) := by
  show V c main_v73 (((cfg1.win 1).blk t).view.emb (ix3 r p u)) = _
  refine congrArg (V c main_v73) (funext fun a => Fin.ext ?_)
  obtain ⟨-, -, -, e0, e1, e2, -⟩ := idx1 t
  match a with
  | ⟨0, _⟩ => show win1_1.index t (0 : Fin 3) * 3 + 1 * r.val = r.val; omega
  | ⟨1, _⟩ => show win1_1.index t (1 : Fin 3) * 2000 + 1 * p.val = t.val * 2000 + p.val; omega
  | ⟨2, _⟩ => show win1_1.index t (2 : Fin 3) * 1 + 1 * u.val = 0; have := u.isLt; omega

/-- The bias block is the whole bias array at every point. -/
theorem iblk1_2_apply (c : Dev nD) (t : Fin cfg1.N) (r : Fin 3) (q : Fin 128) :
    iblk1 (F := Ideal) V c 2 t (ix2 r q) = V c main_arg3 (ix2 r q) := by
  show V c main_arg3 (((cfg1.win 2).blk t).view.emb (ix2 r q)) = _
  refine congrArg (V c main_arg3) (funext fun a => Fin.ext ?_)
  obtain ⟨-, -, -, -, -, -, e0, e1, -⟩ := idx1 t
  match a with
  | ⟨0, _⟩ => show win1_2.index t (0 : Fin 2) * 3 + 1 * r.val = r.val; omega
  | ⟨1, _⟩ => show win1_2.index t (1 : Fin 2) * 128 + 1 * q.val = q.val; omega

/-- The array the region leaves: the three relations combined and clamped, entry by entry. -/
def G1 (c : Dev nD) : S100000x128.Idx → EReal := fun i =>
  max (Cert.GraphConv.comb (fun r n j => V c main_v126 (ix3 r n j)) (fun r n => V c main_v73 (ix3 r n (0 : Fin 1)))
    (fun r j => V c main_arg3 (ix2 r j)) (i 0) (i 1)) Cert.GraphConv.z

/-- What point `t` writes back is its block of `G1`. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  funext y
  obtain ⟨p, q, rfl⟩ : ∃ (p : Fin 2000) (q : Fin 128), y = ix2 p q := ⟨y 0, y 1, eq_ix2 y⟩
  show out1_3 (F := Ideal) (iblk1 V c 0 t) (iblk1 V c 1 t) (iblk1 V c 2 t) (ix2 p q)
    = G1 V c (((cfg1.win 3).blk t).view.emb (ix2 p q))
  have hemb : ((cfg1.win 3).blk t).view.emb (ix2 p q) = ix2 (row1 t p) q := by
    obtain ⟨-, -, -, -, -, -, -, -, e0, e1⟩ := idx1 t
    refine funext fun a => Fin.ext ?_
    match a with
    | ⟨0, _⟩ => show win1_3.index t (0 : Fin 2) * 2000 + 1 * p.val = t.val * 2000 + p.val; omega
    | ⟨1, _⟩ => show win1_3.index t (1 : Fin 2) * 128 + 1 * q.val = q.val; omega
  rw [hemb]
  refine (out1_3_apply (iblk1 V c 0 t) (iblk1 V c 1 t) (iblk1 V c 2 t) p q).trans ?_
  rw [iblk1_0_apply, iblk1_0_apply, iblk1_0_apply, iblk1_1_apply, iblk1_1_apply, iblk1_1_apply,
    iblk1_2_apply, iblk1_2_apply, iblk1_2_apply]
  rfl

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v127).slice (win1_3.rect t)).set ↔ _
  rw [View.set_slice_whole, Rect.mem_set_unit]
  exact Iff.rfl

/-- Every entry of the array is in the block of its row's tile. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := Gen.N_1
  let t : Fin cfg1.N := ⟨(i 0).val / 2000, by rw [hN]; omega⟩
  have htv : t.val = (i 0).val / 2000 := rfl
  obtain ⟨-, -, -, -, -, -, -, -, e0, e1⟩ := idx1 t
  refine ⟨t, Gen.flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The array after the region's run. -/
theorem final1 (c : Dev nD) : (dat1 (F := Ideal) V c).arrAt 3 cfg1.N = G1 V c :=
  (dat1 (F := Ideal) V c).arrAt_eq_of_cover 3 (G1 V c) (fun t _ => flushed1_eq V c t) cover1

/-- The first combine region's output, entry by entry: the three relations' aggregates, scaled and biased, summed from the
    zero word and clamped below at it. -/
theorem region1_value (c : Dev nD) (n : Fin 100000) (j : Fin 128) :
    (dat1 (F := Ideal) V c).arrAt 3 cfg1.N (ix2 n j)
      = max (Cert.GraphConv.comb (fun r n j => V c main_v126 (ix3 r n j)) (fun r n => V c main_v73 (ix3 r n 0))
          (fun r j => V c main_arg3 (ix2 r j)) n j) Cert.GraphConv.z := by
  rw [final1]
  rfl

end Cert.KernelIdeal.KVal

end
-- ==== Proof.KValReg2.lean ====
/-
  The second matmul region's output array in closed form. The grid's point `t` is row tile `t / 3` and relation `t % 3`
  (the relation innermost). At it the body's one store leaves, at entry `(0, p, q)` of the block, row `p` of the node
  tile scaled by the relation's outgoing-degree factor of that row, times column `q` of the relation's weight matrix;
  the three input blocks are that tile of the node array, of the relation's factors, and the relation's whole matrix,
  so the block is the restriction of one whole-array function; the 150 blocks tile the three relations' 100000 rows.
-/
import proofs.«116805_j7318624272994_1_alg».proof.Proof.KiFrDefs
import proofs.«116805_j7318624272994_1_alg».proof.Proof.KValPayM
import proofs.«116805_j7318624272994_1_alg».proof.Proof.Spec
import Idealize.ShloMosaic.Lib.Pipeline.Value

noncomputable section

namespace Cert.KernelIdeal.KVal

open Idealize.ShloMosaic Idealize.ShloMosaic.TcCoe Idealize.ShloMosaic.ValueIdx Cert.KernelIdeal Cert.KernelIdeal.Fr
open scoped BigOperators

/-- What the body leaves at entry `(u, p, q)` of its output block, from the three input blocks. -/
theorem out2_3_apply (x0 : Vec Ideal S2000x128 .f32) (x1 : Vec Ideal S1x2000x1 .f32) (x2 : Vec Ideal S1x128x64 .f32)
    (u : Fin 1) (p : Fin 2000) (q : Fin 64) :
    out2_3 (F := Ideal) x0 x1 x2 (ix3 u p q)
      = ∑ k : Fin 128, (x0 (ix2 p k) * x1 (ix3 (0 : Fin 1) p (0 : Fin 1))) * x2 (ix3 (0 : Fin 1) k q) := by
  unfold out2_3
  rw [View.canon_unit_zero hz3, View.ld_unit_zero (S := S2000x128) hz2, View.ld_unit_zero (S := S1x2000x1) hz3,
    View.ld_unit_zero (S := S1x128x64) hz3]
  exact k2_pay1_apply x0 x1 x2 u p q

/-- The printed index maps over the grid: point `t` names row tile `t / 3` and relation `t % 3`. -/
theorem idx2 : ∀ t : Fin cfg2.N,
    win2_0.index t (0 : Fin 2) = t.val / 3 ∧ win2_0.index t (1 : Fin 2) = 0
    ∧ win2_1.index t (0 : Fin 3) = t.val % 3 ∧ win2_1.index t (1 : Fin 3) = t.val / 3 ∧ win2_1.index t (2 : Fin 3) = 0
    ∧ win2_2.index t (0 : Fin 3) = t.val % 3 ∧ win2_2.index t (1 : Fin 3) = 0 ∧ win2_2.index t (2 : Fin 3) = 0
    ∧ win2_3.index t (0 : Fin 3) = t.val % 3 ∧ win2_3.index t (1 : Fin 3) = t.val / 3 ∧ win2_3.index t (2 : Fin 3) = 0 :=
  (by decide +kernel : ∀ t : Fin grid2.N, _)

/-- A grid point is below 150. -/
theorem lt2 (t : Fin cfg2.N) : t.val < 150 := lt_of_lt_of_eq t.isLt Gen.N_2

/-- Row `p` of point `t`'s tile, as a row of the array. -/
def row2 (t : Fin cfg2.N) (p : Fin 2000) : Fin 100000 :=
  ⟨t.val / 3 * 2000 + p.val, by have := lt2 t; have := p.isLt; omega⟩
/-- Point `t`'s relation. -/
def rel2 (t : Fin cfg2.N) : Fin 3 := ⟨t.val % 3, Nat.mod_lt _ (by decide)⟩

variable (V : (c : Dev nD) → (b : Ref sig .tc) → Buf (Elt Ideal) ((c : Thread nD τ).loc b))

/-- The node block at point `t`: rows `2000 (t / 3) …` of the node array. -/
theorem iblk2_0_apply (c : Dev nD) (t : Fin cfg2.N) (p : Fin 2000) (k : Fin 128) :
    iblk2 (F := Ideal) V c 0 t (ix2 p k) = V c main_v127 (ix2 (row2 t p) k) := by
  show V c main_v127 (((cfg2.win 0).blk t).view.emb (ix2 p k)) = _
  refine congrArg (V c main_v127) (funext fun a => Fin.ext ?_)
  obtain ⟨e0, e1, -⟩ := idx2 t
  match a with
  | ⟨0, _⟩ => show win2_0.index t (0 : Fin 2) * 2000 + 1 * p.val = t.val / 3 * 2000 + p.val; omega
  | ⟨1, _⟩ => show win2_0.index t (1 : Fin 2) * 128 + 1 * k.val = k.val; omega

/-- The outgoing-degree factors' block at point `t`: the point's relation, the tile's rows. -/
theorem iblk2_1_apply (c : Dev nD) (t : Fin cfg2.N) (u : Fin 1) (p : Fin 2000) (u' : Fin 1) :
    iblk2 (F := Ideal) V c 1 t (ix3 u p u') = V c main_v166 (ix3 (rel2 t) (row2 t p) (0 : Fin 1)) := by
  show V c main_v166 (((cfg2.win 1).blk t).view.emb (ix3 u p u')) = _
  refine congrArg (V c main_v166) (funext fun a => Fin.ext ?_)
  obtain ⟨-, -, e0, e1, e2, -⟩ := idx2 t
  match a with
  | ⟨0, _⟩ => show win2_1.index t (0 : Fin 3) * 1 + 1 * u.val = t.val % 3; have := u.isLt; omega
  | ⟨1, _⟩ => show win2_1.index t (1 : Fin 3) * 2000 + 1 * p.val = t.val / 3 * 2000 + p.val; omega
  | ⟨2, _⟩ => show win2_1.index t (2 : Fin 3) * 1 + 1 * u'.val = 0; have := u'.isLt; omega

/-- The weight block at point `t`: the point's relation's whole matrix. -/
theorem iblk2_2_apply (c : Dev nD) (t : Fin cfg2.N) (u : Fin 1) (k : Fin 128) (q : Fin 64) :
    iblk2 (F := Ideal) V c 2 t (ix3 u k q) = V c main_arg4 (ix3 (rel2 t) k q) := by
  show V c main_arg4 (((cfg2.win 2).blk t).view.emb (ix3 u k q)) = _
  refine congrArg (V c main_arg4) (funext fun a => Fin.ext ?_)
  obtain ⟨-, -, -, -, -, e0, e1, e2, -⟩ := idx2 t
  match a with
  | ⟨0, _⟩ => show win2_2.index t (0 : Fin 3) * 1 + 1 * u.val = t.val % 3; have := u.isLt; omega
  | ⟨1, _⟩ => show win2_2.index t (1 : Fin 3) * 128 + 1 * k.val = k.val; omega
  | ⟨2, _⟩ => show win2_2.index t (2 : Fin 3) * 64 + 1 * q.val = q.val; omega

/-- The array the region leaves: each relation's messages, entry by entry. -/
def G2 (c : Dev nD) : S3x100000x64.Idx → EReal := fun i =>
  Cert.GraphConv.msg (fun n => V c main_v166 (ix3 (i 0) n (0 : Fin 1))) (fun n k => V c main_v127 (ix2 n k))
    (fun k j => V c main_arg4 (ix3 (i 0) k j)) (i 1) (i 2)

/-- What point `t` writes back is its block of `G2`. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  funext y
  obtain ⟨u, p, q, rfl⟩ : ∃ (u : Fin 1) (p : Fin 2000) (q : Fin 64), y = ix3 u p q := ⟨y 0, y 1, y 2, eq_ix3 y⟩
  show out2_3 (F := Ideal) (iblk2 V c 0 t) (iblk2 V c 1 t) (iblk2 V c 2 t) (ix3 u p q)
    = G2 V c (((cfg2.win 3).blk t).view.emb (ix3 u p q))
  have hemb : ((cfg2.win 3).blk t).view.emb (ix3 u p q) = ix3 (rel2 t) (row2 t p) q := by
    obtain ⟨-, -, -, -, -, -, -, -, e0, e1, e2⟩ := idx2 t
    refine funext fun a => Fin.ext ?_
    match a with
    | ⟨0, _⟩ => show win2_3.index t (0 : Fin 3) * 1 + 1 * u.val = t.val % 3; have := u.isLt; omega
    | ⟨1, _⟩ => show win2_3.index t (1 : Fin 3) * 2000 + 1 * p.val = t.val / 3 * 2000 + p.val; omega
    | ⟨2, _⟩ => show win2_3.index t (2 : Fin 3) * 64 + 1 * q.val = q.val; omega
  rw [hemb]
  refine (out2_3_apply (iblk2 V c 0 t) (iblk2 V c 1 t) (iblk2 V c 2 t) u p q).trans ?_
  unfold G2 Cert.GraphConv.msg
  refine Finset.sum_congr rfl fun k _ => ?_
  rw [iblk2_0_apply, iblk2_1_apply, iblk2_2_apply]

/-- An index of the array is in point `t`'s block iff each coordinate is in the block's range on its axis. -/
theorem mem_blk2 (t : Fin cfg2.N) (i : S3x100000x64.Idx) :
    i ∈ ((cfg2.win 3).blk t).view.set ↔ ∀ a : Fin 3, win2_3.index t a * S1x2000x64.size a ≤ (i a).val
      ∧ (i a).val < win2_3.index t a * S1x2000x64.size a + S1x2000x64.size a := by
  show i ∈ ((View.whole main_v202).slice (win2_3.rect t)).set ↔ _
  rw [View.set_slice_whole, Rect.mem_set_unit]
  exact Iff.rfl

/-- Every entry of the array is in the block of its relation and its row's tile. -/
theorem cover2 (i : S3x100000x64.Idx) :
    ∃ t : Fin cfg2.N, (cfg2.win 3).flush t = true ∧ i ∈ ((cfg2.win 3).blk t).view.set := by
  have hi0 : (i 0).val < 3 := (i 0).isLt
  have hi1 : (i 1).val < 100000 := (i 1).isLt
  have hi2 : (i 2).val < 64 := (i 2).isLt
  have hN : cfg2.N = 150 := Gen.N_2
  let t : Fin cfg2.N := ⟨(i 1).val / 2000 * 3 + (i 0).val, by rw [hN]; omega⟩
  have htv : t.val = (i 1).val / 2000 * 3 + (i 0).val := rfl
  obtain ⟨-, -, -, -, -, -, -, -, e0, e1, e2⟩ := idx2 t
  refine ⟨t, Gen.flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 2000 ≤ (i 1).val ∧ (i 1).val < win2_3.index t (1 : Fin 3) * 2000 + 2000; omega
  | ⟨2, _⟩ => show win2_3.index t (2 : Fin 3) * 64 ≤ (i 2).val ∧ (i 2).val < win2_3.index t (2 : Fin 3) * 64 + 64; omega

/-- The array after the region's run. -/
theorem final2 (c : Dev nD) : (dat2 (F := Ideal) V c).arrAt 3 cfg2.N = G2 V c :=
  (dat2 (F := Ideal) V c).arrAt_eq_of_cover 3 (G2 V c) (fun t _ => flushed2_eq V c t) cover2

/-- The second matmul region's output, entry by entry: relation `r`'s messages at node `n`, column `j`. -/
theorem region2_value (c : Dev nD) (r : Fin 3) (n : Fin 100000) (j : Fin 64) :
    (dat2 (F := Ideal) V c).arrAt 3 cfg2.N (ix3 r n j)
      = Cert.GraphConv.msg (fun n => V c main_v166 (ix3 r n 0)) (fun n k => V c main_v127 (ix2 n k))
          (fun k j => V c main_arg4 (ix3 r k j)) n j := by
  rw [final2]
  rfl

end Cert.KernelIdeal.KVal

end
-- ==== Proof.KValReg3.lean ====
/-
  The second combine region's output array — the program's result — in closed form. At every grid point the body's one
  store leaves, at entry `(p, q)` of the 2000-row block, the three relations' aggregates scaled and biased, summed from
  the zero word (no clamp in this layer); each input block is the rows `2000 t … 2000 t + 1999` of its array, so the block is the rows'
  restriction of one whole-array function; the 50 blocks tile the 100000 rows, and the array ends holding that function.
-/
import proofs.«116805_j7318624272994_1_alg».proof.Proof.KiFrDefs
import proofs.«116805_j7318624272994_1_alg».proof.Proof.KValPayC
import proofs.«116805_j7318624272994_1_alg».proof.Proof.Spec
import Idealize.ShloMosaic.Lib.Pipeline.Value

noncomputable section

namespace Cert.KernelIdeal.KVal

open Idealize.ShloMosaic Idealize.ShloMosaic.TcCoe Idealize.ShloMosaic.ValueIdx Cert.KernelIdeal Cert.KernelIdeal.Fr

/-- What the body leaves at entry `(p, q)` of its output block, from the three input blocks. -/
theorem out3_3_apply (x0 : Vec Ideal S3x2000x64 .f32) (x1 : Vec Ideal S3x2000x1 .f32) (x2 : Vec Ideal S3x64 .f32)
    (p : Fin 2000) (q : Fin 64) :
    out3_3 (F := Ideal) x0 x1 x2 (ix2 p q)
      = (((((Cert.GraphConv.z + x0 (ix3 (0 : Fin 3) p q) * x1 (ix3 (0 : Fin 3) p (0 : Fin 1))) + x2 (ix2 (0 : Fin 3) q))
          + x0 (ix3 (1 : Fin 3) p q) * x1 (ix3 (1 : Fin 3) p (0 : Fin 1))) + x2 (ix2 (1 : Fin 3) q))
          + x0 (ix3 (2 : Fin 3) p q) * x1 (ix3 (2 : Fin 3) p (0 : Fin 1))) + x2 (ix2 (2 : Fin 3) q) := by
  unfold out3_3
  rw [View.canon_unit_zero hz2, k3_pay1_apply, k3_pay2_apply, k3_pay3_apply]
  have a0 : View.ld x0 r3_a0 (ix3 (0 : Fin 1) p q) = x0 (ix3 (0 : Fin 3) p q) := ld_lead3 (Val := Elt Ideal) x0 0 (by omega) _ 0 p q
  have a1 : View.ld x0 r3_a1 (ix3 (0 : Fin 1) p q) = x0 (ix3 (1 : Fin 3) p q) := ld_lead3 (Val := Elt Ideal) x0 1 (by omega) _ 0 p q
  have a2 : View.ld x0 r3_a2 (ix3 (0 : Fin 1) p q) = x0 (ix3 (2 : Fin 3) p q) := ld_lead3 (Val := Elt Ideal) x0 2 (by omega) _ 0 p q
  have b0 : View.ld x1 r3_b0 (ix3 (0 : Fin 1) p (0 : Fin 1)) = x1 (ix3 (0 : Fin 3) p (0 : Fin 1)) := ld_lead3 (Val := Elt Ideal) x1 0 (by omega) _ 0 p 0
  have b1 : View.ld x1 r3_b1 (ix3 (0 : Fin 1) p (0 : Fin 1)) = x1 (ix3 (1 : Fin 3) p (0 : Fin 1)) := ld_lead3 (Val := Elt Ideal) x1 1 (by omega) _ 0 p 0
  have b2 : View.ld x1 r3_b2 (ix3 (0 : Fin 1) p (0 : Fin 1)) = x1 (ix3 (2 : Fin 3) p (0 : Fin 1)) := ld_lead3 (Val := Elt Ideal) x1 2 (by omega) _ 0 p 0
  have c0 : View.ld x2 r3_c0 (ix2 (0 : Fin 1) q) = x2 (ix2 (0 : Fin 3) q) := ld_lead2 (Val := Elt Ideal) x2 0 (by omega) _ 0 q
  have c1 : View.ld x2 r3_c1 (ix2 (0 : Fin 1) q) = x2 (ix2 (1 : Fin 3) q) := ld_lead2 (Val := Elt Ideal) x2 1 (by omega) _ 0 q
  have c2 : View.ld x2 r3_c2 (ix2 (0 : Fin 1) q) = x2 (ix2 (2 : Fin 3) q) := ld_lead2 (Val := Elt Ideal) x2 2 (by omega) _ 0 q
  rw [a0, a1, a2, b0, b1, b2, c0, c1, c2]

/-- The printed index maps over the grid: point `t` names row tile `t` of every tiled array and block `0` elsewhere. -/
theorem idx3 : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = t.val ∧ win3_1.index t (2 : Fin 3) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A grid point is below 50. -/
theorem lt3 (t : Fin cfg3.N) : t.val < 50 := lt_of_lt_of_eq t.isLt Gen.N_3

/-- Row `p` of point `t`'s tile, as a row of the array. -/
def row3 (t : Fin cfg3.N) (p : Fin 2000) : Fin 100000 := ⟨t.val * 2000 + p.val, by have := lt3 t; have := p.isLt; omega⟩

variable (V : (c : Dev nD) → (b : Ref sig .tc) → Buf (Elt Ideal) ((c : Thread nD τ).loc b))

/-- The aggregates' block at point `t`: rows `2000 t …` of the three relations' aggregates. -/
theorem iblk3_0_apply (c : Dev nD) (t : Fin cfg3.N) (r : Fin 3) (p : Fin 2000) (q : Fin 64) :
    iblk3 (F := Ideal) V c 0 t (ix3 r p q) = V c main_v254 (ix3 r (row3 t p) q) := by
  show V c main_v254 (((cfg3.win 0).blk t).view.emb (ix3 r p q)) = _
  refine congrArg (V c main_v254) (funext fun a => Fin.ext ?_)
  obtain ⟨e0, e1, e2, -⟩ := idx3 t
  match a with
  | ⟨0, _⟩ => show win3_0.index t (0 : Fin 3) * 3 + 1 * r.val = r.val; omega
  | ⟨1, _⟩ => show win3_0.index t (1 : Fin 3) * 2000 + 1 * p.val = t.val * 2000 + p.val; omega
  | ⟨2, _⟩ => show win3_0.index t (2 : Fin 3) * 64 + 1 * q.val = q.val; omega

/-- The incoming-degree factors' block at point `t`. -/
theorem iblk3_1_apply (c : Dev nD) (t : Fin cfg3.N) (r : Fin 3) (p : Fin 2000) (u : Fin 1) :
    iblk3 (F := Ideal) V c 1 t (ix3 r p u) = V c main_v201 (ix3 r (row3 t p) (0 : Fin 1)) := by
  show V c main_v201 (((cfg3.win 1).blk t).view.emb (ix3 r p u)) = _
  refine congrArg (V c main_v201) (funext fun a => Fin.ext ?_)
  obtain ⟨-, -, -, e0, e1, e2, -⟩ := idx3 t
  match a with
  | ⟨0, _⟩ => show win3_1.index t (0 : Fin 3) * 3 + 1 * r.val = r.val; omega
  | ⟨1, _⟩ => show win3_1.index t (1 : Fin 3) * 2000 + 1 * p.val = t.val * 2000 + p.val; omega
  | ⟨2, _⟩ => show win3_1.index t (2 : Fin 3) * 1 + 1 * u.val = 0; have := u.isLt; omega

/-- The bias block is the whole bias array at every point. -/
theorem iblk3_2_apply (c : Dev nD) (t : Fin cfg3.N) (r : Fin 3) (q : Fin 64) :
    iblk3 (F := Ideal) V c 2 t (ix2 r q) = V c main_arg5 (ix2 r q) := by
  show V c main_arg5 (((cfg3.win 2).blk t).view.emb (ix2 r q)) = _
  refine congrArg (V c main_arg5) (funext fun a => Fin.ext ?_)
  obtain ⟨-, -, -, -, -, -, e0, e1, -⟩ := idx3 t
  match a with
  | ⟨0, _⟩ => show win3_2.index t (0 : Fin 2) * 3 + 1 * r.val = r.val; omega
  | ⟨1, _⟩ => show win3_2.index t (1 : Fin 2) * 64 + 1 * q.val = q.val; omega

/-- The array the region leaves: the three relations combined, entry by entry. -/
def G3 (c : Dev nD) : S100000x64.Idx → EReal := fun i =>
  Cert.GraphConv.comb (fun r n j => V c main_v254 (ix3 r n j)) (fun r n => V c main_v201 (ix3 r n (0 : Fin 1)))
    (fun r j => V c main_arg5 (ix2 r j)) (i 0) (i 1)

/-- What point `t` writes back is its block of `G3`. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  funext y
  obtain ⟨p, q, rfl⟩ : ∃ (p : Fin 2000) (q : Fin 64), y = ix2 p q := ⟨y 0, y 1, eq_ix2 y⟩
  show out3_3 (F := Ideal) (iblk3 V c 0 t) (iblk3 V c 1 t) (iblk3 V c 2 t) (ix2 p q)
    = G3 V c (((cfg3.win 3).blk t).view.emb (ix2 p q))
  have hemb : ((cfg3.win 3).blk t).view.emb (ix2 p q) = ix2 (row3 t p) q := by
    obtain ⟨-, -, -, -, -, -, -, -, e0, e1⟩ := idx3 t
    refine funext fun a => Fin.ext ?_
    match a with
    | ⟨0, _⟩ => show win3_3.index t (0 : Fin 2) * 2000 + 1 * p.val = t.val * 2000 + p.val; omega
    | ⟨1, _⟩ => show win3_3.index t (1 : Fin 2) * 64 + 1 * q.val = q.val; omega
  rw [hemb]
  refine (out3_3_apply (iblk3 V c 0 t) (iblk3 V c 1 t) (iblk3 V c 2 t) p q).trans ?_
  rw [iblk3_0_apply, iblk3_0_apply, iblk3_0_apply, iblk3_1_apply, iblk3_1_apply, iblk3_1_apply,
    iblk3_2_apply, iblk3_2_apply, iblk3_2_apply]
  rfl

/-- An index of the array is in point `t`'s block iff each coordinate is in the block's range on its axis. -/
theorem mem_blk3 (t : Fin cfg3.N) (i : S100000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v255).slice (win3_3.rect t)).set ↔ _
  rw [View.set_slice_whole, Rect.mem_set_unit]
  exact Iff.rfl

/-- Every entry of the array is in the block of its row's tile. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := Gen.N_3
  let t : Fin cfg3.N := ⟨(i 0).val / 2000, by rw [hN]; omega⟩
  have htv : t.val = (i 0).val / 2000 := rfl
  obtain ⟨-, -, -, -, -, -, -, -, e0, e1⟩ := idx3 t
  refine ⟨t, Gen.flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- The array after the region's run. -/
theorem final3 (c : Dev nD) : (dat3 (F := Ideal) V c).arrAt 3 cfg3.N = G3 V c :=
  (dat3 (F := Ideal) V c).arrAt_eq_of_cover 3 (G3 V c) (fun t _ => flushed3_eq V c t) cover3

/-- The second combine region's output, entry by entry: the three relations' aggregates, scaled and biased, summed from
    the zero word. -/
theorem region3_value (c : Dev nD) (n : Fin 100000) (j : Fin 64) :
    (dat3 (F := Ideal) V c).arrAt 3 cfg3.N (ix2 n j)
      = Cert.GraphConv.comb (fun r n j => V c main_v254 (ix3 r n j)) (fun r n => V c main_v201 (ix3 r n 0))
          (fun r j => V c main_arg5 (ix2 r j)) n j := by
  rw [final3]
  rfl

end Cert.KernelIdeal.KVal

end
-- ==== Proof.KValHostTac.lean ====
/-
  Reading a line of host operations at one buffer: a line's three-operand operation (a concatenation of three arrays)
  gives its function applied to the three operands' contents, each at its own buffer; and the whole line read at a
  buffer is one pass of rewriting, each operation giving its function's value at the buffer it writes and what was there at
  any other. The pass does not enter the list of a concatenation (the evidence that the pieces fit depends on the list), so
  a concatenation of three pieces is compared piece by piece.
-/
import Idealize.ShloMosaic.Lib.StableHlo.Run

noncomputable section

namespace Cert.KernelIdeal.KVal

open Idealize.ShloMosaic Idealize.ShloMosaic.StableHlo

section
variable {τ : Topo} {sig : RefSig} {Val : EltTy → Type}
variable {x a b y : Ref sig .tc}

/-- An operation of three operands given as a literal family: its result at the buffer it writes is its function of the
    three operands' contents, each read at its own buffer. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl
end

/-- The three entries of a family of three given entry by entry. -/
theorem cons3_0 {α : Fin 3 → Type} (x0 : α 0) (x1 : α 1) (x2 : α 2) :
    (Fin.cons (α := α) x0 (Fin.cons (α := fun i : Fin 2 => α i.succ) x1 (Fin.cons (α := fun i : Fin 1 => α i.succ.succ) x2 (fun i => i.elim0))) : (i : Fin 3) → α i) 0 = x0 := rfl
theorem cons3_1 {α : Fin 3 → Type} (x0 : α 0) (x1 : α 1) (x2 : α 2) :
    (Fin.cons (α := α) x0 (Fin.cons (α := fun i : Fin 2 => α i.succ) x1 (Fin.cons (α := fun i : Fin 1 => α i.succ.succ) x2 (fun i => i.elim0))) : (i : Fin 3) → α i) 1 = x1 := rfl
theorem cons3_2 {α : Fin 3 → Type} (x0 : α 0) (x1 : α 1) (x2 : α 2) :
    (Fin.cons (α := α) x0 (Fin.cons (α := fun i : Fin 2 => α i.succ) x1 (Fin.cons (α := fun i : Fin 1 => α i.succ.succ) x2 (fun i => i.elim0))) : (i : Fin 3) → α i) 2 = x2 := rfl

/-- A concatenation of three pieces of one shape depends only on the pieces: equal pieces, equal concatenations (the
    evidence that the pieces fit is a proposition about their shapes alone). -/
theorem concat3_congr {α : Type} {t s : Shape} (ax : Fin t.rank) {A A' B B' C C' : s.Idx → α}
    (h : Shape.Concatenates ([(⟨s, A⟩ : (s : Shape) × (s.Idx → α)), ⟨s, B⟩, ⟨s, C⟩].map (·.1)) t ax)
    (h' : Shape.Concatenates ([(⟨s, A'⟩ : (s : Shape) × (s.Idx → α)), ⟨s, B'⟩, ⟨s, C'⟩].map (·.1)) t ax)
    (hA : A = A') (hB : B = B') (hC : C = C') :
    concatenate t ax [⟨s, A⟩, ⟨s, B⟩, ⟨s, C⟩] h = concatenate t ax [⟨s, A'⟩, ⟨s, B'⟩, ⟨s, C'⟩] h' := by
  subst hA hB hC; rfl

/-- A line of host operations read at one buffer, in one pass. -/
macro "host_read" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.reshape_result', Cert.KernelIdeal.KVal.nary3_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.reshape_result_ne', Idealize.ShloMosaic.StableHlo.nary_result_ne']))

end Cert.KernelIdeal.KVal

end
-- ==== Proof.KValEnv.lean ====
/-
  The kernel program's side of the edge-only data.

  From the edge array (3 relations, 2 rows each, 1600000 edges) the program first cuts the three source rows and the three
  target rows as two arrays of 3 rows, then a relation's row out of each; from a row of nodes it computes the degree scaling
  (count the edges at each node by a scatter-add of ones into zeros, clamp below at one, raise to the power -1/2); and it sums
  a feature array over a relation's edges by gathering the rows at the (wrapped) source nodes and scatter-adding them into
  zeros at the target nodes. These are written here once, with the program's own operations and records, and collected as the
  four families the specification takes as its parameter. Only the slicing is read at an index (entry `i` of relation `r`'s row
  `col` is the edge array's entry `(r, col, i)`); nothing here looks inside a scatter-add, a gather or the power.
-/
import proofs.«116805_j7318624272994_1_alg».proof.Proof.Gen.KernelIdeal
import proofs.«116805_j7318624272994_1_alg».proof.Proof.Spec
import Idealize.ShloMosaic.Lib.ValueIdx
import Idealize.ShloMosaic.Lib.Pipeline.Value

noncomputable section

namespace Cert.KernelIdeal.KVal

open Cert.KernelIdeal Cert.KernelIdeal.Gen Idealize.ShloMosaic Idealize.ShloMosaic.TcCoe Idealize.SL.Sem Idealize.ShloMosaic.StableHlo ValueIdx

/-- The three relations' source rows as one array of 3 rows: rows `(·, 0)` of the edge array. -/
def rows0 (e : (⟨S3x2x1600000, .i32⟩ : BufTy).Contents (Elt Ideal)) : (⟨S3x1600000, .i32⟩ : BufTy).Contents (Elt Ideal) :=
  shapeCast _ (extractStridedSlice S3x1x1600000 ![0, 0, 0] e slices_S3x2x1600000_S3x1x1600000_0_0_0) shapeCasts_S3x1x1600000_S3x1600000
/-- The three relations' target rows: rows `(·, 1)` of the edge array. -/
def rows1 (e : (⟨S3x2x1600000, .i32⟩ : BufTy).Contents (Elt Ideal)) : (⟨S3x1600000, .i32⟩ : BufTy).Contents (Elt Ideal) :=
  shapeCast _ (extractStridedSlice S3x1x1600000 ![0, 1, 0] e slices_S3x2x1600000_S3x1x1600000_0_1_0) shapeCasts_S3x1x1600000_S3x1600000
/-- Row `r` of an array of 3 rows, as a vector. -/
def pick (v : (⟨S3x1600000, .i32⟩ : BufTy).Contents (Elt Ideal)) (r : Fin 3) : (⟨S1600000, .i32⟩ : BufTy).Contents (Elt Ideal) :=
  match r with
  | ⟨0, _⟩ => shapeCast _ (extractStridedSlice S1x1600000 ![0, 0] v slices_S3x1600000_S1x1600000_0_0) shapeCasts_S1x1600000_S1600000
  | ⟨1, _⟩ => shapeCast _ (extractStridedSlice S1x1600000 ![1, 0] v slices_S3x1600000_S1x1600000_1_0) shapeCasts_S1x1600000_S1600000
  | ⟨2, _⟩ => shapeCast _ (extractStridedSlice S1x1600000 ![2, 0] v slices_S3x1600000_S1x1600000_2_0) shapeCasts_S1x1600000_S1600000
/-- Relation `r`'s source nodes. -/
def src (e : (⟨S3x2x1600000, .i32⟩ : BufTy).Contents (Elt Ideal)) (r : Fin 3) : (⟨S1600000, .i32⟩ : BufTy).Contents (Elt Ideal) := pick (rows0 e) r
/-- Relation `r`'s target nodes. -/
def dst (e : (⟨S3x2x1600000, .i32⟩ : BufTy).Contents (Elt Ideal)) (r : Fin 3) : (⟨S1600000, .i32⟩ : BufTy).Contents (Elt Ideal) := pick (rows1 e) r

/-- The degree scaling of a row of node numbers: per node, (max (number of edges at the node) 1) ^ (-1/2). -/
def degScale (ix : (⟨S1600000, .i32⟩ : BufTy).Contents (Elt Ideal)) : (⟨S100000, .f32⟩ : BufTy).Contents (Elt Ideal) :=
  Host.powf (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 ix) (broadcastInDim S1600000 ![] bcast_S_S1600000 (constant (F := Ideal) S_ .f32 0x3F800000#32))) (broadcastInDim S100000 ![] bcast_S_S100000 (constant (F := Ideal) S_ .f32 0x3F800000#32))) (broadcastInDim S100000 ![] bcast_S_S100000 (constant (F := Ideal) S_ .f32 0xBF000000#32))

/-- A row of node numbers as gather indices: a negative number wraps around by 100000, and the row becomes a column. -/
def normIdx (s : (⟨S1600000, .i32⟩ : BufTy).Contents (Elt Ideal)) : (⟨S1600000x1, .i32⟩ : BufTy).Contents (Elt Ideal) :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- The neighbourhood sum at 128 columns: the rows of `M` at the source nodes, added into zeros at the target nodes. -/
def nbr128 (s d : (⟨S1600000, .i32⟩ : BufTy).Contents (Elt Ideal)) (M : (⟨S100000x128, .f32⟩ : BufTy).Contents (Elt Ideal)) : (⟨S100000x128, .f32⟩ : BufTy).Contents (Elt Ideal) :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 d) (Host.gather gather_S100000x128_S1600000x1_S1600000x128_1_0_n_n_0_1_1128 M (normIdx s))

/-- The neighbourhood sum at 64 columns. -/
def nbr64 (s d : (⟨S1600000, .i32⟩ : BufTy).Contents (Elt Ideal)) (M : (⟨S100000x64, .f32⟩ : BufTy).Contents (Elt Ideal)) : (⟨S100000x64, .f32⟩ : BufTy).Contents (Elt Ideal) :=
  Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 d) (Host.gather gather_S100000x64_S1600000x1_S1600000x64_1_0_n_n_0_1_164 M (normIdx s))

/-- Everything the program computes from the edge array alone, as the specification's parameter. -/
def env (e : (⟨S3x2x1600000, .i32⟩ : BufTy).Contents (Elt Ideal)) : Cert.GraphConv.Env where
  so r n := degScale (src e r) (ix1 n)
  si r n := degScale (dst e r) (ix1 n)
  agg1 r M n j := nbr128 (src e r) (dst e r) (fun i => M (i 0) (i 1)) (ix2 n j)
  agg2 r M n j := nbr64 (src e r) (dst e r) (fun i => M (i 0) (i 1)) (ix2 n j)

/-! ## The slicing at an index -/

/-- Entry `(r, i)` of the source rows is the edge array's entry `(r, 0, i)`. -/
theorem rows0_at (e : (⟨S3x2x1600000, .i32⟩ : BufTy).Contents (Elt Ideal)) (r : Fin 3) (i : Fin 1600000) :
    rows0 e (ix2 r i) = e (ix3 r 0 i) := by
  unfold rows0
  generalize hy : extractStridedSlice S3x1x1600000 ![0, 0, 0] e slices_S3x2x1600000_S3x1x1600000_0_0_0 = y
  refine (shapeCast_apply y shapeCasts_S3x1x1600000_S3x1600000 (ix2 r i) (ix3 r 0 i)
    (by rewrite [Shape.rowMajor_val_three, Shape.rowMajor_val_two]; show (r.val * 1 + 0) * 1600000 + i.val = r.val * 1600000 + i.val; omega)).trans ?_
  subst hy
  exact extractStridedSlice_apply ![0, 0, 0] e slices_S3x2x1600000_S3x1x1600000_0_0_0 (ix3 r 0 i) (ix3 r 0 i) (fun a => match a with
    | ⟨0, _⟩ => by show r.val = 0 + r.val; omega
    | ⟨1, _⟩ => by show 0 = 0 + 0; omega
    | ⟨2, _⟩ => by show i.val = 0 + i.val; omega)

/-- Entry `(r, i)` of the target rows is the edge array's entry `(r, 1, i)`. -/
theorem rows1_at (e : (⟨S3x2x1600000, .i32⟩ : BufTy).Contents (Elt Ideal)) (r : Fin 3) (i : Fin 1600000) :
    rows1 e (ix2 r i) = e (ix3 r 1 i) := by
  unfold rows1
  generalize hy : extractStridedSlice S3x1x1600000 ![0, 1, 0] e slices_S3x2x1600000_S3x1x1600000_0_1_0 = y
  refine (shapeCast_apply y shapeCasts_S3x1x1600000_S3x1600000 (ix2 r i) (ix3 r 0 i)
    (by rewrite [Shape.rowMajor_val_three, Shape.rowMajor_val_two]; show (r.val * 1 + 0) * 1600000 + i.val = r.val * 1600000 + i.val; omega)).trans ?_
  subst hy
  exact extractStridedSlice_apply ![0, 1, 0] e slices_S3x2x1600000_S3x1x1600000_0_1_0 (ix3 r 0 i) (ix3 r 1 i) (fun a => match a with
    | ⟨0, _⟩ => by show r.val = 0 + r.val; omega
    | ⟨1, _⟩ => by show 1 = 1 + 0; omega
    | ⟨2, _⟩ => by show i.val = 0 + i.val; omega)

/-- Entry `i` of row `r` picked out of an array of 3 rows is its entry `(r, i)`. -/
theorem pick_at (v : (⟨S3x1600000, .i32⟩ : BufTy).Contents (Elt Ideal)) (r : Fin 3) (i : Fin 1600000) :
    pick v r (ix1 i) = v (ix2 r i) := by
  match r with
  | ⟨0, _⟩ =>
    show (shapeCast _ (extractStridedSlice S1x1600000 ![0, 0] v slices_S3x1600000_S1x1600000_0_0) shapeCasts_S1x1600000_S1600000) (ix1 i) = _
    generalize hy : extractStridedSlice S1x1600000 ![0, 0] v slices_S3x1600000_S1x1600000_0_0 = y
    refine (shapeCast_apply y shapeCasts_S1x1600000_S1600000 (ix1 i) (ix2 0 i)
      (by rewrite [Shape.rowMajor_val_two, Shape.rowMajor_val_one]; show 0 * 1600000 + i.val = i.val; omega)).trans ?_
    subst hy
    exact extractStridedSlice_apply ![0, 0] v slices_S3x1600000_S1x1600000_0_0 (ix2 0 i) (ix2 ⟨0, by omega⟩ i) (fun a => match a with
      | ⟨0, _⟩ => by show 0 = 0 + 0; omega
      | ⟨1, _⟩ => by show i.val = 0 + i.val; omega)
  | ⟨1, _⟩ =>
    show (shapeCast _ (extractStridedSlice S1x1600000 ![1, 0] v slices_S3x1600000_S1x1600000_1_0) shapeCasts_S1x1600000_S1600000) (ix1 i) = _
    generalize hy : extractStridedSlice S1x1600000 ![1, 0] v slices_S3x1600000_S1x1600000_1_0 = y
    refine (shapeCast_apply y shapeCasts_S1x1600000_S1600000 (ix1 i) (ix2 0 i)
      (by rewrite [Shape.rowMajor_val_two, Shape.rowMajor_val_one]; show 0 * 1600000 + i.val = i.val; omega)).trans ?_
    subst hy
    exact extractStridedSlice_apply ![1, 0] v slices_S3x1600000_S1x1600000_1_0 (ix2 0 i) (ix2 ⟨1, by omega⟩ i) (fun a => match a with
      | ⟨0, _⟩ => by show 1 = 1 + 0; omega
      | ⟨1, _⟩ => by show i.val = 0 + i.val; omega)
  | ⟨2, _⟩ =>
    show (shapeCast _ (extractStridedSlice S1x1600000 ![2, 0] v slices_S3x1600000_S1x1600000_2_0) shapeCasts_S1x1600000_S1600000) (ix1 i) = _
    generalize hy : extractStridedSlice S1x1600000 ![2, 0] v slices_S3x1600000_S1x1600000_2_0 = y
    refine (shapeCast_apply y shapeCasts_S1x1600000_S1600000 (ix1 i) (ix2 0 i)
      (by rewrite [Shape.rowMajor_val_two, Shape.rowMajor_val_one]; show 0 * 1600000 + i.val = i.val; omega)).trans ?_
    subst hy
    exact extractStridedSlice_apply ![2, 0] v slices_S3x1600000_S1x1600000_2_0 (ix2 0 i) (ix2 ⟨2, by omega⟩ i) (fun a => match a with
      | ⟨0, _⟩ => by show 2 = 2 + 0; omega
      | ⟨1, _⟩ => by show i.val = 0 + i.val; omega)

theorem src_at (e : (⟨S3x2x1600000, .i32⟩ : BufTy).Contents (Elt Ideal)) (r : Fin 3) (i : Fin 1600000) : src e r (ix1 i) = e (ix3 r 0 i) :=
  (pick_at (rows0 e) r i).trans (rows0_at e r i)
theorem dst_at (e : (⟨S3x2x1600000, .i32⟩ : BufTy).Contents (Elt Ideal)) (r : Fin 3) (i : Fin 1600000) : dst e r (ix1 i) = e (ix3 r 1 i) :=
  (pick_at (rows1 e) r i).trans (rows1_at e r i)

end Cert.KernelIdeal.KVal

end
-- ==== Proof.KValHostStk.lean ====
/-
  Three per-relation arrays stacked along a new leading axis, as the program builds them, and the stack read at an index:
  the degree scalings of the three rows of a 3-row array of node numbers, stacked and turned into columns; the
  neighbourhood sums of the three rows of a stack of feature arrays, stacked again; and row `r` of a stack as a matrix.
  Each is read at `(r, ·)` by three literal cases of `r`; nothing looks inside a degree scaling or a neighbourhood sum.
-/
import proofs.«116805_j7318624272994_1_alg».proof.Proof.KValEnv
import Idealize.ShloMosaic.Lib.ValueLayout

noncomputable section

namespace Cert.KernelIdeal.KVal

open Cert.KernelIdeal Cert.KernelIdeal.Gen Idealize.ShloMosaic Idealize.ShloMosaic.ValueIdx

variable {α : Type}

/-- A `[a, b]` array turned into columns `[a, b, 1]` reads, at `(r, n, 0)`, the array at `(r, n)`. -/
theorem bcast_col_apply {a b : ℕ} (ha : a ≠ 1) (hb : b ≠ 1) (h : (⟨2, ![a, b]⟩ : Shape).BroadcastsInDim ⟨3, ![a, b, 1]⟩ ![0, 1])
    (x : (⟨2, ![a, b]⟩ : Shape).Idx → α) (r : Fin a) (n : Fin b) (u : Fin 1) :
    broadcastInDim ⟨3, ![a, b, 1]⟩ ![0, 1] h x (ix3 r n u) = x (ix2 r n) :=
  broadcastInDim_apply ![0, 1] h x (ix3 r n u) (ix2 r n) (fun ax => by
    match ax with
    | ⟨0, _⟩ => show r.val = if a = 1 then 0 else r.val; rw [if_neg ha]
    | ⟨1, _⟩ => show n.val = if b = 1 then 0 else n.val; rw [if_neg hb])

/-- A vector `[b]` laid as the one row of `[1, b]` reads, at `(0, n)`, the vector at `n`. -/
theorem bcast_row_apply {b : ℕ} (hb : b ≠ 1) (h : (⟨1, ![b]⟩ : Shape).BroadcastsInDim ⟨2, ![1, b]⟩ ![1])
    (x : (⟨1, ![b]⟩ : Shape).Idx → α) (u : Fin 1) (n : Fin b) :
    broadcastInDim ⟨2, ![1, b]⟩ ![1] h x (ix2 u n) = x (ix1 n) :=
  broadcastInDim_apply ![1] h x (ix2 u n) (ix1 n) (fun ax => by
    match ax with
    | ⟨0, _⟩ => show n.val = if b = 1 then 0 else n.val; rw [if_neg hb])

/-- A matrix `[a, b]` laid as the one layer of `[1, a, b]` reads, at `(0, n, j)`, the matrix at `(n, j)`. -/
theorem bcast_layer_apply {a b : ℕ} (ha : a ≠ 1) (hb : b ≠ 1) (h : (⟨2, ![a, b]⟩ : Shape).BroadcastsInDim ⟨3, ![1, a, b]⟩ ![1, 2])
    (x : (⟨2, ![a, b]⟩ : Shape).Idx → α) (u : Fin 1) (n : Fin a) (j : Fin b) :
    broadcastInDim ⟨3, ![1, a, b]⟩ ![1, 2] h x (ix3 u n j) = x (ix2 n j) :=
  broadcastInDim_apply ![1, 2] h x (ix3 u n j) (ix2 n j) (fun ax => by
    match ax with
    | ⟨0, _⟩ => show n.val = if a = 1 then 0 else n.val; rw [if_neg ha]
    | ⟨1, _⟩ => show j.val = if b = 1 then 0 else j.val; rw [if_neg hb])

/-- A stack of three one-row arrays `[1, b]` along a new leading axis reads, in row `0`, piece `0`. -/
theorem concat3_r2_apply0 {b : ℕ} (x0 x1 x2 : (⟨2, ![1, b]⟩ : Shape).Idx → α)
    (h : Shape.Concatenates ([(⟨⟨2, ![1, b]⟩, x0⟩ : (s : Shape) × (s.Idx → α)), ⟨⟨2, ![1, b]⟩, x1⟩, ⟨⟨2, ![1, b]⟩, x2⟩].map (·.1)) ⟨2, ![3, b]⟩ 0)
    (n : Fin b) :
    concatenate ⟨2, ![3, b]⟩ 0 [⟨⟨2, ![1, b]⟩, x0⟩, ⟨⟨2, ![1, b]⟩, x1⟩, ⟨⟨2, ![1, b]⟩, x2⟩] h (ix2 (⟨0, by omega⟩ : Fin 3) n) = x0 (ix2 (0 : Fin 1) n) :=
  concatenate_apply_piece (t := ⟨2, ![3, b]⟩) (0 : Fin 2) [⟨⟨2, ![1, b]⟩, x0⟩, ⟨⟨2, ![1, b]⟩, x1⟩, ⟨⟨2, ![1, b]⟩, x2⟩] h
    (ix2 (⟨0, by omega⟩ : Fin 3) n) 0 (show 0 < 3 by omega) ⟨2, ![1, b]⟩ x0 rfl rfl 0 rfl (ix2 (0 : Fin 1) n)
    (fun c hc => by
      match c with
      | ⟨0, _⟩ => exact absurd rfl hc
      | ⟨1, _⟩ => rfl)
    rfl

/-- A stack of three one-row arrays `[1, b]` along a new leading axis reads, in row `1`, piece `1`. -/
theorem concat3_r2_apply1 {b : ℕ} (x0 x1 x2 : (⟨2, ![1, b]⟩ : Shape).Idx → α)
    (h : Shape.Concatenates ([(⟨⟨2, ![1, b]⟩, x0⟩ : (s : Shape) × (s.Idx → α)), ⟨⟨2, ![1, b]⟩, x1⟩, ⟨⟨2, ![1, b]⟩, x2⟩].map (·.1)) ⟨2, ![3, b]⟩ 0)
    (n : Fin b) :
    concatenate ⟨2, ![3, b]⟩ 0 [⟨⟨2, ![1, b]⟩, x0⟩, ⟨⟨2, ![1, b]⟩, x1⟩, ⟨⟨2, ![1, b]⟩, x2⟩] h (ix2 (⟨1, by omega⟩ : Fin 3) n) = x1 (ix2 (0 : Fin 1) n) :=
  concatenate_apply_piece (t := ⟨2, ![3, b]⟩) (0 : Fin 2) [⟨⟨2, ![1, b]⟩, x0⟩, ⟨⟨2, ![1, b]⟩, x1⟩, ⟨⟨2, ![1, b]⟩, x2⟩] h
    (ix2 (⟨1, by omega⟩ : Fin 3) n) 1 (show 1 < 3 by omega) ⟨2, ![1, b]⟩ x1 rfl rfl 1 rfl (ix2 (0 : Fin 1) n)
    (fun c hc => by
      match c with
      | ⟨0, _⟩ => exact absurd rfl hc
      | ⟨1, _⟩ => rfl)
    rfl

/-- A stack of three one-row arrays `[1, b]` along a new leading axis reads, in row `2`, piece `2`. -/
theorem concat3_r2_apply2 {b : ℕ} (x0 x1 x2 : (⟨2, ![1, b]⟩ : Shape).Idx → α)
    (h : Shape.Concatenates ([(⟨⟨2, ![1, b]⟩, x0⟩ : (s : Shape) × (s.Idx → α)), ⟨⟨2, ![1, b]⟩, x1⟩, ⟨⟨2, ![1, b]⟩, x2⟩].map (·.1)) ⟨2, ![3, b]⟩ 0)
    (n : Fin b) :
    concatenate ⟨2, ![3, b]⟩ 0 [⟨⟨2, ![1, b]⟩, x0⟩, ⟨⟨2, ![1, b]⟩, x1⟩, ⟨⟨2, ![1, b]⟩, x2⟩] h (ix2 (⟨2, by omega⟩ : Fin 3) n) = x2 (ix2 (0 : Fin 1) n) :=
  concatenate_apply_piece (t := ⟨2, ![3, b]⟩) (0 : Fin 2) [⟨⟨2, ![1, b]⟩, x0⟩, ⟨⟨2, ![1, b]⟩, x1⟩, ⟨⟨2, ![1, b]⟩, x2⟩] h
    (ix2 (⟨2, by omega⟩ : Fin 3) n) 2 (show 2 < 3 by omega) ⟨2, ![1, b]⟩ x2 rfl rfl 2 rfl (ix2 (0 : Fin 1) n)
    (fun c hc => by
      match c with
      | ⟨0, _⟩ => exact absurd rfl hc
      | ⟨1, _⟩ => rfl)
    rfl

/-- A stack of three one-layer arrays `[1, a, b]` along the leading axis reads, in layer `0`, piece `0`. -/
theorem concat3_r3_apply0 {a b : ℕ} (x0 x1 x2 : (⟨3, ![1, a, b]⟩ : Shape).Idx → α)
    (h : Shape.Concatenates ([(⟨⟨3, ![1, a, b]⟩, x0⟩ : (s : Shape) × (s.Idx → α)), ⟨⟨3, ![1, a, b]⟩, x1⟩, ⟨⟨3, ![1, a, b]⟩, x2⟩].map (·.1)) ⟨3, ![3, a, b]⟩ 0)
    (n : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (⟨0, by omega⟩ : Fin 3) n j) = x0 (ix3 (0 : Fin 1) n j) :=
  concatenate_apply_piece (t := ⟨3, ![3, a, b]⟩) (0 : Fin 3) [⟨⟨3, ![1, a, b]⟩, x0⟩, ⟨⟨3, ![1, a, b]⟩, x1⟩, ⟨⟨3, ![1, a, b]⟩, x2⟩] h
    (ix3 (⟨0, by omega⟩ : Fin 3) n j) 0 (show 0 < 3 by omega) ⟨3, ![1, a, b]⟩ x0 rfl rfl 0 rfl (ix3 (0 : Fin 1) n j)
    (fun c hc => by
      match c with
      | ⟨0, _⟩ => exact absurd rfl hc
      | ⟨1, _⟩ => rfl
      | ⟨2, _⟩ => rfl)
    rfl

/-- A stack of three one-layer arrays `[1, a, b]` along the leading axis reads, in layer `1`, piece `1`. -/
theorem concat3_r3_apply1 {a b : ℕ} (x0 x1 x2 : (⟨3, ![1, a, b]⟩ : Shape).Idx → α)
    (h : Shape.Concatenates ([(⟨⟨3, ![1, a, b]⟩, x0⟩ : (s : Shape) × (s.Idx → α)), ⟨⟨3, ![1, a, b]⟩, x1⟩, ⟨⟨3, ![1, a, b]⟩, x2⟩].map (·.1)) ⟨3, ![3, a, b]⟩ 0)
    (n : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (⟨1, by omega⟩ : Fin 3) n j) = x1 (ix3 (0 : Fin 1) n j) :=
  concatenate_apply_piece (t := ⟨3, ![3, a, b]⟩) (0 : Fin 3) [⟨⟨3, ![1, a, b]⟩, x0⟩, ⟨⟨3, ![1, a, b]⟩, x1⟩, ⟨⟨3, ![1, a, b]⟩, x2⟩] h
    (ix3 (⟨1, by omega⟩ : Fin 3) n j) 1 (show 1 < 3 by omega) ⟨3, ![1, a, b]⟩ x1 rfl rfl 1 rfl (ix3 (0 : Fin 1) n j)
    (fun c hc => by
      match c with
      | ⟨0, _⟩ => exact absurd rfl hc
      | ⟨1, _⟩ => rfl
      | ⟨2, _⟩ => rfl)
    rfl

/-- A stack of three one-layer arrays `[1, a, b]` along the leading axis reads, in layer `2`, piece `2`. -/
theorem concat3_r3_apply2 {a b : ℕ} (x0 x1 x2 : (⟨3, ![1, a, b]⟩ : Shape).Idx → α)
    (h : Shape.Concatenates ([(⟨⟨3, ![1, a, b]⟩, x0⟩ : (s : Shape) × (s.Idx → α)), ⟨⟨3, ![1, a, b]⟩, x1⟩, ⟨⟨3, ![1, a, b]⟩, x2⟩].map (·.1)) ⟨3, ![3, a, b]⟩ 0)
    (n : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (⟨2, by omega⟩ : Fin 3) n j) = x2 (ix3 (0 : Fin 1) n j) :=
  concatenate_apply_piece (t := ⟨3, ![3, a, b]⟩) (0 : Fin 3) [⟨⟨3, ![1, a, b]⟩, x0⟩, ⟨⟨3, ![1, a, b]⟩, x1⟩, ⟨⟨3, ![1, a, b]⟩, x2⟩] h
    (ix3 (⟨2, by omega⟩ : Fin 3) n j) 2 (show 2 < 3 by omega) ⟨3, ![1, a, b]⟩ x2 rfl rfl 2 rfl (ix3 (0 : Fin 1) n j)
    (fun c hc => by
      match c with
      | ⟨0, _⟩ => exact absurd rfl hc
      | ⟨1, _⟩ => rfl
      | ⟨2, _⟩ => rfl)
    rfl

/-- The degree scalings of the three rows of `v`, stacked as a column array `[3, 100000, 1]`. -/
def stackScale (v : (⟨S3x1600000, .i32⟩ : BufTy).Contents (Elt Ideal)) : (⟨S3x100000x1, .f32⟩ : BufTy).Contents (Elt Ideal) :=
  broadcastInDim S3x100000x1 ![0, 1] bcast_S3x100000_S3x100000x1_0_1
    (concatenate S3x100000 0
      [⟨S1x100000, broadcastInDim S1x100000 ![1] bcast_S100000_S1x100000_1 (degScale (pick v 0))⟩,
       ⟨S1x100000, broadcastInDim S1x100000 ![1] bcast_S100000_S1x100000_1 (degScale (pick v 1))⟩,
       ⟨S1x100000, broadcastInDim S1x100000 ![1] bcast_S100000_S1x100000_1 (degScale (pick v 2))⟩]
      concatenates_S1x100000_S1x100000_S1x100000_S3x100000_d0)

/-- The stack at `(r, n, 0)` is the degree scaling of row `r` at node `n`. -/
theorem stackScale_apply (v : (⟨S3x1600000, .i32⟩ : BufTy).Contents (Elt Ideal)) (r : Fin 3) (n : Fin 100000) (u : Fin 1) :
    stackScale v (ix3 r n u) = degScale (pick v r) (ix1 n) := by
  unfold stackScale
  refine (bcast_col_apply (by omega) (by omega) bcast_S3x100000_S3x100000x1_0_1 _ r n u).trans ?_
  match r with
  | ⟨0, _⟩ =>
    refine (concat3_r2_apply0 _ _ _ _ n).trans ?_
    exact bcast_row_apply (by omega) bcast_S100000_S1x100000_1 _ (0 : Fin 1) n
  | ⟨1, _⟩ =>
    refine (concat3_r2_apply1 _ _ _ _ n).trans ?_
    exact bcast_row_apply (by omega) bcast_S100000_S1x100000_1 _ (0 : Fin 1) n
  | ⟨2, _⟩ =>
    refine (concat3_r2_apply2 _ _ _ _ n).trans ?_
    exact bcast_row_apply (by omega) bcast_S100000_S1x100000_1 _ (0 : Fin 1) n

/-- Row `r` of a stack of three `100000 × 128` arrays, as a matrix: the slice at `r` with its unit axis dropped. -/
def layer128 (A : (⟨S3x100000x128, .f32⟩ : BufTy).Contents (Elt Ideal)) (r : Fin 3) : (⟨S100000x128, .f32⟩ : BufTy).Contents (Elt Ideal) :=
  match r with
  | ⟨0, _⟩ => shapeCast S100000x128 (extractStridedSlice S1x100000x128 ![0, 0, 0] A slices_S3x100000x128_S1x100000x128_0_0_0) shapeCasts_S1x100000x128_S100000x128
  | ⟨1, _⟩ => shapeCast S100000x128 (extractStridedSlice S1x100000x128 ![1, 0, 0] A slices_S3x100000x128_S1x100000x128_1_0_0) shapeCasts_S1x100000x128_S100000x128
  | ⟨2, _⟩ => shapeCast S100000x128 (extractStridedSlice S1x100000x128 ![2, 0, 0] A slices_S3x100000x128_S1x100000x128_2_0_0) shapeCasts_S1x100000x128_S100000x128

/-- Row `r` of the stack, entry by entry. -/
theorem layer128_eq (A : (⟨S3x100000x128, .f32⟩ : BufTy).Contents (Elt Ideal)) (r : Fin 3) :
    layer128 A r = fun i => A (ix3 r (i 0) (i 1)) := by
  funext i
  obtain ⟨n, j, rfl⟩ : ∃ (n : Fin 100000) (j : Fin 128), i = ix2 n j := ⟨i 0, i 1, eq_ix2 i⟩
  match r with
  | ⟨0, _⟩ =>
    show shapeCast S100000x128 (extractStridedSlice S1x100000x128 ![0, 0, 0] A slices_S3x100000x128_S1x100000x128_0_0_0) shapeCasts_S1x100000x128_S100000x128 (ix2 n j) = _
    refine (shapeCast_1ab_ab_apply _ _ n j).trans ?_
    exact extractStridedSlice_apply ![0, 0, 0] A slices_S3x100000x128_S1x100000x128_0_0_0 (ix3 (0 : Fin 1) n j) (ix3 (⟨0, by omega⟩ : Fin 3) n j) (fun a => match a with
      | ⟨0, _⟩ => by show 0 = 0 + 0; omega
      | ⟨1, _⟩ => by show n.val = 0 + n.val; omega
      | ⟨2, _⟩ => by show j.val = 0 + j.val; omega)
  | ⟨1, _⟩ =>
    show shapeCast S100000x128 (extractStridedSlice S1x100000x128 ![1, 0, 0] A slices_S3x100000x128_S1x100000x128_1_0_0) shapeCasts_S1x100000x128_S100000x128 (ix2 n j) = _
    refine (shapeCast_1ab_ab_apply _ _ n j).trans ?_
    exact extractStridedSlice_apply ![1, 0, 0] A slices_S3x100000x128_S1x100000x128_1_0_0 (ix3 (0 : Fin 1) n j) (ix3 (⟨1, by omega⟩ : Fin 3) n j) (fun a => match a with
      | ⟨0, _⟩ => by show 1 = 1 + 0; omega
      | ⟨1, _⟩ => by show n.val = 0 + n.val; omega
      | ⟨2, _⟩ => by show j.val = 0 + j.val; omega)
  | ⟨2, _⟩ =>
    show shapeCast S100000x128 (extractStridedSlice S1x100000x128 ![2, 0, 0] A slices_S3x100000x128_S1x100000x128_2_0_0) shapeCasts_S1x100000x128_S100000x128 (ix2 n j) = _
    refine (shapeCast_1ab_ab_apply _ _ n j).trans ?_
    exact extractStridedSlice_apply ![2, 0, 0] A slices_S3x100000x128_S1x100000x128_2_0_0 (ix3 (0 : Fin 1) n j) (ix3 (⟨2, by omega⟩ : Fin 3) n j) (fun a => match a with
      | ⟨0, _⟩ => by show 2 = 2 + 0; omega
      | ⟨1, _⟩ => by show n.val = 0 + n.val; omega
      | ⟨2, _⟩ => by show j.val = 0 + j.val; omega)

/-- The three relations' neighbourhood sums of the rows of a stack, stacked again. -/
def stackNbr128 (s d : (⟨S3x1600000, .i32⟩ : BufTy).Contents (Elt Ideal)) (A : (⟨S3x100000x128, .f32⟩ : BufTy).Contents (Elt Ideal)) :
    (⟨S3x100000x128, .f32⟩ : BufTy).Contents (Elt Ideal) :=
  concatenate S3x100000x128 0
    [⟨S1x100000x128, broadcastInDim S1x100000x128 ![1, 2] bcast_S100000x128_S1x100000x128_1_2 (nbr128 (pick s 0) (pick d 0) (layer128 A 0))⟩,
     ⟨S1x100000x128, broadcastInDim S1x100000x128 ![1, 2] bcast_S100000x128_S1x100000x128_1_2 (nbr128 (pick s 1) (pick d 1) (layer128 A 1))⟩,
     ⟨S1x100000x128, broadcastInDim S1x100000x128 ![1, 2] bcast_S100000x128_S1x100000x128_1_2 (nbr128 (pick s 2) (pick d 2) (layer128 A 2))⟩]
    concatenates_S1x100000x128_S1x100000x128_S1x100000x128_S3x100000x128_d0

/-- The stack at `(r, n, j)` is relation `r`'s neighbourhood sum at `(n, j)`. -/
theorem stackNbr128_apply (s d : (⟨S3x1600000, .i32⟩ : BufTy).Contents (Elt Ideal)) (A : (⟨S3x100000x128, .f32⟩ : BufTy).Contents (Elt Ideal))
    (r : Fin 3) (n : Fin 100000) (j : Fin 128) :
    stackNbr128 s d A (ix3 r n j) = nbr128 (pick s r) (pick d r) (layer128 A r) (ix2 n j) := by
  unfold stackNbr128
  match r with
  | ⟨0, _⟩ =>
    refine (concat3_r3_apply0 _ _ _ _ n j).trans ?_
    exact bcast_layer_apply (by omega) (by omega) bcast_S100000x128_S1x100000x128_1_2 _ (0 : Fin 1) n j
  | ⟨1, _⟩ =>
    refine (concat3_r3_apply1 _ _ _ _ n j).trans ?_
    exact bcast_layer_apply (by omega) (by omega) bcast_S100000x128_S1x100000x128_1_2 _ (0 : Fin 1) n j
  | ⟨2, _⟩ =>
    refine (concat3_r3_apply2 _ _ _ _ n j).trans ?_
    exact bcast_layer_apply (by omega) (by omega) bcast_S100000x128_S1x100000x128_1_2 _ (0 : Fin 1) n j

/-- Row `r` of a stack of three `100000 × 64` arrays, as a matrix: the slice at `r` with its unit axis dropped. -/
def layer64 (A : (⟨S3x100000x64, .f32⟩ : BufTy).Contents (Elt Ideal)) (r : Fin 3) : (⟨S100000x64, .f32⟩ : BufTy).Contents (Elt Ideal) :=
  match r with
  | ⟨0, _⟩ => shapeCast S100000x64 (extractStridedSlice S1x100000x64 ![0, 0, 0] A slices_S3x100000x64_S1x100000x64_0_0_0) shapeCasts_S1x100000x64_S100000x64
  | ⟨1, _⟩ => shapeCast S100000x64 (extractStridedSlice S1x100000x64 ![1, 0, 0] A slices_S3x100000x64_S1x100000x64_1_0_0) shapeCasts_S1x100000x64_S100000x64
  | ⟨2, _⟩ => shapeCast S100000x64 (extractStridedSlice S1x100000x64 ![2, 0, 0] A slices_S3x100000x64_S1x100000x64_2_0_0) shapeCasts_S1x100000x64_S100000x64

/-- Row `r` of the stack, entry by entry. -/
theorem layer64_eq (A : (⟨S3x100000x64, .f32⟩ : BufTy).Contents (Elt Ideal)) (r : Fin 3) :
    layer64 A r = fun i => A (ix3 r (i 0) (i 1)) := by
  funext i
  obtain ⟨n, j, rfl⟩ : ∃ (n : Fin 100000) (j : Fin 64), i = ix2 n j := ⟨i 0, i 1, eq_ix2 i⟩
  match r with
  | ⟨0, _⟩ =>
    show shapeCast S100000x64 (extractStridedSlice S1x100000x64 ![0, 0, 0] A slices_S3x100000x64_S1x100000x64_0_0_0) shapeCasts_S1x100000x64_S100000x64 (ix2 n j) = _
    refine (shapeCast_1ab_ab_apply _ _ n j).trans ?_
    exact extractStridedSlice_apply ![0, 0, 0] A slices_S3x100000x64_S1x100000x64_0_0_0 (ix3 (0 : Fin 1) n j) (ix3 (⟨0, by omega⟩ : Fin 3) n j) (fun a => match a with
      | ⟨0, _⟩ => by show 0 = 0 + 0; omega
      | ⟨1, _⟩ => by show n.val = 0 + n.val; omega
      | ⟨2, _⟩ => by show j.val = 0 + j.val; omega)
  | ⟨1, _⟩ =>
    show shapeCast S100000x64 (extractStridedSlice S1x100000x64 ![1, 0, 0] A slices_S3x100000x64_S1x100000x64_1_0_0) shapeCasts_S1x100000x64_S100000x64 (ix2 n j) = _
    refine (shapeCast_1ab_ab_apply _ _ n j).trans ?_
    exact extractStridedSlice_apply ![1, 0, 0] A slices_S3x100000x64_S1x100000x64_1_0_0 (ix3 (0 : Fin 1) n j) (ix3 (⟨1, by omega⟩ : Fin 3) n j) (fun a => match a with
      | ⟨0, _⟩ => by show 1 = 1 + 0; omega
      | ⟨1, _⟩ => by show n.val = 0 + n.val; omega
      | ⟨2, _⟩ => by show j.val = 0 + j.val; omega)
  | ⟨2, _⟩ =>
    show shapeCast S100000x64 (extractStridedSlice S1x100000x64 ![2, 0, 0] A slices_S3x100000x64_S1x100000x64_2_0_0) shapeCasts_S1x100000x64_S100000x64 (ix2 n j) = _
    refine (shapeCast_1ab_ab_apply _ _ n j).trans ?_
    exact extractStridedSlice_apply ![2, 0, 0] A slices_S3x100000x64_S1x100000x64_2_0_0 (ix3 (0 : Fin 1) n j) (ix3 (⟨2, by omega⟩ : Fin 3) n j) (fun a => match a with
      | ⟨0, _⟩ => by show 2 = 2 + 0; omega
      | ⟨1, _⟩ => by show n.val = 0 + n.val; omega
      | ⟨2, _⟩ => by show j.val = 0 + j.val; omega)

/-- The three relations' neighbourhood sums of the rows of a stack, stacked again. -/
def stackNbr64 (s d : (⟨S3x1600000, .i32⟩ : BufTy).Contents (Elt Ideal)) (A : (⟨S3x100000x64, .f32⟩ : BufTy).Contents (Elt Ideal)) :
    (⟨S3x100000x64, .f32⟩ : BufTy).Contents (Elt Ideal) :=
  concatenate S3x100000x64 0
    [⟨S1x100000x64, broadcastInDim S1x100000x64 ![1, 2] bcast_S100000x64_S1x100000x64_1_2 (nbr64 (pick s 0) (pick d 0) (layer64 A 0))⟩,
     ⟨S1x100000x64, broadcastInDim S1x100000x64 ![1, 2] bcast_S100000x64_S1x100000x64_1_2 (nbr64 (pick s 1) (pick d 1) (layer64 A 1))⟩,
     ⟨S1x100000x64, broadcastInDim S1x100000x64 ![1, 2] bcast_S100000x64_S1x100000x64_1_2 (nbr64 (pick s 2) (pick d 2) (layer64 A 2))⟩]
    concatenates_S1x100000x64_S1x100000x64_S1x100000x64_S3x100000x64_d0

/-- The stack at `(r, n, j)` is relation `r`'s neighbourhood sum at `(n, j)`. -/
theorem stackNbr64_apply (s d : (⟨S3x1600000, .i32⟩ : BufTy).Contents (Elt Ideal)) (A : (⟨S3x100000x64, .f32⟩ : BufTy).Contents (Elt Ideal))
    (r : Fin 3) (n : Fin 100000) (j : Fin 64) :
    stackNbr64 s d A (ix3 r n j) = nbr64 (pick s r) (pick d r) (layer64 A r) (ix2 n j) := by
  unfold stackNbr64
  match r with
  | ⟨0, _⟩ =>
    refine (concat3_r3_apply0 _ _ _ _ n j).trans ?_
    exact bcast_layer_apply (by omega) (by omega) bcast_S100000x64_S1x100000x64_1_2 _ (0 : Fin 1) n j
  | ⟨1, _⟩ =>
    refine (concat3_r3_apply1 _ _ _ _ n j).trans ?_
    exact bcast_layer_apply (by omega) (by omega) bcast_S100000x64_S1x100000x64_1_2 _ (0 : Fin 1) n j
  | ⟨2, _⟩ =>
    refine (concat3_r3_apply2 _ _ _ _ n j).trans ?_
    exact bcast_layer_apply (by omega) (by omega) bcast_S100000x64_S1x100000x64_1_2 _ (0 : Fin 1) n j

end Cert.KernelIdeal.KVal

end
-- ==== Proof.KValHost0.lean ====
/-
  The first stretch of host operations read at the four buffers later steps use, from any contents `X` of the buffers it
  starts from: the three relations' source rows and target rows of the edge array, and the two stacked degree scalings
  (of the source rows: the outgoing degrees; of the target rows: the incoming degrees).
-/
import proofs.«116805_j7318624272994_1_alg».proof.Proof.Gen.KernelIdeal.Launch
import proofs.«116805_j7318624272994_1_alg».proof.Proof.KValHostTac
import proofs.«116805_j7318624272994_1_alg».proof.Proof.KValHostStk

set_option maxRecDepth 16384

noncomputable section

namespace Cert.KernelIdeal.KVal

open Cert.KernelIdeal Cert.KernelIdeal.Gen Idealize.ShloMosaic Idealize.ShloMosaic.StableHlo

variable (X : Valuation τ sig (Elt Ideal))

set_option maxHeartbeats 4000000 in
/-- The source rows. -/
theorem host0_rows0 :
    StableHlo.after (hostOps0 (F := Ideal)) X (Proc.devRef .tc main_v1) = rows0 (X (Proc.devRef .tc main_arg1)) := by
  host_read
  rfl

set_option maxHeartbeats 4000000 in
/-- The target rows. -/
theorem host0_rows1 :
    StableHlo.after (hostOps0 (F := Ideal)) X (Proc.devRef .tc main_v3) = rows1 (X (Proc.devRef .tc main_arg1)) := by
  host_read
  rfl

set_option maxHeartbeats 4000000 in
/-- The outgoing-degree scalings, stacked. -/
theorem host0_scaleOut :
    StableHlo.after (hostOps0 (F := Ideal)) X (Proc.devRef .tc main_v38) = stackScale (rows0 (X (Proc.devRef .tc main_arg1))) := by
  host_read
  unfold stackScale
  refine congrArg (broadcastInDim (s := S3x100000) S3x100000x1 ![0, 1] bcast_S3x100000_S3x100000x1_0_1) (concat3_congr _ _ _ ?_ ?_ ?_)
  · refine (cons3_0 _ _ _).trans ?_
    host_read
    rfl
  · refine (cons3_1 _ _ _).trans ?_
    host_read
    rfl
  · refine (cons3_2 _ _ _).trans ?_
    host_read
    rfl

set_option maxHeartbeats 4000000 in
/-- The incoming-degree scalings, stacked. -/
theorem host0_scaleIn :
    StableHlo.after (hostOps0 (F := Ideal)) X (Proc.devRef .tc main_v73) = stackScale (rows1 (X (Proc.devRef .tc main_arg1))) := by
  host_read
  unfold stackScale
  refine congrArg (broadcastInDim (s := S3x100000) S3x100000x1 ![0, 1] bcast_S3x100000_S3x100000x1_0_1) (concat3_congr _ _ _ ?_ ?_ ?_)
  · refine (cons3_0 _ _ _).trans ?_
    host_read
    rfl
  · refine (cons3_1 _ _ _).trans ?_
    host_read
    rfl
  · refine (cons3_2 _ _ _).trans ?_
    host_read
    rfl

end Cert.KernelIdeal.KVal

end
-- ==== Proof.KValHost1.lean ====
/-
  The second stretch of host operations read at the buffer the first combine region takes its aggregates from, from any
  contents `X` of the buffers the stretch starts from: the three relations' neighbourhood sums of the three layers of the
  first matmul region's output, along the source and target rows the first stretch left, stacked.
-/
import proofs.«116805_j7318624272994_1_alg».proof.Proof.Gen.KernelIdeal.Launch
import proofs.«116805_j7318624272994_1_alg».proof.Proof.KValHostTac
import proofs.«116805_j7318624272994_1_alg».proof.Proof.KValHostStk

set_option maxRecDepth 16384

noncomputable section

namespace Cert.KernelIdeal.KVal

open Cert.KernelIdeal Cert.KernelIdeal.Gen Idealize.ShloMosaic Idealize.ShloMosaic.StableHlo

variable (X : Valuation τ sig (Elt Ideal))

set_option maxHeartbeats 4000000 in
/-- The aggregates of the first layer, stacked. -/
theorem host1_agg :
    StableHlo.after (hostOps1 (F := Ideal)) X (Proc.devRef .tc main_v126)
      = stackNbr128 (X (Proc.devRef .tc main_v1)) (X (Proc.devRef .tc main_v3)) (X (Proc.devRef .tc main_v74)) := by
  host_read
  unfold stackNbr128
  refine concat3_congr _ _ _ ?_ ?_ ?_
  · refine (cons3_0 _ _ _).trans ?_
    host_read
    rfl
  · refine (cons3_1 _ _ _).trans ?_
    host_read
    rfl
  · refine (cons3_2 _ _ _).trans ?_
    host_read
    rfl

end Cert.KernelIdeal.KVal

end
-- ==== Proof.KValHost2.lean ====
/-
  The third stretch of host operations — the first stretch's computation again, into fresh buffers — read at the four
  buffers later steps use, from any contents `X` of the buffers it starts from: the source rows and the target rows of the
  edge array, and the two stacked degree scalings.
-/
import proofs.«116805_j7318624272994_1_alg».proof.Proof.Gen.KernelIdeal.Launch
import proofs.«116805_j7318624272994_1_alg».proof.Proof.KValHostTac
import proofs.«116805_j7318624272994_1_alg».proof.Proof.KValHostStk

set_option maxRecDepth 16384

noncomputable section

namespace Cert.KernelIdeal.KVal

open Cert.KernelIdeal Cert.KernelIdeal.Gen Idealize.ShloMosaic Idealize.ShloMosaic.StableHlo

variable (X : Valuation τ sig (Elt Ideal))

set_option maxHeartbeats 4000000 in
/-- The source rows. -/
theorem host2_rows0 :
    StableHlo.after (hostOps2 (F := Ideal)) X (Proc.devRef .tc main_v129) = rows0 (X (Proc.devRef .tc main_arg1)) := by
  host_read
  rfl

set_option maxHeartbeats 4000000 in
/-- The target rows. -/
theorem host2_rows1 :
    StableHlo.after (hostOps2 (F := Ideal)) X (Proc.devRef .tc main_v131) = rows1 (X (Proc.devRef .tc main_arg1)) := by
  host_read
  rfl

set_option maxHeartbeats 4000000 in
/-- The outgoing-degree scalings, stacked. -/
theorem host2_scaleOut :
    StableHlo.after (hostOps2 (F := Ideal)) X (Proc.devRef .tc main_v166) = stackScale (rows0 (X (Proc.devRef .tc main_arg1))) := by
  host_read
  unfold stackScale
  refine congrArg (broadcastInDim (s := S3x100000) S3x100000x1 ![0, 1] bcast_S3x100000_S3x100000x1_0_1) (concat3_congr _ _ _ ?_ ?_ ?_)
  · refine (cons3_0 _ _ _).trans ?_
    host_read
    rfl
  · refine (cons3_1 _ _ _).trans ?_
    host_read
    rfl
  · refine (cons3_2 _ _ _).trans ?_
    host_read
    rfl

set_option maxHeartbeats 4000000 in
/-- The incoming-degree scalings, stacked. -/
theorem host2_scaleIn :
    StableHlo.after (hostOps2 (F := Ideal)) X (Proc.devRef .tc main_v201) = stackScale (rows1 (X (Proc.devRef .tc main_arg1))) := by
  host_read
  unfold stackScale
  refine congrArg (broadcastInDim (s := S3x100000) S3x100000x1 ![0, 1] bcast_S3x100000_S3x100000x1_0_1) (concat3_congr _ _ _ ?_ ?_ ?_)
  · refine (cons3_0 _ _ _).trans ?_
    host_read
    rfl
  · refine (cons3_1 _ _ _).trans ?_
    host_read
    rfl
  · refine (cons3_2 _ _ _).trans ?_
    host_read
    rfl

end Cert.KernelIdeal.KVal

end
-- ==== Proof.KValHost3.lean ====
/-
  The fourth stretch of host operations read at the buffer the second combine region takes its aggregates from, from any
  contents `X` of the buffers the stretch starts from: the three relations' neighbourhood sums of the three layers of the
  second matmul region's output, along the source and target rows the third stretch left, stacked.
-/
import proofs.«116805_j7318624272994_1_alg».proof.Proof.Gen.KernelIdeal.Launch
import proofs.«116805_j7318624272994_1_alg».proof.Proof.KValHostTac
import proofs.«116805_j7318624272994_1_alg».proof.Proof.KValHostStk

set_option maxRecDepth 16384

noncomputable section

namespace Cert.KernelIdeal.KVal

open Cert.KernelIdeal Cert.KernelIdeal.Gen Idealize.ShloMosaic Idealize.ShloMosaic.StableHlo

variable (X : Valuation τ sig (Elt Ideal))

set_option maxHeartbeats 4000000 in
/-- The aggregates of the second layer, stacked. -/
theorem host3_agg :
    StableHlo.after (hostOps3 (F := Ideal)) X (Proc.devRef .tc main_v254)
      = stackNbr64 (X (Proc.devRef .tc main_v129)) (X (Proc.devRef .tc main_v131)) (X (Proc.devRef .tc main_v202)) := by
  host_read
  unfold stackNbr64
  refine concat3_congr _ _ _ ?_ ?_ ?_
  · refine (cons3_0 _ _ _).trans ?_
    host_read
    rfl
  · refine (cons3_1 _ _ _).trans ?_
    host_read
    rfl
  · refine (cons3_2 _ _ _).trans ?_
    host_read
    rfl

end Cert.KernelIdeal.KVal

end
-- ==== Proof.KValMain.lean ====
/-
  The program's result array is the specification's function of the argument arrays. The buffer contents are followed through
  @main: the first stretch leaves the source and target rows and the two stacked degree scalings; the first matmul region
  leaves each relation's messages; the second stretch their neighbourhood sums; the first combine region the hidden layer;
  the third stretch the rows and the scalings again; the second matmul region the second layer's messages; the fourth
  stretch their neighbourhood sums; the second combine region the output. At every step the operands are shown equal, entry
  by entry, to the specification's terms, and a degree scaling or a neighbourhood sum is only ever applied to them.
-/
import proofs.«116805_j7318624272994_1_alg».proof.Proof.KiFrFold
import proofs.«116805_j7318624272994_1_alg».proof.Proof.KValReg0
import proofs.«116805_j7318624272994_1_alg».proof.Proof.KValReg1
import proofs.«116805_j7318624272994_1_alg».proof.Proof.KValReg2
import proofs.«116805_j7318624272994_1_alg».proof.Proof.KValReg3
import proofs.«116805_j7318624272994_1_alg».proof.Proof.KValHost0
import proofs.«116805_j7318624272994_1_alg».proof.Proof.KValHost1
import proofs.«116805_j7318624272994_1_alg».proof.Proof.KValHost2
import proofs.«116805_j7318624272994_1_alg».proof.Proof.KValHost3

noncomputable section

namespace Cert.KernelIdeal.KVal

open Idealize.ShloMosaic Idealize.ShloMosaic.TcCoe Idealize.ShloMosaic.ValueIdx Cert.KernelIdeal Cert.KernelIdeal.Fr
open Cert.GraphConv (msg comb hidden out)

/-- Messages of equal operands are equal. -/
theorem msg_congr {din dout : Nat} {s s' : Fin 100000 → EReal} {x x' : Fin 100000 → Fin din → EReal}
    {w w' : Fin din → Fin dout → EReal} (hs : s = s') (hx : x = x') (hw : w = w') : msg s x w = msg s' x' w' := by
  subst hs hx hw; rfl
/-- Combinations of equal operands are equal. -/
theorem comb_congr {d : Nat} {a a' : Fin 3 → Fin 100000 → Fin d → EReal} {s s' : Fin 3 → Fin 100000 → EReal}
    {b b' : Fin 3 → Fin d → EReal} (ha : a = a') (hs : s = s') (hb : b = b') : comb a s b = comb a' s' b' := by
  subst ha hs hb; rfl

variable (m : (ℓ : Loc nD τ sig) → Buf (Elt Ideal) ℓ) (ρ : Dev nD → PrngReg) (c : Dev nD)

/-- The edge array. -/
abbrev edges : (⟨S3x2x1600000, .i32⟩ : BufTy).Contents (Elt Ideal) := m ((c.tc : Thread nD τ).loc main_arg1)
/-- The node features, the two layers' weights and biases, entry by entry. -/
abbrev feat : Fin 100000 → Fin 128 → EReal := fun n k => m ((c.tc : Thread nD τ).loc main_arg0) (ix2 n k)
abbrev wt1 : Fin 3 → Fin 128 → Fin 128 → EReal := fun r k j => m ((c.tc : Thread nD τ).loc main_arg2) (ix3 r k j)
abbrev bs1 : Fin 3 → Fin 128 → EReal := fun r j => m ((c.tc : Thread nD τ).loc main_arg3) (ix2 r j)
abbrev wt2 : Fin 3 → Fin 128 → Fin 64 → EReal := fun r k j => m ((c.tc : Thread nD τ).loc main_arg4) (ix3 r k j)
abbrev bs2 : Fin 3 → Fin 64 → EReal := fun r j => m ((c.tc : Thread nD τ).loc main_arg5) (ix2 r j)

/-! ## After the first stretch -/

theorem W1_rows0 : W1 m ρ c (Proc.devRef .tc main_v1) = rows0 (edges m c) :=
  (host0_rows0 (W0 m ρ c)).trans (congrArg rows0 (W0_arg1 m ρ c))
theorem W1_rows1 : W1 m ρ c (Proc.devRef .tc main_v3) = rows1 (edges m c) :=
  (host0_rows1 (W0 m ρ c)).trans (congrArg rows1 (W0_arg1 m ρ c))
theorem W1_so (r : Fin 3) (n : Fin 100000) : W1 m ρ c (Proc.devRef .tc main_v38) (ix3 r n 0) = (env (edges m c)).so r n :=
  (congrFun ((host0_scaleOut (W0 m ρ c)).trans (congrArg (fun v => stackScale (rows0 v)) (W0_arg1 m ρ c))) (ix3 r n 0)).trans
    (stackScale_apply (rows0 (edges m c)) r n 0)
theorem W1_si (r : Fin 3) (n : Fin 100000) : W1 m ρ c (Proc.devRef .tc main_v73) (ix3 r n 0) = (env (edges m c)).si r n :=
  (congrFun ((host0_scaleIn (W0 m ρ c)).trans (congrArg (fun v => stackScale (rows1 v)) (W0_arg1 m ρ c))) (ix3 r n 0)).trans
    (stackScale_apply (rows1 (edges m c)) r n 0)

/-! ## After the first matmul region -/

theorem W2_msg (r : Fin 3) (n : Fin 100000) (j : Fin 128) :
    W2 m ρ c (Proc.devRef .tc main_v74) (ix3 r n j) = msg ((env (edges m c)).so r) (feat m c) (wt1 m c r) n j := by
  refine (congrFun (W2_arr m ρ c 3) (ix3 r n j)).trans ((region0_value (V1 m ρ) c r n j).trans ?_)
  exact congrFun (congrFun (msg_congr (funext fun n => W1_so m ρ c r n)
    (funext fun n => funext fun k => congrFun (W1_arg0 m ρ c) (ix2 n k))
    (funext fun k => funext fun j => congrFun (W1_arg2 m ρ c) (ix3 r k j))) n) j
theorem W2_rows0 : W2 m ρ c (Proc.devRef .tc main_v1) = rows0 (edges m c) :=
  (W2_of_ne m ρ c main_v1 (by decide)).trans (W1_rows0 m ρ c)
theorem W2_rows1 : W2 m ρ c (Proc.devRef .tc main_v3) = rows1 (edges m c) :=
  (W2_of_ne m ρ c main_v3 (by decide)).trans (W1_rows1 m ρ c)

/-! ## After the second stretch -/

theorem W3_agg (r : Fin 3) (n : Fin 100000) (j : Fin 128) :
    W3 m ρ c (Proc.devRef .tc main_v126) (ix3 r n j)
      = (env (edges m c)).agg1 r (msg ((env (edges m c)).so r) (feat m c) (wt1 m c r)) n j := by
  refine (congrFun (host1_agg (W2 m ρ c)) (ix3 r n j)).trans ((stackNbr128_apply _ _ _ r n j).trans ?_)
  have hM : layer128 (W2 m ρ c (Proc.devRef .tc main_v74)) r
      = fun i => msg ((env (edges m c)).so r) (feat m c) (wt1 m c r) (i 0) (i 1) :=
    (layer128_eq _ r).trans (funext fun i => W2_msg m ρ c r (i 0) (i 1))
  rw [W2_rows0 m ρ c, W2_rows1 m ρ c, hM]
  rfl
theorem W3_si (r : Fin 3) (n : Fin 100000) : W3 m ρ c (Proc.devRef .tc main_v73) (ix3 r n 0) = (env (edges m c)).si r n :=
  (congrFun ((W3_of m ρ c main_v73 (by decide)).trans (W2_of_ne m ρ c main_v73 (by decide))) (ix3 r n 0)).trans (W1_si m ρ c r n)

/-! ## After the first combine region: the hidden layer -/

theorem W4_hidden (n : Fin 100000) (k : Fin 128) :
    W4 m ρ c (Proc.devRef .tc main_v127) (ix2 n k) = hidden (env (edges m c)) (feat m c) (wt1 m c) (bs1 m c) n k := by
  refine (congrFun (W4_arr m ρ c 3) (ix2 n k)).trans ((region1_value (V3 m ρ) c n k).trans ?_)
  exact congrArg (fun t => max t Cert.GraphConv.z) (congrFun (congrFun (comb_congr
    (funext fun r => funext fun n => funext fun j => W3_agg m ρ c r n j)
    (funext fun r => funext fun n => W3_si m ρ c r n)
    (funext fun r => funext fun j => congrFun (W3_arg3 m ρ c) (ix2 r j))) n) k)

/-! ## After the third stretch -/

theorem W5_rows0 : W5 m ρ c (Proc.devRef .tc main_v129) = rows0 (edges m c) :=
  (host2_rows0 (W4 m ρ c)).trans (congrArg rows0 (W4_arg1 m ρ c))
theorem W5_rows1 : W5 m ρ c (Proc.devRef .tc main_v131) = rows1 (edges m c) :=
  (host2_rows1 (W4 m ρ c)).trans (congrArg rows1 (W4_arg1 m ρ c))
theorem W5_so (r : Fin 3) (n : Fin 100000) : W5 m ρ c (Proc.devRef .tc main_v166) (ix3 r n 0) = (env (edges m c)).so r n :=
  (congrFun ((host2_scaleOut (W4 m ρ c)).trans (congrArg (fun v => stackScale (rows0 v)) (W4_arg1 m ρ c))) (ix3 r n 0)).trans
    (stackScale_apply (rows0 (edges m c)) r n 0)
theorem W5_si (r : Fin 3) (n : Fin 100000) : W5 m ρ c (Proc.devRef .tc main_v201) (ix3 r n 0) = (env (edges m c)).si r n :=
  (congrFun ((host2_scaleIn (W4 m ρ c)).trans (congrArg (fun v => stackScale (rows1 v)) (W4_arg1 m ρ c))) (ix3 r n 0)).trans
    (stackScale_apply (rows1 (edges m c)) r n 0)
theorem W5_hidden (n : Fin 100000) (k : Fin 128) :
    W5 m ρ c (Proc.devRef .tc main_v127) (ix2 n k) = hidden (env (edges m c)) (feat m c) (wt1 m c) (bs1 m c) n k :=
  (congrFun (W5_of m ρ c main_v127 (by decide)) (ix2 n k)).trans (W4_hidden m ρ c n k)

/-! ## After the second matmul region -/

theorem W6_msg (r : Fin 3) (n : Fin 100000) (j : Fin 64) :
    W6 m ρ c (Proc.devRef .tc main_v202) (ix3 r n j)
      = msg ((env (edges m c)).so r) (hidden (env (edges m c)) (feat m c) (wt1 m c) (bs1 m c)) (wt2 m c r) n j := by
  refine (congrFun (W6_arr m ρ c 3) (ix3 r n j)).trans ((region2_value (V5 m ρ) c r n j).trans ?_)
  exact congrFun (congrFun (msg_congr (funext fun n => W5_so m ρ c r n)
    (funext fun n => funext fun k => W5_hidden m ρ c n k)
    (funext fun k => funext fun j => congrFun (W5_arg4 m ρ c) (ix3 r k j))) n) j
theorem W6_rows0 : W6 m ρ c (Proc.devRef .tc main_v129) = rows0 (edges m c) :=
  (W6_of_ne m ρ c main_v129 (by decide)).trans (W5_rows0 m ρ c)
theorem W6_rows1 : W6 m ρ c (Proc.devRef .tc main_v131) = rows1 (edges m c) :=
  (W6_of_ne m ρ c main_v131 (by decide)).trans (W5_rows1 m ρ c)

/-! ## After the fourth stretch -/

theorem W7_agg (r : Fin 3) (n : Fin 100000) (j : Fin 64) :
    W7 m ρ c (Proc.devRef .tc main_v254) (ix3 r n j)
      = (env (edges m c)).agg2 r (msg ((env (edges m c)).so r) (hidden (env (edges m c)) (feat m c) (wt1 m c) (bs1 m c)) (wt2 m c r)) n j := by
  refine (congrFun (host3_agg (W6 m ρ c)) (ix3 r n j)).trans ((stackNbr64_apply _ _ _ r n j).trans ?_)
  have hM : layer64 (W6 m ρ c (Proc.devRef .tc main_v202)) r
      = fun i => msg ((env (edges m c)).so r) (hidden (env (edges m c)) (feat m c) (wt1 m c) (bs1 m c)) (wt2 m c r) (i 0) (i 1) :=
    (layer64_eq _ r).trans (funext fun i => W6_msg m ρ c r (i 0) (i 1))
  rw [W6_rows0 m ρ c, W6_rows1 m ρ c, hM]
  rfl
theorem W7_si (r : Fin 3) (n : Fin 100000) : W7 m ρ c (Proc.devRef .tc main_v201) (ix3 r n 0) = (env (edges m c)).si r n :=
  (congrFun ((W7_of m ρ c main_v201 (by decide)).trans (W6_of_ne m ρ c main_v201 (by decide))) (ix3 r n 0)).trans (W5_si m ρ c r n)

/-! ## After the second combine region: the result -/

/-- The result array, entry by entry, is the specification's output of the argument arrays. -/
theorem kernel_value (n : Fin 100000) (j : Fin 64) :
    Fr.W8 (F := Ideal) m ρ c (Proc.devRef .tc main_v255) (ix2 n j)
      = Cert.GraphConv.out (env (m ((c.tc : Thread nD τ).loc main_arg1)))
          (fun n k => m ((c.tc : Thread nD τ).loc main_arg0) (ix2 n k)) (fun r k j => m ((c.tc : Thread nD τ).loc main_arg2) (ix3 r k j)) (fun r j => m ((c.tc : Thread nD τ).loc main_arg3) (ix2 r j))
          (fun r k j => m ((c.tc : Thread nD τ).loc main_arg4) (ix3 r k j)) (fun r j => m ((c.tc : Thread nD τ).loc main_arg5) (ix2 r j)) n j := by
  refine (congrFun (W8_arr m ρ c 3) (ix2 n j)).trans ((region3_value (V7 m ρ) c n j).trans ?_)
  exact congrFun (congrFun (comb_congr
    (funext fun r => funext fun n => funext fun j => W7_agg m ρ c r n j)
    (funext fun r => funext fun n => W7_si m ρ c r n)
    (funext fun r => funext fun j => congrFun (W7_arg5 m ρ c) (ix2 r j))) n) j

end Cert.KernelIdeal.KVal

end
-- ==== Proof.RVal.lean ====
/-
  The reference program's side of the edge-only data.

  From the edge array (3 relations, 2 rows each, 1600000 edges) the program cuts, per relation, the row of source nodes
  and the row of target nodes; from a row of nodes it computes the degree scaling (count the edges at each node by a
  scatter-add of ones into zeros, clamp below at one, raise to the power -1/2); and it sums a feature array over a
  relation's edges by gathering the rows at the (wrapped) source nodes and scatter-adding them into zeros at the target
  nodes. These are written here once, with the program's own operations and records, and collected as the four
  families the specification takes as its parameter. Nothing in this file looks inside a scatter-add, a gather or the
  power.
-/
import proofs.«116805_j7318624272994_1_alg».proof.Proof.Gen.ReferenceIdeal
import proofs.«116805_j7318624272994_1_alg».proof.Proof.Spec
import Idealize.ShloMosaic.Lib.ValueIdx

noncomputable section

namespace Cert.ReferenceIdeal.RVal

open Cert.ReferenceIdeal Cert.ReferenceIdeal.Gen Idealize.ShloMosaic Idealize.ShloMosaic.TcCoe Idealize.SL.Sem Idealize.ShloMosaic.StableHlo ValueIdx

/-- Relation `r`'s source nodes: row `(r, 0)` of the edge array as a vector of 1600000 node numbers. -/
def src (e : (⟨S3x2x1600000, .i32⟩ : BufTy).Contents (Elt Ideal)) (r : Fin 3) : (⟨S1600000, .i32⟩ : BufTy).Contents (Elt Ideal) :=
  match r with
  | ⟨0, _⟩ => shapeCast _ (extractStridedSlice S1x1x1600000 ![0, 0, 0] e slices_S3x2x1600000_S1x1x1600000_0_0_0) shapeCasts_S1x1x1600000_S1600000
  | ⟨1, _⟩ => shapeCast _ (extractStridedSlice S1x1x1600000 ![1, 0, 0] e slices_S3x2x1600000_S1x1x1600000_1_0_0) shapeCasts_S1x1x1600000_S1600000
  | ⟨2, _⟩ => shapeCast _ (extractStridedSlice S1x1x1600000 ![2, 0, 0] e slices_S3x2x1600000_S1x1x1600000_2_0_0) shapeCasts_S1x1x1600000_S1600000

/-- Relation `r`'s target nodes: row `(r, 1)` of the edge array. -/
def dst (e : (⟨S3x2x1600000, .i32⟩ : BufTy).Contents (Elt Ideal)) (r : Fin 3) : (⟨S1600000, .i32⟩ : BufTy).Contents (Elt Ideal) :=
  match r with
  | ⟨0, _⟩ => shapeCast _ (extractStridedSlice S1x1x1600000 ![0, 1, 0] e slices_S3x2x1600000_S1x1x1600000_0_1_0) shapeCasts_S1x1x1600000_S1600000
  | ⟨1, _⟩ => shapeCast _ (extractStridedSlice S1x1x1600000 ![1, 1, 0] e slices_S3x2x1600000_S1x1x1600000_1_1_0) shapeCasts_S1x1x1600000_S1600000
  | ⟨2, _⟩ => shapeCast _ (extractStridedSlice S1x1x1600000 ![2, 1, 0] e slices_S3x2x1600000_S1x1x1600000_2_1_0) shapeCasts_S1x1x1600000_S1600000

/-- The degree scaling of a row of node numbers: per node, (max (number of edges at the node) 1) ^ (-1/2). -/
def degScale (ix : (⟨S1600000, .i32⟩ : BufTy).Contents (Elt Ideal)) : (⟨S100000, .f32⟩ : BufTy).Contents (Elt Ideal) :=
  Host.powf (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 ix) (broadcastInDim S1600000 ![] bcast_S_S1600000 (constant (F := Ideal) S_ .f32 0x3F800000#32))) (broadcastInDim S100000 ![] bcast_S_S100000 (constant (F := Ideal) S_ .f32 0x3F800000#32))) (broadcastInDim S100000 ![] bcast_S_S100000 (constant (F := Ideal) S_ .f32 0xBF000000#32))

/-- A row of node numbers as gather indices: a negative number wraps around by 100000, and the row becomes a column. -/
def normIdx (s : (⟨S1600000, .i32⟩ : BufTy).Contents (Elt Ideal)) : (⟨S1600000x1, .i32⟩ : BufTy).Contents (Elt Ideal) :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- The neighbourhood sum at 128 columns: the rows of `M` at the source nodes, added into zeros at the target nodes. -/
def nbr128 (s d : (⟨S1600000, .i32⟩ : BufTy).Contents (Elt Ideal)) (M : (⟨S100000x128, .f32⟩ : BufTy).Contents (Elt Ideal)) : (⟨S100000x128, .f32⟩ : BufTy).Contents (Elt Ideal) :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 d) (Host.gather gather_S100000x128_S1600000x1_S1600000x128_1_0_n_n_0_1_1128 M (normIdx s))

/-- The neighbourhood sum at 64 columns. -/
def nbr64 (s d : (⟨S1600000, .i32⟩ : BufTy).Contents (Elt Ideal)) (M : (⟨S100000x64, .f32⟩ : BufTy).Contents (Elt Ideal)) : (⟨S100000x64, .f32⟩ : BufTy).Contents (Elt Ideal) :=
  Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 d) (Host.gather gather_S100000x64_S1600000x1_S1600000x64_1_0_n_n_0_1_164 M (normIdx s))

/-- Everything the program computes from the edge array alone, as the specification's parameter. -/
def env (e : (⟨S3x2x1600000, .i32⟩ : BufTy).Contents (Elt Ideal)) : Cert.GraphConv.Env where
  so r n := degScale (src e r) (ix1 n)
  si r n := degScale (dst e r) (ix1 n)
  agg1 r M n j := nbr128 (src e r) (dst e r) (fun i => M (i 0) (i 1)) (ix2 n j)
  agg2 r M n j := nbr64 (src e r) (dst e r) (fun i => M (i 0) (i 1)) (ix2 n j)

end Cert.ReferenceIdeal.RVal

end
-- ==== Proof.RValEdge.lean ====
/-
  The program's edge-only stages are the named ones.

  The program recomputes, for each of its two layers and three relations, the relation's source and target rows, the two
  degree scalings and the neighbourhood sum. Each of these thirty stages is, operation for operation, one of
  the functions `src`, `dst`, `degScale`, `nbr128`, `nbr64` applied to the stage it reads: the equations below hold by
  unfolding names only.
-/
import proofs.«116805_j7318624272994_1_alg».proof.Proof.RefReadP
import proofs.«116805_j7318624272994_1_alg».proof.Proof.RVal

noncomputable section

namespace Cert.ReferenceIdeal.RVal

open Cert.ReferenceIdeal Cert.ReferenceIdeal.Gen Cert.ReferenceIdeal.Read Idealize.ShloMosaic Idealize.ShloMosaic.TcCoe Idealize.SL.Sem Idealize.ShloMosaic.StableHlo ValueIdx

variable (x0 : (⟨S100000x128, .f32⟩ : BufTy).Contents (Elt Ideal)) (x1 : (⟨S3x2x1600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x64, .f32⟩ : BufTy).Contents (Elt Ideal)) (x5 : (⟨S3x64, .f32⟩ : BufTy).Contents (Elt Ideal))

/-! Layer 1, relation 0. -/
theorem src_1_0 : val_main_v3 (F := Ideal) x1 = src x1 0 := rfl
theorem dst_1_0 : val_main_v5 (F := Ideal) x1 = dst x1 0 := rfl
theorem so_1_0 : val_main_v17 (F := Ideal) x1 = degScale (src x1 0) := rfl
theorem si_1_0 : val_main_v35 (F := Ideal) x1 = degScale (dst x1 0) := rfl
theorem aggb_1_0 : val_main_v33 (F := Ideal) x0 x1 x2 = nbr128 (src x1 0) (dst x1 0) (val_main_v23 (F := Ideal) x0 x1 x2) := rfl

/-! Layer 1, relation 1. -/
theorem src_1_1 : val_main_v46 (F := Ideal) x1 = src x1 1 := rfl
theorem dst_1_1 : val_main_v48 (F := Ideal) x1 = dst x1 1 := rfl
theorem so_1_1 : val_main_v60 (F := Ideal) x1 = degScale (src x1 1) := rfl
theorem si_1_1 : val_main_v78 (F := Ideal) x1 = degScale (dst x1 1) := rfl
theorem aggb_1_1 : val_main_v76 (F := Ideal) x0 x1 x2 = nbr128 (src x1 1) (dst x1 1) (val_main_v66 (F := Ideal) x0 x1 x2) := rfl

/-! Layer 1, relation 2. -/
theorem src_1_2 : val_main_v89 (F := Ideal) x1 = src x1 2 := rfl
theorem dst_1_2 : val_main_v91 (F := Ideal) x1 = dst x1 2 := rfl
theorem so_1_2 : val_main_v103 (F := Ideal) x1 = degScale (src x1 2) := rfl
theorem si_1_2 : val_main_v121 (F := Ideal) x1 = degScale (dst x1 2) := rfl
theorem aggb_1_2 : val_main_v119 (F := Ideal) x0 x1 x2 = nbr128 (src x1 2) (dst x1 2) (val_main_v109 (F := Ideal) x0 x1 x2) := rfl

/-! Layer 2, relation 0. -/
theorem src_2_0 : val_main_v135 (F := Ideal) x1 = src x1 0 := rfl
theorem dst_2_0 : val_main_v137 (F := Ideal) x1 = dst x1 0 := rfl
theorem so_2_0 : val_main_v149 (F := Ideal) x1 = degScale (src x1 0) := rfl
theorem si_2_0 : val_main_v167 (F := Ideal) x1 = degScale (dst x1 0) := rfl
theorem aggb_2_0 : val_main_v165 (F := Ideal) x0 x1 x2 x3 x4 = nbr64 (src x1 0) (dst x1 0) (val_main_v155 (F := Ideal) x0 x1 x2 x3 x4) := rfl

/-! Layer 2, relation 1. -/
theorem src_2_1 : val_main_v178 (F := Ideal) x1 = src x1 1 := rfl
theorem dst_2_1 : val_main_v180 (F := Ideal) x1 = dst x1 1 := rfl
theorem so_2_1 : val_main_v192 (F := Ideal) x1 = degScale (src x1 1) := rfl
theorem si_2_1 : val_main_v210 (F := Ideal) x1 = degScale (dst x1 1) := rfl
theorem aggb_2_1 : val_main_v208 (F := Ideal) x0 x1 x2 x3 x4 = nbr64 (src x1 1) (dst x1 1) (val_main_v198 (F := Ideal) x0 x1 x2 x3 x4) := rfl

/-! Layer 2, relation 2. -/
theorem src_2_2 : val_main_v221 (F := Ideal) x1 = src x1 2 := rfl
theorem dst_2_2 : val_main_v223 (F := Ideal) x1 = dst x1 2 := rfl
theorem so_2_2 : val_main_v235 (F := Ideal) x1 = degScale (src x1 2) := rfl
theorem si_2_2 : val_main_v253 (F := Ideal) x1 = degScale (dst x1 2) := rfl
theorem aggb_2_2 : val_main_v251 (F := Ideal) x0 x1 x2 x3 x4 = nbr64 (src x1 2) (dst x1 2) (val_main_v241 (F := Ideal) x0 x1 x2 x3 x4) := rfl

end Cert.ReferenceIdeal.RVal

end
-- ==== Proof.RValL1.lean ====
/-
  The reference's first layer is the specification's hidden layer.

  Entry `(n, j)` of each stage of the first layer is read off the program's operations: the scaled rows times the weight
  matrix are the relation's messages; the scatter-add of the gathered messages is the relation's neighbourhood sum of the
  message array (the two operations are applied to an array shown equal entry by entry, and are not opened); the running sum
  adds that sum, scaled, and the bias row, relation after relation from the zero word, in the specification's association;
  and the clamp at the zero word gives the hidden layer.
-/
import proofs.«116805_j7318624272994_1_alg».proof.Proof.RValEdge

noncomputable section

namespace Cert.ReferenceIdeal.RVal

open Cert.ReferenceIdeal Cert.ReferenceIdeal.Gen Cert.ReferenceIdeal.Read Idealize.ShloMosaic Idealize.ShloMosaic.TcCoe Idealize.SL.Sem Idealize.ShloMosaic.StableHlo ValueIdx

variable (x0 : (⟨S100000x128, .f32⟩ : BufTy).Contents (Elt Ideal)) (x1 : (⟨S3x2x1600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x64, .f32⟩ : BufTy).Contents (Elt Ideal)) (x5 : (⟨S3x64, .f32⟩ : BufTy).Contents (Elt Ideal))

/-- The argument arrays as the specification's curried families. -/
abbrev X0 : Fin 100000 → Fin 128 → EReal := fun n k => x0 (ix2 n k)
abbrev W1 : Fin 3 → Fin 128 → Fin 128 → EReal := fun r k j => x2 (ix3 r k j)
abbrev B1 : Fin 3 → Fin 128 → EReal := fun r j => x3 (ix2 r j)
abbrev W2 : Fin 3 → Fin 128 → Fin 64 → EReal := fun r k j => x4 (ix3 r k j)
abbrev B2 : Fin 3 → Fin 64 → EReal := fun r j => x5 (ix2 r j)

/-! ## Layer 1, relation 0 -/

/-- The relation's messages: the matrix product of the scaled rows with the relation's weight matrix, entry `(n, j)`. -/
theorem msg_1_0 (n : Fin 100000) (j : Fin 128) :
    val_main_v23 (F := Ideal) x0 x1 x2 (ix2 n j) = Cert.GraphConv.msg ((env x1).so 0) (X0 x0) (W1 x2 0) n j := by
  rw [val_main_v23_apply]
  simp only [Cert.GraphConv.msg]
  refine Finset.sum_congr rfl fun k _ => ?_
  have h1 : lidx_main_v23 (ix2 n j) k = ix2 n k := funext fun a => Fin.ext (by
    match a with
    | ⟨0, _⟩ => rfl
    | ⟨1, _⟩ => rfl)
  have h2 : idx_main_v18 (idx_main_v19 (ix2 n k)) = ix1 n := funext fun a => Fin.ext (by
    match a with
    | ⟨0, _⟩ => rfl)
  have h3 : idx_main_v21 (idx_main_v22 (ridx_main_v23 (ix2 n j) k)) = ix3 0 k j := funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
  rw [val_main_v20_apply, val_main_v19_apply, val_main_v18_apply, val_main_v22_apply, val_main_v21_apply, so_1_0, h1, h2, h3]
  rfl

/-- The relation's neighbourhood sum of its messages. -/
theorem agg_1_0 (n : Fin 100000) (j : Fin 128) :
    val_main_v33 (F := Ideal) x0 x1 x2 (ix2 n j) = (env x1).agg1 0 (Cert.GraphConv.msg ((env x1).so 0) (X0 x0) (W1 x2 0)) n j := by
  have h : val_main_v23 (F := Ideal) x0 x1 x2 = fun i => Cert.GraphConv.msg ((env x1).so 0) (X0 x0) (W1 x2 0) (i 0) (i 1) := by
    funext i
    obtain ⟨a, b, rfl⟩ : ∃ (a : Fin 100000) (b : Fin 128), i = ix2 a b := ⟨i 0, i 1, eq_ix2 i⟩
    exact msg_1_0 x0 x1 x2 a b
  rw [aggb_1_0, h]
  rfl

/-- The running sum after the relation: what came before, plus the neighbourhood sum scaled by the incoming-degree scaling,
    plus the relation's bias row. -/
theorem step_1_0 (n : Fin 100000) (j : Fin 128) :
    val_main_v44 (F := Ideal) x0 x1 x2 x3 (ix2 n j) = ((Cert.GraphConv.z : EReal) + (val_main_v33 (F := Ideal) x0 x1 x2 (ix2 n j) : EReal) * (env x1).si 0 n) + B1 x3 0 j := by
  have hA : idx_main_v36 (idx_main_v37 (ix2 n j)) = ix1 n := funext fun a => Fin.ext (by
    match a with
    | ⟨0, _⟩ => rfl)
  have hB : idx_main_v40 (idx_main_v41 (idx_main_v42 (idx_main_v43 (ix2 n j)))) = ix2 0 j := funext fun a => Fin.ext (by
    have hj := j.isLt
    match a with
    | ⟨0, _⟩ => rfl
    | ⟨1, _⟩ => show j.val % 128 = j.val; omega)
  rw [val_main_v44_apply, val_main_v39_apply, val_main_v38_apply, val_main_v37_apply, val_main_v36_apply, val_main_v43_apply, val_main_v42_apply, val_main_v41_apply, val_main_v40_apply, si_1_0, hA, hB, val_main_v1_apply, val_main_cst_0_apply]
  rfl

/-! ## Layer 1, relation 1 -/

/-- The relation's messages: the matrix product of the scaled rows with the relation's weight matrix, entry `(n, j)`. -/
theorem msg_1_1 (n : Fin 100000) (j : Fin 128) :
    val_main_v66 (F := Ideal) x0 x1 x2 (ix2 n j) = Cert.GraphConv.msg ((env x1).so 1) (X0 x0) (W1 x2 1) n j := by
  rw [val_main_v66_apply]
  simp only [Cert.GraphConv.msg]
  refine Finset.sum_congr rfl fun k _ => ?_
  have h1 : lidx_main_v66 (ix2 n j) k = ix2 n k := funext fun a => Fin.ext (by
    match a with
    | ⟨0, _⟩ => rfl
    | ⟨1, _⟩ => rfl)
  have h2 : idx_main_v61 (idx_main_v62 (ix2 n k)) = ix1 n := funext fun a => Fin.ext (by
    match a with
    | ⟨0, _⟩ => rfl)
  have h3 : idx_main_v64 (idx_main_v65 (ridx_main_v66 (ix2 n j) k)) = ix3 1 k j := funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
  rw [val_main_v63_apply, val_main_v62_apply, val_main_v61_apply, val_main_v65_apply, val_main_v64_apply, so_1_1, h1, h2, h3]
  rfl

/-- The relation's neighbourhood sum of its messages. -/
theorem agg_1_1 (n : Fin 100000) (j : Fin 128) :
    val_main_v76 (F := Ideal) x0 x1 x2 (ix2 n j) = (env x1).agg1 1 (Cert.GraphConv.msg ((env x1).so 1) (X0 x0) (W1 x2 1)) n j := by
  have h : val_main_v66 (F := Ideal) x0 x1 x2 = fun i => Cert.GraphConv.msg ((env x1).so 1) (X0 x0) (W1 x2 1) (i 0) (i 1) := by
    funext i
    obtain ⟨a, b, rfl⟩ : ∃ (a : Fin 100000) (b : Fin 128), i = ix2 a b := ⟨i 0, i 1, eq_ix2 i⟩
    exact msg_1_1 x0 x1 x2 a b
  rw [aggb_1_1, h]
  rfl

/-- The running sum after the relation: what came before, plus the neighbourhood sum scaled by the incoming-degree scaling,
    plus the relation's bias row. -/
theorem step_1_1 (n : Fin 100000) (j : Fin 128) :
    val_main_v87 (F := Ideal) x0 x1 x2 x3 (ix2 n j) = ((val_main_v44 (F := Ideal) x0 x1 x2 x3 (ix2 n j) : EReal) + (val_main_v76 (F := Ideal) x0 x1 x2 (ix2 n j) : EReal) * (env x1).si 1 n) + B1 x3 1 j := by
  have hA : idx_main_v79 (idx_main_v80 (ix2 n j)) = ix1 n := funext fun a => Fin.ext (by
    match a with
    | ⟨0, _⟩ => rfl)
  have hB : idx_main_v83 (idx_main_v84 (idx_main_v85 (idx_main_v86 (ix2 n j)))) = ix2 1 j := funext fun a => Fin.ext (by
    have hj := j.isLt
    match a with
    | ⟨0, _⟩ => rfl
    | ⟨1, _⟩ => show j.val % 128 = j.val; omega)
  rw [val_main_v87_apply, val_main_v82_apply, val_main_v81_apply, val_main_v80_apply, val_main_v79_apply, val_main_v86_apply, val_main_v85_apply, val_main_v84_apply, val_main_v83_apply, si_1_1, hA, hB]
  rfl

/-! ## Layer 1, relation 2 -/

/-- The relation's messages: the matrix product of the scaled rows with the relation's weight matrix, entry `(n, j)`. -/
theorem msg_1_2 (n : Fin 100000) (j : Fin 128) :
    val_main_v109 (F := Ideal) x0 x1 x2 (ix2 n j) = Cert.GraphConv.msg ((env x1).so 2) (X0 x0) (W1 x2 2) n j := by
  rw [val_main_v109_apply]
  simp only [Cert.GraphConv.msg]
  refine Finset.sum_congr rfl fun k _ => ?_
  have h1 : lidx_main_v109 (ix2 n j) k = ix2 n k := funext fun a => Fin.ext (by
    match a with
    | ⟨0, _⟩ => rfl
    | ⟨1, _⟩ => rfl)
  have h2 : idx_main_v104 (idx_main_v105 (ix2 n k)) = ix1 n := funext fun a => Fin.ext (by
    match a with
    | ⟨0, _⟩ => rfl)
  have h3 : idx_main_v107 (idx_main_v108 (ridx_main_v109 (ix2 n j) k)) = ix3 2 k j := funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
  rw [val_main_v106_apply, val_main_v105_apply, val_main_v104_apply, val_main_v108_apply, val_main_v107_apply, so_1_2, h1, h2, h3]
  rfl

/-- The relation's neighbourhood sum of its messages. -/
theorem agg_1_2 (n : Fin 100000) (j : Fin 128) :
    val_main_v119 (F := Ideal) x0 x1 x2 (ix2 n j) = (env x1).agg1 2 (Cert.GraphConv.msg ((env x1).so 2) (X0 x0) (W1 x2 2)) n j := by
  have h : val_main_v109 (F := Ideal) x0 x1 x2 = fun i => Cert.GraphConv.msg ((env x1).so 2) (X0 x0) (W1 x2 2) (i 0) (i 1) := by
    funext i
    obtain ⟨a, b, rfl⟩ : ∃ (a : Fin 100000) (b : Fin 128), i = ix2 a b := ⟨i 0, i 1, eq_ix2 i⟩
    exact msg_1_2 x0 x1 x2 a b
  rw [aggb_1_2, h]
  rfl

/-- The running sum after the relation: what came before, plus the neighbourhood sum scaled by the incoming-degree scaling,
    plus the relation's bias row. -/
theorem step_1_2 (n : Fin 100000) (j : Fin 128) :
    val_main_v130 (F := Ideal) x0 x1 x2 x3 (ix2 n j) = ((val_main_v87 (F := Ideal) x0 x1 x2 x3 (ix2 n j) : EReal) + (val_main_v119 (F := Ideal) x0 x1 x2 (ix2 n j) : EReal) * (env x1).si 2 n) + B1 x3 2 j := by
  have hA : idx_main_v122 (idx_main_v123 (ix2 n j)) = ix1 n := funext fun a => Fin.ext (by
    match a with
    | ⟨0, _⟩ => rfl)
  have hB : idx_main_v126 (idx_main_v127 (idx_main_v128 (idx_main_v129 (ix2 n j)))) = ix2 2 j := funext fun a => Fin.ext (by
    have hj := j.isLt
    match a with
    | ⟨0, _⟩ => rfl
    | ⟨1, _⟩ => show j.val % 128 = j.val; omega)
  rw [val_main_v130_apply, val_main_v125_apply, val_main_v124_apply, val_main_v123_apply, val_main_v122_apply, val_main_v129_apply, val_main_v128_apply, val_main_v127_apply, val_main_v126_apply, si_1_2, hA, hB]
  rfl

/-! ## The three relations combined, and the clamp -/

theorem comb_1 (n : Fin 100000) (j : Fin 128) :
    val_main_v130 (F := Ideal) x0 x1 x2 x3 (ix2 n j)
      = Cert.GraphConv.comb (fun r => (env x1).agg1 r (Cert.GraphConv.msg ((env x1).so r) (X0 x0) (W1 x2 r))) (env x1).si (B1 x3) n j := by
  rw [step_1_2, step_1_1, step_1_0, agg_1_0, agg_1_1, agg_1_2]
  rfl

/-- The program's hidden array (after its `relu`) is the specification's hidden layer. -/
theorem hidden_eq (n : Fin 100000) (j : Fin 128) :
    val_main_v131 (F := Ideal) x0 x1 x2 x3 (ix2 n j) = Cert.GraphConv.hidden (env x1) (X0 x0) (W1 x2) (B1 x3) n j := by
  rw [val_main_v131_apply, val_main_call0_v0_apply, val_main_call0_cst_apply, comb_1]
  rfl

end Cert.ReferenceIdeal.RVal

end
-- ==== Proof.RValL2.lean ====
/-
  The reference's second layer, over the hidden layer, is the specification's output.

  The same reading as for the first layer, at 64 columns and with the hidden array (already shown to be the
  specification's hidden layer, entry by entry) in place of the input features; there is no clamp after it.
-/
import proofs.«116805_j7318624272994_1_alg».proof.Proof.RValL1

noncomputable section

namespace Cert.ReferenceIdeal.RVal

open Cert.ReferenceIdeal Cert.ReferenceIdeal.Gen Cert.ReferenceIdeal.Read Idealize.ShloMosaic Idealize.ShloMosaic.TcCoe Idealize.SL.Sem Idealize.ShloMosaic.StableHlo ValueIdx

variable (x0 : (⟨S100000x128, .f32⟩ : BufTy).Contents (Elt Ideal)) (x1 : (⟨S3x2x1600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x64, .f32⟩ : BufTy).Contents (Elt Ideal)) (x5 : (⟨S3x64, .f32⟩ : BufTy).Contents (Elt Ideal))

/-- The specification's hidden layer of the argument arrays. -/
abbrev Hid : Fin 100000 → Fin 128 → EReal := Cert.GraphConv.hidden (env x1) (X0 x0) (W1 x2) (B1 x3)

/-! ## Layer 2, relation 0 -/

/-- The relation's messages: the matrix product of the scaled rows with the relation's weight matrix, entry `(n, j)`. -/
theorem msg_2_0 (n : Fin 100000) (j : Fin 64) :
    val_main_v155 (F := Ideal) x0 x1 x2 x3 x4 (ix2 n j) = Cert.GraphConv.msg ((env x1).so 0) (Hid x0 x1 x2 x3) (W2 x4 0) n j := by
  rw [val_main_v155_apply]
  simp only [Cert.GraphConv.msg]
  refine Finset.sum_congr rfl fun k _ => ?_
  have h1 : lidx_main_v155 (ix2 n j) k = ix2 n k := funext fun a => Fin.ext (by
    match a with
    | ⟨0, _⟩ => rfl
    | ⟨1, _⟩ => rfl)
  have h2 : idx_main_v150 (idx_main_v151 (ix2 n k)) = ix1 n := funext fun a => Fin.ext (by
    match a with
    | ⟨0, _⟩ => rfl)
  have h3 : idx_main_v153 (idx_main_v154 (ridx_main_v155 (ix2 n j) k)) = ix3 0 k j := funext fun a => Fin.ext (by
    have hk := k.isLt; have hj := j.isLt
    match a with
    | ⟨0, _⟩ => rfl
    | ⟨1, _⟩ => show (k.val * 64 + j.val) / 64 % 128 = k.val; omega
    | ⟨2, _⟩ => show (k.val * 64 + j.val) % 64 = j.val; omega)
  rw [val_main_v152_apply, val_main_v151_apply, val_main_v150_apply, val_main_v154_apply, val_main_v153_apply, so_2_0, h1, h2, h3, hidden_eq]
  rfl

/-- The relation's neighbourhood sum of its messages. -/
theorem agg_2_0 (n : Fin 100000) (j : Fin 64) :
    val_main_v165 (F := Ideal) x0 x1 x2 x3 x4 (ix2 n j) = (env x1).agg2 0 (Cert.GraphConv.msg ((env x1).so 0) (Hid x0 x1 x2 x3) (W2 x4 0)) n j := by
  have h : val_main_v155 (F := Ideal) x0 x1 x2 x3 x4 = fun i => Cert.GraphConv.msg ((env x1).so 0) (Hid x0 x1 x2 x3) (W2 x4 0) (i 0) (i 1) := by
    funext i
    obtain ⟨a, b, rfl⟩ : ∃ (a : Fin 100000) (b : Fin 64), i = ix2 a b := ⟨i 0, i 1, eq_ix2 i⟩
    exact msg_2_0 x0 x1 x2 x3 x4 a b
  rw [aggb_2_0, h]
  rfl

/-- The running sum after the relation: what came before, plus the neighbourhood sum scaled by the incoming-degree scaling,
    plus the relation's bias row. -/
theorem step_2_0 (n : Fin 100000) (j : Fin 64) :
    val_main_v176 (F := Ideal) x0 x1 x2 x3 x4 x5 (ix2 n j) = ((Cert.GraphConv.z : EReal) + (val_main_v165 (F := Ideal) x0 x1 x2 x3 x4 (ix2 n j) : EReal) * (env x1).si 0 n) + B2 x5 0 j := by
  have hA : idx_main_v168 (idx_main_v169 (ix2 n j)) = ix1 n := funext fun a => Fin.ext (by
    match a with
    | ⟨0, _⟩ => rfl)
  have hB : idx_main_v172 (idx_main_v173 (idx_main_v174 (idx_main_v175 (ix2 n j)))) = ix2 0 j := funext fun a => Fin.ext (by
    have hj := j.isLt
    match a with
    | ⟨0, _⟩ => rfl
    | ⟨1, _⟩ => show j.val % 64 = j.val; omega)
  rw [val_main_v176_apply, val_main_v171_apply, val_main_v170_apply, val_main_v169_apply, val_main_v168_apply, val_main_v175_apply, val_main_v174_apply, val_main_v173_apply, val_main_v172_apply, si_2_0, hA, hB, val_main_v133_apply, val_main_cst_28_apply]
  rfl

/-! ## Layer 2, relation 1 -/

/-- The relation's messages: the matrix product of the scaled rows with the relation's weight matrix, entry `(n, j)`. -/
theorem msg_2_1 (n : Fin 100000) (j : Fin 64) :
    val_main_v198 (F := Ideal) x0 x1 x2 x3 x4 (ix2 n j) = Cert.GraphConv.msg ((env x1).so 1) (Hid x0 x1 x2 x3) (W2 x4 1) n j := by
  rw [val_main_v198_apply]
  simp only [Cert.GraphConv.msg]
  refine Finset.sum_congr rfl fun k _ => ?_
  have h1 : lidx_main_v198 (ix2 n j) k = ix2 n k := funext fun a => Fin.ext (by
    match a with
    | ⟨0, _⟩ => rfl
    | ⟨1, _⟩ => rfl)
  have h2 : idx_main_v193 (idx_main_v194 (ix2 n k)) = ix1 n := funext fun a => Fin.ext (by
    match a with
    | ⟨0, _⟩ => rfl)
  have h3 : idx_main_v196 (idx_main_v197 (ridx_main_v198 (ix2 n j) k)) = ix3 1 k j := funext fun a => Fin.ext (by
    have hk := k.isLt; have hj := j.isLt
    match a with
    | ⟨0, _⟩ => rfl
    | ⟨1, _⟩ => show (k.val * 64 + j.val) / 64 % 128 = k.val; omega
    | ⟨2, _⟩ => show (k.val * 64 + j.val) % 64 = j.val; omega)
  rw [val_main_v195_apply, val_main_v194_apply, val_main_v193_apply, val_main_v197_apply, val_main_v196_apply, so_2_1, h1, h2, h3, hidden_eq]
  rfl

/-- The relation's neighbourhood sum of its messages. -/
theorem agg_2_1 (n : Fin 100000) (j : Fin 64) :
    val_main_v208 (F := Ideal) x0 x1 x2 x3 x4 (ix2 n j) = (env x1).agg2 1 (Cert.GraphConv.msg ((env x1).so 1) (Hid x0 x1 x2 x3) (W2 x4 1)) n j := by
  have h : val_main_v198 (F := Ideal) x0 x1 x2 x3 x4 = fun i => Cert.GraphConv.msg ((env x1).so 1) (Hid x0 x1 x2 x3) (W2 x4 1) (i 0) (i 1) := by
    funext i
    obtain ⟨a, b, rfl⟩ : ∃ (a : Fin 100000) (b : Fin 64), i = ix2 a b := ⟨i 0, i 1, eq_ix2 i⟩
    exact msg_2_1 x0 x1 x2 x3 x4 a b
  rw [aggb_2_1, h]
  rfl

/-- The running sum after the relation: what came before, plus the neighbourhood sum scaled by the incoming-degree scaling,
    plus the relation's bias row. -/
theorem step_2_1 (n : Fin 100000) (j : Fin 64) :
    val_main_v219 (F := Ideal) x0 x1 x2 x3 x4 x5 (ix2 n j) = ((val_main_v176 (F := Ideal) x0 x1 x2 x3 x4 x5 (ix2 n j) : EReal) + (val_main_v208 (F := Ideal) x0 x1 x2 x3 x4 (ix2 n j) : EReal) * (env x1).si 1 n) + B2 x5 1 j := by
  have hA : idx_main_v211 (idx_main_v212 (ix2 n j)) = ix1 n := funext fun a => Fin.ext (by
    match a with
    | ⟨0, _⟩ => rfl)
  have hB : idx_main_v215 (idx_main_v216 (idx_main_v217 (idx_main_v218 (ix2 n j)))) = ix2 1 j := funext fun a => Fin.ext (by
    have hj := j.isLt
    match a with
    | ⟨0, _⟩ => rfl
    | ⟨1, _⟩ => show j.val % 64 = j.val; omega)
  rw [val_main_v219_apply, val_main_v214_apply, val_main_v213_apply, val_main_v212_apply, val_main_v211_apply, val_main_v218_apply, val_main_v217_apply, val_main_v216_apply, val_main_v215_apply, si_2_1, hA, hB]
  rfl

/-! ## Layer 2, relation 2 -/

/-- The relation's messages: the matrix product of the scaled rows with the relation's weight matrix, entry `(n, j)`. -/
theorem msg_2_2 (n : Fin 100000) (j : Fin 64) :
    val_main_v241 (F := Ideal) x0 x1 x2 x3 x4 (ix2 n j) = Cert.GraphConv.msg ((env x1).so 2) (Hid x0 x1 x2 x3) (W2 x4 2) n j := by
  rw [val_main_v241_apply]
  simp only [Cert.GraphConv.msg]
  refine Finset.sum_congr rfl fun k _ => ?_
  have h1 : lidx_main_v241 (ix2 n j) k = ix2 n k := funext fun a => Fin.ext (by
    match a with
    | ⟨0, _⟩ => rfl
    | ⟨1, _⟩ => rfl)
  have h2 : idx_main_v236 (idx_main_v237 (ix2 n k)) = ix1 n := funext fun a => Fin.ext (by
    match a with
    | ⟨0, _⟩ => rfl)
  have h3 : idx_main_v239 (idx_main_v240 (ridx_main_v241 (ix2 n j) k)) = ix3 2 k j := funext fun a => Fin.ext (by
    have hk := k.isLt; have hj := j.isLt
    match a with
    | ⟨0, _⟩ => rfl
    | ⟨1, _⟩ => show (k.val * 64 + j.val) / 64 % 128 = k.val; omega
    | ⟨2, _⟩ => show (k.val * 64 + j.val) % 64 = j.val; omega)
  rw [val_main_v238_apply, val_main_v237_apply, val_main_v236_apply, val_main_v240_apply, val_main_v239_apply, so_2_2, h1, h2, h3, hidden_eq]
  rfl

/-- The relation's neighbourhood sum of its messages. -/
theorem agg_2_2 (n : Fin 100000) (j : Fin 64) :
    val_main_v251 (F := Ideal) x0 x1 x2 x3 x4 (ix2 n j) = (env x1).agg2 2 (Cert.GraphConv.msg ((env x1).so 2) (Hid x0 x1 x2 x3) (W2 x4 2)) n j := by
  have h : val_main_v241 (F := Ideal) x0 x1 x2 x3 x4 = fun i => Cert.GraphConv.msg ((env x1).so 2) (Hid x0 x1 x2 x3) (W2 x4 2) (i 0) (i 1) := by
    funext i
    obtain ⟨a, b, rfl⟩ : ∃ (a : Fin 100000) (b : Fin 64), i = ix2 a b := ⟨i 0, i 1, eq_ix2 i⟩
    exact msg_2_2 x0 x1 x2 x3 x4 a b
  rw [aggb_2_2, h]
  rfl

/-- The running sum after the relation: what came before, plus the neighbourhood sum scaled by the incoming-degree scaling,
    plus the relation's bias row. -/
theorem step_2_2 (n : Fin 100000) (j : Fin 64) :
    val_main_v262 (F := Ideal) x0 x1 x2 x3 x4 x5 (ix2 n j) = ((val_main_v219 (F := Ideal) x0 x1 x2 x3 x4 x5 (ix2 n j) : EReal) + (val_main_v251 (F := Ideal) x0 x1 x2 x3 x4 (ix2 n j) : EReal) * (env x1).si 2 n) + B2 x5 2 j := by
  have hA : idx_main_v254 (idx_main_v255 (ix2 n j)) = ix1 n := funext fun a => Fin.ext (by
    match a with
    | ⟨0, _⟩ => rfl)
  have hB : idx_main_v258 (idx_main_v259 (idx_main_v260 (idx_main_v261 (ix2 n j)))) = ix2 2 j := funext fun a => Fin.ext (by
    have hj := j.isLt
    match a with
    | ⟨0, _⟩ => rfl
    | ⟨1, _⟩ => show j.val % 64 = j.val; omega)
  rw [val_main_v262_apply, val_main_v257_apply, val_main_v256_apply, val_main_v255_apply, val_main_v254_apply, val_main_v261_apply, val_main_v260_apply, val_main_v259_apply, val_main_v258_apply, si_2_2, hA, hB]
  rfl

/-! ## The three relations combined -/

/-- The program's result array is the specification's output, entry by entry. -/
theorem out_eq (n : Fin 100000) (j : Fin 64) :
    val_main_v262 (F := Ideal) x0 x1 x2 x3 x4 x5 (ix2 n j) = Cert.GraphConv.out (env x1) (X0 x0) (W1 x2) (B1 x3) (W2 x4) (B2 x5) n j := by
  rw [step_2_2, step_2_1, step_2_0, agg_2_0, agg_2_1, agg_2_2]
  rfl

end Cert.ReferenceIdeal.RVal

end
-- ==== Proof.RValMain.lean ====
/-
  The reference's result, as the run names it, is the specification's output of the argument arrays as the run found them.
-/
import proofs.«116805_j7318624272994_1_alg».proof.Proof.RValL2

noncomputable section

namespace Cert.ReferenceIdeal.RVal

open Cert.ReferenceIdeal Cert.ReferenceIdeal.Gen Idealize.ShloMosaic Idealize.ShloMosaic.TcCoe Idealize.SL.Sem Idealize.ShloMosaic.StableHlo ValueIdx

theorem ref_value (m : (ℓ : Loc Cert.ReferenceIdeal.nD Cert.ReferenceIdeal.τ Cert.ReferenceIdeal.sig) → Buf (Elt Ideal) ℓ) (c : Dev Cert.ReferenceIdeal.nD) (n : Fin 100000) (j : Fin 64) :
    Cert.ReferenceIdeal.Value.res_out0 (F := Ideal) m c (ix2 n j)
      = Cert.GraphConv.out (env (m ((c.tc : Thread nD τ).loc main_arg1)))
          (fun n k => m ((c.tc : Thread nD τ).loc main_arg0) (ix2 n k)) (fun r k j => m ((c.tc : Thread nD τ).loc main_arg2) (ix3 r k j)) (fun r j => m ((c.tc : Thread nD τ).loc main_arg3) (ix2 r j))
          (fun r k j => m ((c.tc : Thread nD τ).loc main_arg4) (ix3 r k j)) (fun r j => m ((c.tc : Thread nD τ).loc main_arg5) (ix2 r j)) n j :=
  (congrFun (Cert.ReferenceIdeal.Read.val_main_v262_eq (F := Ideal) m c) (ix2 n j)).trans
    (out_eq (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) n j)

end Cert.ReferenceIdeal.RVal

end
-- ==== Proof.Bridge.lean ====
/-
  The two programs compute the same edge-only data. The kernel program cuts a relation's row of node numbers out of the edge
  array in two steps (the three source rows, then one of them), the reference in one; either way entry `i` of relation `r`'s
  row `col` is the edge array's entry `(r, col, i)`, so the rows are equal. Everything else — the degree scaling, the wrapped
  gather indices, the neighbourhood sums — is the same host operations applied to those rows, spelt with each program's own
  copy of the same records.
-/
import proofs.«116805_j7318624272994_1_alg».proof.Proof.KValEnv
import proofs.«116805_j7318624272994_1_alg».proof.Proof.RVal

noncomputable section

namespace Cert.Bridge

open Idealize.ShloMosaic ValueIdx

section Ref
open Cert.ReferenceIdeal Cert.ReferenceIdeal.Gen Cert.ReferenceIdeal.RVal

/-- The reference's row of source nodes at an index. -/
theorem rsrc_at (e : (⟨S3x2x1600000, .i32⟩ : BufTy).Contents (Elt Ideal)) (r : Fin 3) (i : Fin 1600000) :
    Cert.ReferenceIdeal.RVal.src e r (ix1 i) = e (ix3 r 0 i) := by
  match r with
  | ⟨0, _⟩ =>
    show (shapeCast _ (extractStridedSlice S1x1x1600000 ![0, 0, 0] e slices_S3x2x1600000_S1x1x1600000_0_0_0) shapeCasts_S1x1x1600000_S1600000) (ix1 i) = _
    generalize hy : extractStridedSlice S1x1x1600000 ![0, 0, 0] e slices_S3x2x1600000_S1x1x1600000_0_0_0 = y
    refine (shapeCast_apply y shapeCasts_S1x1x1600000_S1600000 (ix1 i) (ix3 0 0 i)
      (by rewrite [Shape.rowMajor_val_three, Shape.rowMajor_val_one]; show (0 * 1 + 0) * 1600000 + i.val = i.val; omega)).trans ?_
    subst hy
    exact extractStridedSlice_apply ![0, 0, 0] e slices_S3x2x1600000_S1x1x1600000_0_0_0 (ix3 0 0 i) (ix3 ⟨0, by omega⟩ ⟨0, by omega⟩ i) (fun a => match a with
      | ⟨0, _⟩ => by show 0 = 0 + 0; omega
      | ⟨1, _⟩ => by show 0 = 0 + 0; omega
      | ⟨2, _⟩ => by show i.val = 0 + i.val; omega)
  | ⟨1, _⟩ =>
    show (shapeCast _ (extractStridedSlice S1x1x1600000 ![1, 0, 0] e slices_S3x2x1600000_S1x1x1600000_1_0_0) shapeCasts_S1x1x1600000_S1600000) (ix1 i) = _
    generalize hy : extractStridedSlice S1x1x1600000 ![1, 0, 0] e slices_S3x2x1600000_S1x1x1600000_1_0_0 = y
    refine (shapeCast_apply y shapeCasts_S1x1x1600000_S1600000 (ix1 i) (ix3 0 0 i)
      (by rewrite [Shape.rowMajor_val_three, Shape.rowMajor_val_one]; show (0 * 1 + 0) * 1600000 + i.val = i.val; omega)).trans ?_
    subst hy
    exact extractStridedSlice_apply ![1, 0, 0] e slices_S3x2x1600000_S1x1x1600000_1_0_0 (ix3 0 0 i) (ix3 ⟨1, by omega⟩ ⟨0, by omega⟩ i) (fun a => match a with
      | ⟨0, _⟩ => by show 1 = 1 + 0; omega
      | ⟨1, _⟩ => by show 0 = 0 + 0; omega
      | ⟨2, _⟩ => by show i.val = 0 + i.val; omega)
  | ⟨2, _⟩ =>
    show (shapeCast _ (extractStridedSlice S1x1x1600000 ![2, 0, 0] e slices_S3x2x1600000_S1x1x1600000_2_0_0) shapeCasts_S1x1x1600000_S1600000) (ix1 i) = _
    generalize hy : extractStridedSlice S1x1x1600000 ![2, 0, 0] e slices_S3x2x1600000_S1x1x1600000_2_0_0 = y
    refine (shapeCast_apply y shapeCasts_S1x1x1600000_S1600000 (ix1 i) (ix3 0 0 i)
      (by rewrite [Shape.rowMajor_val_three, Shape.rowMajor_val_one]; show (0 * 1 + 0) * 1600000 + i.val = i.val; omega)).trans ?_
    subst hy
    exact extractStridedSlice_apply ![2, 0, 0] e slices_S3x2x1600000_S1x1x1600000_2_0_0 (ix3 0 0 i) (ix3 ⟨2, by omega⟩ ⟨0, by omega⟩ i) (fun a => match a with
      | ⟨0, _⟩ => by show 2 = 2 + 0; omega
      | ⟨1, _⟩ => by show 0 = 0 + 0; omega
      | ⟨2, _⟩ => by show i.val = 0 + i.val; omega)

/-- The reference's row of target nodes at an index. -/
theorem rdst_at (e : (⟨S3x2x1600000, .i32⟩ : BufTy).Contents (Elt Ideal)) (r : Fin 3) (i : Fin 1600000) :
    Cert.ReferenceIdeal.RVal.dst e r (ix1 i) = e (ix3 r 1 i) := by
  match r with
  | ⟨0, _⟩ =>
    show (shapeCast _ (extractStridedSlice S1x1x1600000 ![0, 1, 0] e slices_S3x2x1600000_S1x1x1600000_0_1_0) shapeCasts_S1x1x1600000_S1600000) (ix1 i) = _
    generalize hy : extractStridedSlice S1x1x1600000 ![0, 1, 0] e slices_S3x2x1600000_S1x1x1600000_0_1_0 = y
    refine (shapeCast_apply y shapeCasts_S1x1x1600000_S1600000 (ix1 i) (ix3 0 0 i)
      (by rewrite [Shape.rowMajor_val_three, Shape.rowMajor_val_one]; show (0 * 1 + 0) * 1600000 + i.val = i.val; omega)).trans ?_
    subst hy
    exact extractStridedSlice_apply ![0, 1, 0] e slices_S3x2x1600000_S1x1x1600000_0_1_0 (ix3 0 0 i) (ix3 ⟨0, by omega⟩ ⟨1, by omega⟩ i) (fun a => match a with
      | ⟨0, _⟩ => by show 0 = 0 + 0; omega
      | ⟨1, _⟩ => by show 1 = 1 + 0; omega
      | ⟨2, _⟩ => by show i.val = 0 + i.val; omega)
  | ⟨1, _⟩ =>
    show (shapeCast _ (extractStridedSlice S1x1x1600000 ![1, 1, 0] e slices_S3x2x1600000_S1x1x1600000_1_1_0) shapeCasts_S1x1x1600000_S1600000) (ix1 i) = _
    generalize hy : extractStridedSlice S1x1x1600000 ![1, 1, 0] e slices_S3x2x1600000_S1x1x1600000_1_1_0 = y
    refine (shapeCast_apply y shapeCasts_S1x1x1600000_S1600000 (ix1 i) (ix3 0 0 i)
      (by rewrite [Shape.rowMajor_val_three, Shape.rowMajor_val_one]; show (0 * 1 + 0) * 1600000 + i.val = i.val; omega)).trans ?_
    subst hy
    exact extractStridedSlice_apply ![1, 1, 0] e slices_S3x2x1600000_S1x1x1600000_1_1_0 (ix3 0 0 i) (ix3 ⟨1, by omega⟩ ⟨1, by omega⟩ i) (fun a => match a with
      | ⟨0, _⟩ => by show 1 = 1 + 0; omega
      | ⟨1, _⟩ => by show 1 = 1 + 0; omega
      | ⟨2, _⟩ => by show i.val = 0 + i.val; omega)
  | ⟨2, _⟩ =>
    show (shapeCast _ (extractStridedSlice S1x1x1600000 ![2, 1, 0] e slices_S3x2x1600000_S1x1x1600000_2_1_0) shapeCasts_S1x1x1600000_S1600000) (ix1 i) = _
    generalize hy : extractStridedSlice S1x1x1600000 ![2, 1, 0] e slices_S3x2x1600000_S1x1x1600000_2_1_0 = y
    refine (shapeCast_apply y shapeCasts_S1x1x1600000_S1600000 (ix1 i) (ix3 0 0 i)
      (by rewrite [Shape.rowMajor_val_three, Shape.rowMajor_val_one]; show (0 * 1 + 0) * 1600000 + i.val = i.val; omega)).trans ?_
    subst hy
    exact extractStridedSlice_apply ![2, 1, 0] e slices_S3x2x1600000_S1x1x1600000_2_1_0 (ix3 0 0 i) (ix3 ⟨2, by omega⟩ ⟨1, by omega⟩ i) (fun a => match a with
      | ⟨0, _⟩ => by show 2 = 2 + 0; omega
      | ⟨1, _⟩ => by show 1 = 1 + 0; omega
      | ⟨2, _⟩ => by show i.val = 0 + i.val; omega)
end Ref

theorem src_eq (e : (⟨Cert.KernelIdeal.S3x2x1600000, .i32⟩ : BufTy).Contents (Elt Ideal)) (r : Fin 3) :
    Cert.KernelIdeal.KVal.src e r = Cert.ReferenceIdeal.RVal.src e r := by
  funext j
  rw [eq_ix1 j]
  exact (Cert.KernelIdeal.KVal.src_at e r (j 0)).trans (rsrc_at e r (j 0)).symm

theorem dst_eq (e : (⟨Cert.KernelIdeal.S3x2x1600000, .i32⟩ : BufTy).Contents (Elt Ideal)) (r : Fin 3) :
    Cert.KernelIdeal.KVal.dst e r = Cert.ReferenceIdeal.RVal.dst e r := by
  funext j
  rw [eq_ix1 j]
  exact (Cert.KernelIdeal.KVal.dst_at e r (j 0)).trans (rdst_at e r (j 0)).symm

/-- The edge-only data of the two programs is one `Env`. -/
theorem env_eq (e : (⟨Cert.KernelIdeal.S3x2x1600000, .i32⟩ : BufTy).Contents (Elt Ideal)) :
    Cert.KernelIdeal.KVal.env e = Cert.ReferenceIdeal.RVal.env e := by
  unfold Cert.KernelIdeal.KVal.env Cert.ReferenceIdeal.RVal.env
  simp only [src_eq e, dst_eq e]
  rfl

end Cert.Bridge

end
-- ==== Proof.lean ====
/-
  A two-layer relational graph convolution (100000 nodes, 3 relations of 1600000 edges, widths 128 → 128 → 64), its dense
  steps as four pallas_call regions with the edge-indexed gathers and scatter-adds as host operations between them, against
  a reference that is host operations only.

  Per layer and relation both programs compute: the outgoing- and incoming-degree scalings of the nodes (count a node's edges
  by a scatter-add of ones, clamp at one, power -1/2), the messages (rows scaled by the outgoing scaling, times the relation's
  weight matrix), their neighbourhood sums (gather at the source nodes, scatter-add at the target nodes), and, from the zero
  word, relation after relation, the sums scaled by the incoming scaling plus the bias row; the hidden layer is clamped at
  zero. Over the extended reals the two are the SAME formula with the same association (the specification, Proof/Spec.lean:
  `Cert.GraphConv.out`), so no law beyond re-indexing joins them and the inputs' finiteness is never used: a change of float
  format is the identity, a matrix product into a zero accumulator and the host's contraction are one sum over `k`, and the
  edge-only data is carried as a parameter that both programs instantiate with equal values (Proof/Bridge.lean).

  The frames. The reference's is its run with the result dropped. Each kernel program's @main is four stretches of host
  operations each followed by a region; every region's body loads whole blocks, computes, and stores one whole block, so its
  proof data names what each point leaves (Proof/KiFrDefs.lean), its body obligation is one symbolic run (Proof/KiFrBody0-3),
  and the launch theorem for a list of host stretches and regions gives termination without a fault and every buffer's final
  contents as a fold from the launch memory (Proof/KiFrRun.lean); no stretch writes an argument and a region at most reads
  one (Proof/KiFrFold.lean). The word-level program's frame is the same text at its own namespace (Proof/KbFr*.lean).
  The kernel's result array is read off that fold (Proof/KVal*.lean), the reference's off its run (Proof/RVal*.lean).
  The idealization rewrote no operation, so `preserves` has no conjunct.
-/
import proofs.«116805_j7318624272994_1_alg».proof.Defs
import proofs.«116805_j7318624272994_1_alg».proof.Proof.Gen.Kernel
import proofs.«116805_j7318624272994_1_alg».proof.Proof.Gen.KernelIdeal
import proofs.«116805_j7318624272994_1_alg».proof.Proof.Gen.ReferenceIdeal
import proofs.«116805_j7318624272994_1_alg».proof.Proof.Gen.Pre_finite_inputs
import proofs.«116805_j7318624272994_1_alg».proof.Proof.KbFrRun
import proofs.«116805_j7318624272994_1_alg».proof.Proof.KiFrRun
import proofs.«116805_j7318624272994_1_alg».proof.Proof.KValMain
import proofs.«116805_j7318624272994_1_alg».proof.Proof.RValMain
import proofs.«116805_j7318624272994_1_alg».proof.Proof.Bridge
import Idealize.ShloMosaic.Adequacy
import Idealize.ShloMosaic.Init

noncomputable section

namespace Cert.Proof

open Idealize.ShloMosaic Idealize.ShloMosaic.TcCoe Idealize.SL.Sem ValueIdx

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel ends with its result array at the last fold's contents of the result buffer, the reference at its
    run's term; at agreeing arguments both are the specification's function of the arguments, at the same edge-only data. -/
theorem algebraic : Cert.algebraic_KernelIdeal_ReferenceIdeal := by
  intro m ρ m' ρ' _ hagree
  refine ⟨fun c => Cert.KernelIdeal.Fr.W8 (F := Ideal) m ρ c (Proc.devRef .tc Cert.KernelIdeal.main_v255), ?_, ?_⟩
  · refine (θ_run Cert.KernelIdeal.defs _ _).mono (fun r h c => ?_) (Cert.KernelIdeal.Fr.run_all (F := Ideal) m ρ)
    exact ⟨h c _ (Cert.KernelIdeal.Fr.mem_uc Cert.KernelIdeal.main_v255 (by decide)),
      (h c _ (Cert.KernelIdeal.Fr.mem_uc Cert.KernelIdeal.main_arg0 (by decide))).trans (Cert.KernelIdeal.Fr.W8_arg0 m ρ c),
      (h c _ (Cert.KernelIdeal.Fr.mem_uc Cert.KernelIdeal.main_arg1 (by decide))).trans (Cert.KernelIdeal.Fr.W8_arg1 m ρ c),
      (h c _ (Cert.KernelIdeal.Fr.mem_uc Cert.KernelIdeal.main_arg2 (by decide))).trans (Cert.KernelIdeal.Fr.W8_arg2 m ρ c),
      (h c _ (Cert.KernelIdeal.Fr.mem_uc Cert.KernelIdeal.main_arg3 (by decide))).trans (Cert.KernelIdeal.Fr.W8_arg3 m ρ c),
      (h c _ (Cert.KernelIdeal.Fr.mem_uc Cert.KernelIdeal.main_arg4 (by decide))).trans (Cert.KernelIdeal.Fr.W8_arg4 m ρ c),
      (h c _ (Cert.KernelIdeal.Fr.mem_uc Cert.KernelIdeal.main_arg5 (by decide))).trans (Cert.KernelIdeal.Fr.W8_arg5 m ρ c)⟩
  · refine (θ_run Cert.ReferenceIdeal.defs _ _).mono (fun _ h c => ⟨(h c).1.trans ?_, (h c).2⟩)
      (Cert.ReferenceIdeal.Value.run (F := Ideal) m' ρ')
    funext i
    rw [eq_ix2 i]
    refine (Cert.ReferenceIdeal.RVal.ref_value m' c (i 0) (i 1)).trans ?_
    rw [(hagree c).1, (hagree c).2.1, (hagree c).2.2.1, (hagree c).2.2.2.1, (hagree c).2.2.2.2.1, (hagree c).2.2.2.2.2,
      ← Cert.Bridge.env_eq]
    exact (Cert.KernelIdeal.KVal.kernel_value m ρ c (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
